-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9216x1024 : Shape := ⟨2, ![9216, 1024]⟩
abbrev S9216 : Shape := ⟨1, ![9216]⟩
abbrev S1025x128 : Shape := ⟨2, ![1025, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S9216x1024 : S_.BroadcastsInDim S9216x1024 (![] : Fin 0 → Fin S9216x1024.rank)
  reducesTo_S9216x1024_S_d0_1 : S9216x1024.ReducesTo [0, 1] S_
  h_S_ : 0 < S_.numel
  bcast_S_S9216 : S_.BroadcastsInDim S9216 (![] : Fin 0 → Fin S9216.rank)
  reducesTo_S9216_S_d0 : S9216.ReducesTo [0] S_
  bcast_S_S1025x128 : S_.BroadcastsInDim S1025x128 (![] : Fin 0 → Fin S1025x128.rank)
  reducesTo_S1025x128_S_d0_1 : S1025x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64 .f32) (main_arg8 : FVec F S64 .f32) (main_arg9 : FVec F S64 .f32) (main_arg10 : FVec F S64x1 .f32) (main_arg11 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S128 .f32) (main_arg5 : FVec F S128 .f32) (main_arg6 : FVec F S128x64 .f32) (main_arg7 : FVec F S64 .f32) (main_arg8 : FVec F S64 .f32) (main_arg9 : FVec F S64 .f32) (main_arg10 : FVec F S64x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S9216x1024 .f32) (main_arg1 : FVec F S9216 .f32) (main_arg2 : FVec F S1025x128 .f32) (main_arg3 : FVec F S128 .f32) (main_arg4 : FVec F S128 .f32) (main_arg5 : FVec F S128 .f32) (main_arg6 : FVec F S128x64 .f32) (main_arg7 : FVec F S64 .f32) (main_arg8 : FVec F S64 .f32) (main_arg9 : FVec F S64 .f32) (main_arg10 : FVec F S64x1 .f32) (main_arg11 : FVec F S1 .f32) : IVec S_ 1 :=
  let main_v0 : FVec F S9216x1024 .f32 := Host.absf main_arg0
  let main_cst : FVec F S_ .f32 := constant S_ .f32 0x7F800000#32
  let main_v1 : FVec F S9216x1024 .f32 := broadcastInDim S9216x1024 ![] bcast_S_S9216x1024 main_cst
  let main_v2 : IVec S9216x1024 1 := cmpf .olt main_v0 main_v1
  let main_c : IVec S_ 1 := constantI S_ 1 1#1
  let main_v3 : IVec S_ 1 := (fun x v => Host.reduce IntOp.andi x v reducesTo_S9216x1024_S_d0_1 h_S_) main_v2 main_c
  let main_v4 : FVec F S9216 .f32 := Host.absf main_arg1
  let main_cst_0 : FVec F S_ .f32 := constant S_ .f32 0x7F800000#32
  let main_v5 : FVec F S9216 .f32 := broadcastInDim S9216 ![] bcast_S_S9216 main_cst_0
  let main_v6 : IVec S9216 1 := cmpf .olt main_v4 main_v5
  let main_c_1 : IVec S_ 1 := constantI S_ 1 1#1
  let main_v7 : IVec S_ 1 := (fun x v => Host.reduce IntOp.andi x v reducesTo_S9216_S_d0 h_S_) main_v6 main_c_1
  let main_v8 : IVec S_ 1 := andi main_v3 main_v7
  let main_v9 : FVec F S1025x128 .f32 := Host.absf main_arg2
  let main_cst_2 : FVec F S_ .f32 := constant S_ .f32 0x7F800000#32
  let main_v10 : FVec F S1025x128 .f32 := broadcastInDim S1025x128 ![] bcast_S_S1025x128 main_cst_2
  let main_v11 : IVec S1025x128 1 := cmpf .olt main_v9 main_v10
  let main_c_3 : IVec S_ 1 := constantI S_ 1 1#1
  let main_v12 : IVec S_ 1 := (fun x v => Host.reduce IntOp.andi x v reducesTo_S1025x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S9216x1024 : Shape := ⟨2, ![9216, 1024]⟩
abbrev S9216 : Shape := ⟨1, ![9216]⟩
abbrev S1025x128 : Shape := ⟨2, ![1025, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S9216x1 : Shape := ⟨2, ![9216, 1]⟩
abbrev S1024x1024 : Shape := ⟨2, ![1024, 1024]⟩
abbrev S512x1024 : Shape := ⟨2, ![512, 1024]⟩
abbrev S1024x1 : Shape := ⟨2, ![1024, 1]⟩
abbrev S1024 : Shape := ⟨1, ![1024]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩
abbrev S_ : Shape := ⟨0, ![]⟩
abbrev S9216x1025 : Shape := ⟨2, ![9216, 1025]⟩
abbrev S9216x128 : Shape := ⟨2, ![9216, 128]⟩
abbrev S1x128 : Shape := ⟨2, ![1, 128]⟩
abbrev S9216x64 : Shape := ⟨2, ![9216, 64]⟩
abbrev S1x64 : Shape := ⟨2, ![1, 64]⟩
abbrev S1x1 : Shape := ⟨2, ![1, 1]⟩

abbrev nBuf : Space → Nat
  | .hbm => 73
  | .vmem => 7
  | .smem => 0
  | _ => 0

abbrev bufTy : (tb : Table) → Fin (tcTables nBuf tb) → BufTy
  | .hbm, ⟨0, _⟩ => ⟨S9216x1024, .f32⟩
  | .hbm, ⟨1, _⟩ => ⟨S9216, .f32⟩
  | .hbm, ⟨2, _⟩ => ⟨S1025x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S9216x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S9216x1, .f32⟩
  | .hbm, ⟨18, _⟩ => ⟨S9216x1025, .f32⟩
  | .hbm, ⟨19, _⟩ => ⟨S9216x128, .f32⟩
  | .hbm, ⟨20, _⟩ => ⟨S1x128, .f32⟩
  | .hbm, ⟨21, _⟩ => ⟨S9216x128, .f32⟩
  | .hbm, ⟨22, _⟩ => ⟨S9216x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S9216x128, .f32⟩
  | .hbm, ⟨27, _⟩ => ⟨S9216x128, .f32⟩
  | .hbm, ⟨28, _⟩ => ⟨S1x128, .f32⟩
  | .hbm, ⟨29, _⟩ => ⟨S9216x128, .f32⟩
  | .hbm, ⟨30, _⟩ => ⟨S9216x128, .f32⟩
  | .hbm, ⟨31, _⟩ => ⟨S1x128, .f32⟩
  | .hbm, ⟨32, _⟩ => ⟨S9216x128, .f32⟩
  | .hbm, ⟨33, _⟩ => ⟨S9216x128, .f32⟩
  | .hbm, ⟨34, _⟩ => ⟨S_, .f32⟩
  | .hbm, ⟨35, _⟩ => ⟨S9216x128, .f32⟩
  | .hbm, ⟨36, _⟩ => ⟨S9216x128, .f32⟩
  | .hbm, ⟨37, _⟩ => ⟨S9216x64, .f32⟩
  | .hbm, ⟨38, _⟩ => ⟨S1x64, .f32⟩
  | .hbm, ⟨39, _⟩ => ⟨S9216x64, .f32⟩
  | .hbm, ⟨40, _⟩ => ⟨S9216x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S9216x64, .f32⟩
  | .hbm, ⟨45, _⟩ => ⟨S9216x64, .f32⟩
  | .hbm, ⟨46, _⟩ => ⟨S1x64, .f32⟩
  | .hbm, ⟨47, _⟩ => ⟨S9216x64, .f32⟩
  | .hbm, ⟨48, _⟩ => ⟨S9216x64, .f32⟩
  | .hbm, ⟨49, _⟩ => ⟨S1x64, .f32⟩
  | .hbm, ⟨50, _⟩ => ⟨S9216x64, .f32⟩
  | .hbm, ⟨51, _⟩ => ⟨S9216x64, .f32⟩
  | .hbm, ⟨52, _⟩ => ⟨S_, .f32⟩
  | .hbm, ⟨53, _⟩ => ⟨S9216x64, .f32⟩
  | .hbm, ⟨54, _⟩ => ⟨S9216x64, .f32⟩
  | .hbm, ⟨55, _⟩ => ⟨S9216x1, .f32⟩
  | .hbm, ⟨56, _⟩ => ⟨S1x1, .f32⟩
  | .hbm, ⟨57, _⟩ => ⟨S9216x1, .f32⟩
  | .hbm, ⟨58, _⟩ => ⟨S9216x1, .f32⟩
  | .hbm, ⟨59, _⟩ => ⟨S9216x1, .f32⟩
  | .hbm, ⟨60, _⟩ => ⟨S9216x1, .f32⟩
  | .hbm, ⟨61, _⟩ => ⟨S_, .f32⟩
  | .hbm, ⟨62, _⟩ => ⟨S9216x1, .f32⟩
  | .hbm, ⟨63, _⟩ => ⟨S9216x1, .f32⟩
  | .hbm, ⟨64, _⟩ => ⟨S_, .f32⟩
  | .hbm, ⟨65, _⟩ => ⟨S9216x1, .f32⟩
  | .hbm, ⟨66, _⟩ => ⟨S9216x1, .f32⟩
  | .hbm, ⟨67, _⟩ => ⟨S9216, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S9216x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call1_cst : Ref sig .tc := ⟨.hbm, 52, rfl⟩
abbrev main_call1_v0 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_3 : Ref sig .tc := ⟨.hbm, 61, rfl⟩
abbrev main_v41 : Ref sig .tc := ⟨.hbm, 62, rfl⟩
abbrev main_v42 : Ref sig .tc := ⟨.hbm, 63, rfl⟩
abbrev main_cst_4 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_5 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 18], ![false, false]⟩

def k0_cond2 (i : grid0.Coords) : BitVec 1 :=
  let arg1 : BitVec 32 := BitVec.ofNat 32 (i 1).val
  let c17_i32 : BitVec 32 := 17#32
  let v49 : BitVec 1 := Scalar.cmpi .eq arg1 c17_i32
  let v50 : BitVec 32 := Scalar.extui v49
  let c0_i32_18 : BitVec 32 := 0#32
  let v51 : BitVec 1 := Scalar.cmpi .ne v50 c0_i32_18
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S1024x1024_S1024 : S1024x1024.Reduces [1] S1024
  shapeCasts_S1024_S1024x1 : S1024.ShapeCasts S1024x1
  reduces_S512x1024_S512 : S512x1024.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x1024_p1_0_S1024x512 : S512x1024.Transposes [1, 0] S1024x512
  broadcasts_S1024x1_S1024x512 : S1024x1.Broadcasts S1024x512
  broadcasts_S1x512_S1024x512 : S1x512.Broadcasts S1024x512
  reduces_S1024x512_S1024 : S1024x512.Reduces [1] S1024
  reducesTo_S9216x1_S_d0_1 : S9216x1.ReducesTo [0, 1] S_
  h_S_ : 0 < S_.numel
  bcast_S9216_S9216x1_0 : S9216.BroadcastsInDim S9216x1 (![0] : Fin 1 → Fin S9216x1.rank)
  concatenates_S9216x1024_S9216x1_S9216x1025_d1 : Shape.Concatenates [S9216x1024, S9216x1] S9216x1025 1
  bcast_S128_S1x128_1 : S128.BroadcastsInDim S1x128 (![1] : Fin 1 → Fin S1x128.rank)
  bcast_S1x128_S9216x128_0_1 : S1x128.BroadcastsInDim S9216x128 (![0, 1] : Fin 2 → Fin S9216x128.rank)
  bcast_S_S9216x128 : S_.BroadcastsInDim S9216x128 (![] : Fin 0 → Fin S9216x128.rank)
  bcast_S64_S1x64_1 : S64.BroadcastsInDim S1x64 (![1] : Fin 1 → Fin S1x64.rank)
  bcast_S1x64_S9216x64_0_1 : S1x64.BroadcastsInDim S9216x64 (![0, 1] : Fin 2 → Fin S9216x64.rank)
  bcast_S_S9216x64 : S_.BroadcastsInDim S9216x64 (![] : Fin 0 → Fin S9216x64.rank)
  bcast_S1_S1x1_1 : S1.BroadcastsInDim S1x1 (![1] : Fin 1 → Fin S1x1.rank)
  bcast_S1x1_S9216x1_0_1 : S1x1.BroadcastsInDim S9216x1 (![0, 1] : Fin 2 → Fin S9216x1.rank)
  bcast_S_S9216x1 : S_.BroadcastsInDim S9216x1 (![] : Fin 0 → Fin S9216x1.rank)
  shapeCasts_S9216x1_S9216 : S9216x1.ShapeCasts S9216
  reducesTo_S9216_S_d0 : S9216.ReducesTo [0] S_
  dot_S1024x1024_S1024x512_S1024x512_1_0_0_1_n_n_wf : DotDims.WF S1024x1024 S1024x512 S1024x512 [1] [0] [0] [1] [] []
  dot_S9216x1025_S1025x128_S9216x128_1_0_0_1_n_n_wf : DotDims.WF S9216x1025 S1025x128 S9216x128 [1] [0] [0] [1] [] []
  dot_S9216x128_S128x64_S9216x64_1_0_0_1_n_n_wf : DotDims.WF S9216x128 S128x64 S9216x64 [1] [0] [0] [1] [] []
  dot_S9216x64_S64x1_S9216x1_1_0_0_1_n_n_wf : DotDims.WF S9216x64 S64x1 S9216x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S9216x1024.size a
  hwx0_0 : ∀ i : grid0.Coords, EltTy.bits .f32 = 32 ∨ (Rect.block (s := S9216x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S9216x1024.size a
  hwx0_1 : ∀ i : grid0.Coords, EltTy.bits .f32 = 32 ∨ (Rect.block (s := S9216x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S9216x1.size a
  hwx0_2 : ∀ i : grid0.Coords, EltTy.bits .f32 = 32 ∨ (Rect.block (s := S9216x1) S1024x1.size (cc0_transform_2 i) (hinb0_2 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S9216x1025_S1025x128_S9216x128_1_0_0_1_n_n : DotDims S9216x1025 S1025x128 S9216x128 where
  lhsContracting := [1]
  rhsContracting := [0]
  lhsNonContracting := [0]
  rhsNonContracting := [1]
  lhsBatch := []
  rhsBatch := []
  wf := dot_S9216x1025_S1025x128_S9216x128_1_0_0_1_n_n_wf
def dot_S9216x128_S128x64_S9216x64_1_0_0_1_n_n : DotDims S9216x128 S128x64 S9216x64 where
  lhsContracting := [1]
  rhsContracting := [0]
  lhsNonContracting := [0]
  rhsNonContracting := [1]
  lhsBatch := []
  rhsBatch := []
  wf := dot_S9216x128_S128x64_S9216x64_1_0_0_1_n_n_wf
def dot_S9216x64_S64x1_S9216x1_1_0_0_1_n_n : DotDims S9216x64 S64x1 S9216x1 where
  lhsContracting := [1]
  rhsContracting := [0]
  lhsNonContracting := [0]
  rhsNonContracting := [1]
  lhsBatch := []
  rhsBatch := []
  wf := dot_S9216x64_S64x1_S9216x1_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S9216x1024 : Shape := ⟨2, ![9216, 1024]⟩
abbrev S9216 : Shape := ⟨1, ![9216]⟩
abbrev S1025x128 : Shape := ⟨2, ![1025, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S1024x9216 : Shape := ⟨2, ![1024, 9216]⟩
abbrev S9216x9216 : Shape := ⟨2, ![9216, 9216]⟩
abbrev S9216x1 : Shape := ⟨2, ![9216, 1]⟩
abbrev S1x9216 : Shape := ⟨2, ![1, 9216]⟩
abbrev S9216x1025 : Shape := ⟨2, ![9216, 1025]⟩
abbrev S9216x128 : Shape := ⟨2, ![9216, 128]⟩
abbrev S1x128 : Shape := ⟨2, ![1, 128]⟩
abbrev S9216x64 : Shape := ⟨2, ![9216, 64]⟩
abbrev S1x64 : Shape := ⟨2, ![1, 64]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S9216x1024, .f32⟩
  | .hbm, ⟨1, _⟩ => ⟨S9216, .f32⟩
  | .hbm, ⟨2, _⟩ => ⟨S1025x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S9216x1024, .f32⟩
  | .hbm, ⟨13, _⟩ => ⟨S_, .f32⟩
  | .hbm, ⟨14, _⟩ => ⟨S9216, .f32⟩
  | .hbm, ⟨15, _⟩ => ⟨S1024x9216, .f32⟩
  | .hbm, ⟨16, _⟩ => ⟨S9216x9216, .f32⟩
  | .hbm, ⟨17, _⟩ => ⟨S9216, .f32⟩
  | .hbm, ⟨18, _⟩ => ⟨S9216x1, .f32⟩
  | .hbm, ⟨19, _⟩ => ⟨S1x9216, .f32⟩
  | .hbm, ⟨20, _⟩ => ⟨S9216x9216, .f32⟩
  | .hbm, ⟨21, _⟩ => ⟨S9216x9216, .f32⟩
  | .hbm, ⟨22, _⟩ => ⟨S9216x9216, .f32⟩
  | .hbm, ⟨23, _⟩ => ⟨S_, .f32⟩
  | .hbm, ⟨24, _⟩ => ⟨S9216x9216, .f32⟩
  | .hbm, ⟨25, _⟩ => ⟨S9216x9216, .f32⟩
  | .hbm, ⟨26, _⟩ => ⟨S9216x9216, .f32⟩
  | .hbm, ⟨27, _⟩ => ⟨S9216x1, .f32⟩
  | .hbm, ⟨28, _⟩ => ⟨S1x9216, .f32⟩
  | .hbm, ⟨29, _⟩ => ⟨S9216x9216, .f32⟩
  | .hbm, ⟨30, _⟩ => ⟨S9216x9216, .f32⟩
  | .hbm, ⟨31, _⟩ => ⟨S9216x9216, .f32⟩
  | .hbm, ⟨32, _⟩ => ⟨S_, .f32⟩
  | .hbm, ⟨33, _⟩ => ⟨S9216x9216, .f32⟩
  | .hbm, ⟨34, _⟩ => ⟨S9216x9216, .f32⟩
  | .hbm, ⟨35, _⟩ => ⟨S9216x9216, .f32⟩
  | .hbm, ⟨36, _⟩ => ⟨S_, .f32⟩
  | .hbm, ⟨37, _⟩ => ⟨S9216x9216, .f32⟩
  | .hbm, ⟨38, _⟩ => ⟨S9216x9216, .f32⟩
  | .hbm, ⟨39, _⟩ => ⟨S_, .f32⟩
  | .hbm, ⟨40, _⟩ => ⟨S9216x9216, .f32⟩
  | .hbm, ⟨41, _⟩ => ⟨S9216x9216, .f32⟩
  | .hbm, ⟨42, _⟩ => ⟨S_, .f32⟩
  | .hbm, ⟨43, _⟩ => ⟨S9216x9216, .f32⟩
  | .hbm, ⟨44, _⟩ => ⟨S9216x9216, .f32⟩
  | .hbm, ⟨45, _⟩ => ⟨S_, .f32⟩
  | .hbm, ⟨46, _⟩ => ⟨S9216x9216, .f32⟩
  | .hbm, ⟨47, _⟩ => ⟨S9216x9216, .f32⟩
  | .hbm, ⟨48, _⟩ => ⟨S9216x9216, .f32⟩
  | .hbm, ⟨49, _⟩ => ⟨S9216x9216, .f32⟩
  | .hbm, ⟨50, _⟩ => ⟨S9216x9216, .f32⟩
  | .hbm, ⟨51, _⟩ => ⟨S9216x9216, .i32⟩
  | .hbm, ⟨52, _⟩ => ⟨S9216x9216, .i32⟩
  | .hbm, ⟨53, _⟩ => ⟨S_, .i32⟩
  | .hbm, ⟨54, _⟩ => ⟨S9216x9216, .i32⟩
  | .hbm, ⟨55, _⟩ => ⟨S9216x9216, .i32⟩
  | .hbm, ⟨56, _⟩ => ⟨S9216x9216, .i1⟩
  | .hbm, ⟨57, _⟩ => ⟨S_, .f32⟩
  | .hbm, ⟨58, _⟩ => ⟨S9216x9216, .f32⟩
  | .hbm, ⟨59, _⟩ => ⟨S9216x9216, .f32⟩
  | .hbm, ⟨60, _⟩ => ⟨S9216x1, .f32⟩
  | .hbm, ⟨61, _⟩ => ⟨S9216x1025, .f32⟩
  | .hbm, ⟨62, _⟩ => ⟨S9216x128, .f32⟩
  | .hbm, ⟨63, _⟩ => ⟨S1x128, .f32⟩
  | .hbm, ⟨64, _⟩ => ⟨S9216x128, .f32⟩
  | .hbm, ⟨65, _⟩ => ⟨S9216x128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S9216x128, .f32⟩
  | .hbm, ⟨70, _⟩ => ⟨S9216x128, .f32⟩
  | .hbm, ⟨71, _⟩ => ⟨S1x128, .f32⟩
  | .hbm, ⟨72, _⟩ => ⟨S9216x128, .f32⟩
  | .hbm, ⟨73, _⟩ => ⟨S9216x128, .f32⟩
  | .hbm, ⟨74, _⟩ => ⟨S1x128, .f32⟩
  | .hbm, ⟨75, _⟩ => ⟨S9216x128, .f32⟩
  | .hbm, ⟨76, _⟩ => ⟨S9216x128, .f32⟩
  | .hbm, ⟨77, _⟩ => ⟨S_, .f32⟩
  | .hbm, ⟨78, _⟩ => ⟨S9216x128, .f32⟩
  | .hbm, ⟨79, _⟩ => ⟨S9216x128, .f32⟩
  | .hbm, ⟨80, _⟩ => ⟨S9216x64, .f32⟩
  | .hbm, ⟨81, _⟩ => ⟨S1x64, .f32⟩
  | .hbm, ⟨82, _⟩ => ⟨S9216x64, .f32⟩
  | .hbm, ⟨83, _⟩ => ⟨S9216x64, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S9216x64, .f32⟩
  | .hbm, ⟨88, _⟩ => ⟨S9216x64, .f32⟩
  | .hbm, ⟨89, _⟩ => ⟨S1x64, .f32⟩
  | .hbm, ⟨90, _⟩ => ⟨S9216x64, .f32⟩
  | .hbm, ⟨91, _⟩ => ⟨S9216x64, .f32⟩
  | .hbm, ⟨92, _⟩ => ⟨S1x64, .f32⟩
  | .hbm, ⟨93, _⟩ => ⟨S9216x64, .f32⟩
  | .hbm, ⟨94, _⟩ => ⟨S9216x64, .f32⟩
  | .hbm, ⟨95, _⟩ => ⟨S_, .f32⟩
  | .hbm, ⟨96, _⟩ => ⟨S9216x64, .f32⟩
  | .hbm, ⟨97, _⟩ => ⟨S9216x64, .f32⟩
  | .hbm, ⟨98, _⟩ => ⟨S9216x1, .f32⟩
  | .hbm, ⟨99, _⟩ => ⟨S1x1, .f32⟩
  | .hbm, ⟨100, _⟩ => ⟨S9216x1, .f32⟩
  | .hbm, ⟨101, _⟩ => ⟨S9216x1, .f32⟩
  | .hbm, ⟨102, _⟩ => ⟨S9216x1, .f32⟩
  | .hbm, ⟨103, _⟩ => ⟨S9216x1, .f32⟩
  | .hbm, ⟨104, _⟩ => ⟨S_, .f32⟩
  | .hbm, ⟨105, _⟩ => ⟨S9216x1, .f32⟩
  | .hbm, ⟨106, _⟩ => ⟨S9216x1, .f32⟩
  | .hbm, ⟨107, _⟩ => ⟨S_, .f32⟩
  | .hbm, ⟨108, _⟩ => ⟨S9216x1, .f32⟩
  | .hbm, ⟨109, _⟩ => ⟨S9216x1, .f32⟩
  | .hbm, ⟨110, _⟩ => ⟨S9216, .f32⟩
  | .hbm, ⟨111, _⟩ => ⟨S_, .f32⟩
  | .hbm, ⟨112, _⟩ => ⟨S9216, .f32⟩
  | .hbm, ⟨113, _⟩ => ⟨S_, .f32⟩
  | .hbm, ⟨114, _⟩ => ⟨S9216, .f32⟩
  | .hbm, ⟨115, _⟩ => ⟨S9216, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | _, _ => ⟨S9216x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_call0_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call1_cst : Ref sig .tc := ⟨.hbm, 77, rfl⟩
abbrev main_call1_v0 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_8 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call2_cst : Ref sig .tc := ⟨.hbm, 95, rfl⟩
abbrev main_call2_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_9 : Ref sig .tc := ⟨.hbm, 104, rfl⟩
abbrev main_v76 : Ref sig .tc := ⟨.hbm, 105, rfl⟩
abbrev main_v77 : Ref sig .tc := ⟨.hbm, 106, rfl⟩
abbrev main_cst_10 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_11 : Ref sig .tc := ⟨.hbm, 111, rfl⟩
abbrev main_v81 : Ref sig .tc := ⟨.hbm, 112, rfl⟩
abbrev main_cst_12 : Ref sig .tc := ⟨.hbm, 113, rfl⟩
abbrev main_v82 : Ref sig .tc := ⟨.hbm, 114, rfl⟩
abbrev main_v83 : Ref sig .tc := ⟨.hbm, 115, rfl⟩
abbrev main_cst_13 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_cst_15 : Ref sig .tc := ⟨.hbm, 120, rfl⟩
abbrev main_v86 : Ref sig .tc := ⟨.hbm, 121, rfl⟩
abbrev main_cst_16 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  reducesTo_S9216x1024_S9216_d1 : S9216x1024.ReducesTo [1] S9216
  h_S_ : 0 < S_.numel
  transposes_S9216x1024_S1024x9216_1_0 : S9216x1024.Transposes [1, 0] S1024x9216
  bcast_S9216_S9216x1_0 : S9216.BroadcastsInDim S9216x1 (![0] : Fin 1 → Fin S9216x1.rank)
  bcast_S9216_S1x9216_1 : S9216.BroadcastsInDim S1x9216 (![1] : Fin 1 → Fin S1x9216.rank)
  bcast_S9216x1_S9216x9216_0_1 : S9216x1.BroadcastsInDim S9216x9216 (![0, 1] : Fin 2 → Fin S9216x9216.rank)
  bcast_S1x9216_S9216x9216_0_1 : S1x9216.BroadcastsInDim S9216x9216 (![0, 1] : Fin 2 → Fin S9216x9216.rank)
  bcast_S_S9216x9216 : S_.BroadcastsInDim S9216x9216 (![] : Fin 0 → Fin S9216x9216.rank)
  concatenates_S9216x1024_S9216x1_S9216x1025_d1 : Shape.Concatenates [S9216x1024, S9216x1] S9216x1025 1
  bcast_S128_S1x128_1 : S128.BroadcastsInDim S1x128 (![1] : Fin 1 → Fin S1x128.rank)
  bcast_S1x128_S9216x128_0_1 : S1x128.BroadcastsInDim S9216x128 (![0, 1] : Fin 2 → Fin S9216x128.rank)
  bcast_S_S9216x128 : S_.BroadcastsInDim S9216x128 (![] : Fin 0 → Fin S9216x128.rank)
  bcast_S64_S1x64_1 : S64.BroadcastsInDim S1x64 (![1] : Fin 1 → Fin S1x64.rank)
  bcast_S1x64_S9216x64_0_1 : S1x64.BroadcastsInDim S9216x64 (![0, 1] : Fin 2 → Fin S9216x64.rank)
  bcast_S_S9216x64 : S_.BroadcastsInDim S9216x64 (![] : Fin 0 → Fin S9216x64.rank)
  bcast_S1_S1x1_1 : S1.BroadcastsInDim S1x1 (![1] : Fin 1 → Fin S1x1.rank)
  bcast_S1x1_S9216x1_0_1 : S1x1.BroadcastsInDim S9216x1 (![0, 1] : Fin 2 → Fin S9216x1.rank)
  bcast_S_S9216x1 : S_.BroadcastsInDim S9216x1 (![] : Fin 0 → Fin S9216x1.rank)
  shapeCasts_S9216x1_S9216 : S9216x1.ShapeCasts S9216
  reducesTo_S9216x9216_S9216_d1 : S9216x9216.ReducesTo [1] S9216
  bcast_S_S9216 : S_.BroadcastsInDim S9216 (![] : Fin 0 → Fin S9216.rank)
  reducesTo_S9216_S_d0 : S9216.ReducesTo [0] S_
  dot_S9216x1024_S1024x9216_S9216x9216_1_0_0_1_n_n_wf : DotDims.WF S9216x1024 S1024x9216 S9216x9216 [1] [0] [0] [1] [] []
  dot_S9216x1025_S1025x128_S9216x128_1_0_0_1_n_n_wf : DotDims.WF S9216x1025 S1025x128 S9216x128 [1] [0] [0] [1] [] []
  dot_S9216x128_S128x64_S9216x64_1_0_0_1_n_n_wf : DotDims.WF S9216x128 S128x64 S9216x64 [1] [0] [0] [1] [] []
  dot_S9216x64_S64x1_S9216x1_1_0_0_1_n_n_wf : DotDims.WF S9216x64 S64x1 S9216x1 [1] [0] [0] [1] [] []

variable [Facts₀]

def dot_S9216x1024_S1024x9216_S9216x9216_1_0_0_1_n_n : DotDims S9216x1024 S1024x9216 S9216x9216 where
  lhsContracting := [1]
  rhsContracting := [0]
  lhsNonContracting := [0]
  rhsNonContracting := [1]
  lhsBatch := []
  rhsBatch := []
  wf := dot_S9216x1024_S1024x9216_S9216x9216_1_0_0_1_n_n_wf
def dot_S9216x1025_S1025x128_S9216x128_1_0_0_1_n_n : DotDims S9216x1025 S1025x128 S9216x128 where
  lhsContracting := [1]
  rhsContracting := [0]
  lhsNonContracting := [0]
  rhsNonContracting := [1]
  lhsBatch := []
  rhsBatch := []
  wf := dot_S9216x1025_S1025x128_S9216x128_1_0_0_1_n_n_wf
def dot_S9216x128_S128x64_S9216x64_1_0_0_1_n_n : DotDims S9216x128 S128x64 S9216x64 where
  lhsContracting := [1]
  rhsContracting := [0]
  lhsNonContracting := [0]
  rhsNonContracting := [1]
  lhsBatch := []
  rhsBatch := []
  wf := dot_S9216x128_S128x64_S9216x64_1_0_0_1_n_n_wf
def dot_S9216x64_S64x1_S9216x1_1_0_0_1_n_n : DotDims S9216x64 S64x1 S9216x1 where
  lhsContracting := [1]
  rhsContracting := [0]
  lhsNonContracting := [0]
  rhsNonContracting := [1]
  lhsBatch := []
  rhsBatch := []
  wf := dot_S9216x64_S64x1_S9216x1_1_0_0_1_n_n_wf

class Facts : Prop extends Facts₀ where

variable [Facts]
-- ==== Proof.Bits.Tail.lean ====
/-
  What the program holds once the region has ended and the host lines after it have run.
  The region leaves the row-sum array at what the write-backs put there and every other buffer as it was;
  the five stretches of host lines that follow (the sum over the rows and its scaling, the small network, the
  final product) then act on that valuation one after the other.
-/
import proofs.«151718_j86638080294934_1_alg».proof.Proof.Gen.Kernel.Launch
import proofs.«151718_j86638080294934_1_alg».proof.Proof.Gen.Kernel.Points
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

/-- Core `c`'s buffer `b` when the region is entered: no host line precedes the region, so its launch contents. -/
abbrev V (m : (ℓ : Loc nD τ sig) → Buf (Elt F) ℓ) (c : Dev nD) (b : Ref sig .tc) : Buf (Elt F) ((c : Thread nD τ).loc b) :=
  m (c, Proc.devRef .tc b)

/-- The host lines after the region, stretch by stretch, in program order. -/
abbrev tailOpss : List (List (HloOp τ sig (Elt F))) := [hostOps1, hostOps1_1, hostOps1_2, hostOps1_3, hostOps1_4]

/-- The buffers of core `c` when the region ends: the row-sum array at `out`, every other buffer at its launch contents. -/
def exitVal (m : (ℓ : Loc nD τ sig) → Buf (Elt F) ℓ) (c : Dev nD) (out : Buf (Elt F) ((c.tc : Thread nD τ).loc main_v0)) :
    Valuation τ sig (Elt F) := fun b =>
  if h : Proc.devRef .tc main_v0 = b then cast (congrArg (fun b' : DevRef τ sig => b'.ty.Contents (Elt F)) h) out else m (c, b)

/-- The buffers of core `c` after the host lines that follow the region. -/
def tailV (m : (ℓ : Loc nD τ sig) → Buf (Elt F) ℓ)
    (dats : (p : Fin 1) → (c : Dev nD) → Dat τ (Elt F) Unit ℕ (UR sig nD τ) ℕ (cfgs p) c)
    (c : Dev nD) (b : Ref sig .tc) : Buf (Elt F) ((c.tc : Thread nD τ).loc b) :=
  StableHlo.after (tailOpss (F := F)).flatten (exitVal m c ((dats 0 c).arrAt 2 cfg0.N)) (Proc.devRef .tc b)

end Cert.Kernel.Hand

end
-- ==== Proof.Bits.Launch.lean ====
/-
  The run of @main around the kernel region, for a kernel whose two input windows read ONE array.

  The launch holds every unscoped buffer of the core whole. The region's three windows sit on two buffers only: the
  feature array (both input windows) and the row-sum array (the output window). The feature array's full share is dealt
  to the two input windows, its left half to the first and its right half to the second, both at the array's entry
  contents; the row-sum array goes whole to the output window. An input window never writes, so at the region's exit
  both halves are still at the entry contents and join into the full share again. The host lines after the region then
  run within every unscoped buffer of the core; they write neither array, so the arrays are handed back as the region
  left them and every other buffer at the valuation the lines leave.
-/
import proofs.«151718_j86638080294934_1_alg».proof.Proof.Bits.Tail
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
local notation "𝔻" => Pipeline.defs (fun q => Cfg.toPCfg (Val := Elt F) (cfgs q)) (defs₀ (F := F))
local notation "𝕍" => Variants.lift Variants.none

namespace Launch

/-! ## The arrays: two buffers behind three windows -/

/-- The windows' arrays are two buffers: the feature array (read by both input windows) and the row-sum array. -/
theorem arrRefs_eq : Finset.univ.image (Pipeline.arrRef spec0) = ([main_arg0, main_v0] : List (Ref sig .tc)).toFinset := by decide

/-- The buffers behind the windows' arrays, one by one. -/
theorem arrBufs_pair (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v0) ↦{fullShare} W main_v0)) := by
  unfold Pipeline.arrBufs
  exact bigSep_eq_bigSepL_of_eq [main_arg0, main_v0] arrRefs_eq (by decide) _

/-- The exit valuation holds the row-sum array at what the region left there, -/
theorem exitVal_at_v0 (m : (ℓ : Loc nD τ sig) → Buf (Elt F) ℓ) (c : Dev nD) (out : Buf (Elt F) ((c.tc : Thread nD τ).loc main_v0)) :
    exitVal m c out (Proc.devRef .tc main_v0) = out := by
  unfold exitVal
  rw [dif_pos rfl]
  rfl

/-- and every other buffer at its launch contents. -/
theorem exitVal_at_ne (m : (ℓ : Loc nD τ sig) → Buf (Elt F) ℓ) (c : Dev nD) (out : Buf (Elt F) ((c.tc : Thread nD τ).loc main_v0))
    (b : Ref sig .tc) (hb : b ≠ main_v0) : exitVal m c out (Proc.devRef .tc b) = m (c, Proc.devRef .tc b) := by
  unfold exitVal
  rw [dif_neg fun e => hb (Proc.devRef_injective _ e).symm]

/-- The full share of the feature array is its left and right halves, at the same contents. -/
theorem arg0_halves (c : Dev nD) (X : Buf (Elt F) ((c.tc : Thread nD τ).loc main_arg0)) :
    ((((c.tc : Thread nD τ).loc main_arg0) ↦{fullShare} X : sProp 𝕄))
      = iprop((((c.tc : Thread nD τ).loc main_arg0) ↦{fullShare.left} X) ∗ (((c.tc : Thread nD τ).loc main_arg0) ↦{fullShare.right} X)) :=
  BI.Entails.antisymm (pointsTo_share (PosShare.mem_left_op_right fullShare)).1 (pointsTo_share (PosShare.mem_left_op_right fullShare)).2

/-- The shares the three windows hold their arrays at: an input window its own, the output window the full one. -/
theorem share_0 {c : Dev nD} (dat : Dat τ (Elt F) Unit ℕ (UR sig nD τ) ℕ cfg0 c) (hq0 : dat.q 0 = fullShare.left) :
    dat.share 0 = fullShare.left := by
  unfold Dat.share; split
  · next h => exact absurd h (by decide)
  · exact hq0

theorem share_1 {c : Dev nD} (dat : Dat τ (Elt F) Unit ℕ (UR sig nD τ) ℕ cfg0 c) (hq1 : dat.q 1 = fullShare.right) :
    dat.share 1 = fullShare.right := by
  unfold Dat.share; split
  · next h => exact absurd h (by decide)
  · exact hq1

theorem share_2 {c : Dev nD} (dat : Dat τ (Elt F) Unit ℕ (UR sig nD τ) ℕ cfg0 c) : dat.share 2 = fullShare := by
  unfold Dat.share; split
  · rfl
  · next h => exact absurd rfl h

/-- The pipeline's arrays, the two input windows holding one half each of the feature array at the same contents, are
    the feature array and the row-sum array whole. -/
theorem arrays_pair {c : Dev nD} (dat : Dat τ (Elt F) Unit ℕ (UR sig nD τ) ℕ cfg0 c)
    (hq0 : dat.q 0 = fullShare.left) (hq1 : dat.q 1 = fullShare.right)
    (Fn : (w : Fin cfg0.W) → Buf (Elt F) ((cfg0.win w).arr.view.loc (c.tc : Thread nD τ)))
    (X : Buf (Elt F) ((c.tc : Thread nD τ).loc main_arg0)) (Y : Buf (Elt F) ((c.tc : Thread nD τ).loc main_v0))
    (h0 : Fn 0 = X) (h1 : Fn 1 = X) (h2 : Fn 2 = Y) :
    (dat.arrays Fn : sProp 𝕄)
      = iprop((((c.tc : Thread nD τ).loc main_arg0) ↦{fullShare} X) ∗ (((c.tc : Thread nD τ).loc main_v0) ↦{fullShare} Y)) := by
  unfold Dat.arrays
  rw [bigSep_W0, arg0_halves, (arr_whole0 0).set_eq_univ, (arr_whole0 2).set_eq_univ,
    share_0 dat hq0, share_1 dat hq1, share_2 dat, h0, h1, h2]
  exact (BI.Entails.antisymm BI.sep_assoc BI.sep_assoc').symm

/-! ## The host lines after the region -/

/-- No host line allocates a buffer. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- Every host line after the region touches unscoped buffers of the core only. -/
theorem tail_sub : ∀ ops ∈ (tailOpss (F := F)), ∀ op ∈ ops, op.bufs ⊆ Pipeline.ucRefs τ sig := by
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None allocates a buffer. -/
theorem tail_fresh : ∀ ops ∈ (tailOpss (F := F)), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each host line writes its own result buffer only, which is neither the feature array nor the row-sum array. -/
theorem hostOps1_keeps (r : Ref sig .tc) (hr : r = main_arg0 ∨ r = main_v0) :
    (hostOps1 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

theorem hostOps1_1_keeps (r : Ref sig .tc) (hr : r = main_arg0 ∨ r = main_v0) :
    (hostOps1_1 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

theorem hostOps1_2_keeps (r : Ref sig .tc) (hr : r = main_arg0 ∨ r = main_v0) :
    (hostOps1_2 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

theorem hostOps1_3_keeps (r : Ref sig .tc) (hr : r = main_arg0 ∨ r = main_v0) :
    (hostOps1_3 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

theorem hostOps1_4_keeps (r : Ref sig .tc) (hr : r = main_arg0 ∨ r = main_v0) :
    (hostOps1_4 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

/-- No host line after the region writes the feature array or the row-sum array. -/
theorem tail_keeps (r : Ref sig .tc) (hr : r = main_arg0 ∨ r = main_v0) :
    ∀ op ∈ (tailOpss (F := F)).flatten, Proc.devRef (τ := τ) .tc r ∉ op.writes := by
  intro op hop
  obtain ⟨ops, hops, hop⟩ := List.mem_flatten.mp hop
  simp only [tailOpss, List.mem_cons, List.mem_nil_iff, or_false] at hops
  rcases hops with rfl | rfl | rfl | rfl | rfl
  · exact (List.forall_iff_forall_mem.mp (hostOps1_keeps r hr)) op hop
  · exact (List.forall_iff_forall_mem.mp (hostOps1_1_keeps r hr)) op hop
  · exact (List.forall_iff_forall_mem.mp (hostOps1_2_keeps r hr)) op hop
  · exact (List.forall_iff_forall_mem.mp (hostOps1_3_keeps r hr)) op hop
  · exact (List.forall_iff_forall_mem.mp (hostOps1_4_keeps r hr)) op hop

/-- So they leave the feature array as it was, -/
theorem tailOps_keep_arg0 (W : Valuation τ sig (Elt F)) :
    StableHlo.after (tailOpss (F := F)).flatten W (Proc.devRef .tc main_arg0) = W (Proc.devRef .tc main_arg0) :=
  StableHlo.after_of_forall_not_mem _ W (tail_keeps main_arg0 (.inl rfl))

/-- and the row-sum array. -/
theorem tailOps_keep_v0 (W : Valuation τ sig (Elt F)) :
    StableHlo.after (tailOpss (F := F)).flatten W (Proc.devRef .tc main_v0) = W (Proc.devRef .tc main_v0) :=
  StableHlo.after_of_forall_not_mem _ W (tail_keeps main_v0 (.inr rfl))

/-! ## The region's exit and the host lines after it -/

/-- The core's unscoped buffers are the feature array, the row-sum array and the rest. -/
theorem unscopedBufs_pair (c : Dev nD) (W : (b : Ref sig .tc) → Buf (Elt F) ((c.tc : Thread nD τ).loc b)) :
    (unscopedBufs c W : sProp 𝕄)
      = iprop(((((c.tc : Thread nD τ).loc main_arg0) ↦{fullShare} W main_arg0) ∗ (((c.tc : Thread nD τ).loc main_v0) ↦{fullShare} W main_v0))
          ∗ Pipeline.unscopedRest spec0 c W) := by
  rw [← arrBufs_pair]
  exact Pipeline.unscopedBufs_split₀ cfgs 0 winFacts₀0.arr_unscoped c W

/-- The bypassing buffers hold at the region's exit what they held at its entry: none is the row-sum array. -/
theorem unscopedRest_exit (m : (ℓ : Loc nD τ sig) → Buf (Elt F) ℓ) (c : Dev nD) (out : Buf (Elt F) ((c.tc : Thread nD τ).loc main_v0)) :
    (Pipeline.unscopedRest spec0 c (fun b => exitVal m c out (Proc.devRef .tc b)) : sProp 𝕄) = Pipeline.unscopedRest spec0 c (V m c) := by
  unfold Pipeline.unscopedRest
  exact bigSep_congr fun b hb => by
    show (((c.tc : Thread nD τ).loc b) ↦{fullShare} exitVal m c out (Proc.devRef .tc b) : sProp 𝕄) = _
    rw [exitVal_at_ne m c out b fun e => (Finset.mem_sdiff.mp hb).2 (by subst e; exact Finset.mem_image.mpr ⟨2, Finset.mem_univ _, rfl⟩)]

section TailRun

variable (m : (ℓ : Loc nD τ sig) → Buf (Elt F) ℓ)
  (dats : (p : Fin 1) → (c : Dev nD) → Dat τ (Elt F) Unit ℕ (UR sig nD τ) ℕ (cfgs p) c)
  (hq0 : ∀ c, (dats 0 c).q 0 = fullShare.left) (hq1 : ∀ c, (dats 0 c).q 1 = fullShare.right)
  (hA : ∀ c w, (dats 0 c).A w = V m c (Pipeline.arrRef spec0 w))

include hq0 hq1 hA in
/-- At the region's exit the arrays and the bypassing buffers are every unscoped buffer of the core whole, at the exit
    valuation: the two halves of the feature array, both at its entry contents, make it whole again. -/
theorem held_exit (c : Dev nD) :
    (StableHlo.held (c.tc : Thread nD τ) (Pipeline.ucRefs τ sig) (exitVal m c ((dats 0 c).arrAt 2 cfg0.N)) : sProp 𝕄)
      = iprop((dats 0 c).arrays (fun w => (dats 0 c).arrAt w cfg0.N) ∗ Pipeline.unscopedRest spec0 c (V m c)) := by
  have hN0 : (dats 0 c).arrAt 0 cfg0.N = V m c main_arg0 := ((dats 0 c).arrAt_in 0 rfl _).trans (hA c 0)
  have hN1 : (dats 0 c).arrAt 1 cfg0.N = V m c main_arg0 := ((dats 0 c).arrAt_in 1 rfl _).trans (hA c 1)
  rw [← Pipeline.unscopedBufs_held c (exitVal m c ((dats 0 c).arrAt 2 cfg0.N)), unscopedBufs_pair,
    arrays_pair (dats 0 c) (hq0 c) (hq1 c) (fun w => (dats 0 c).arrAt w cfg0.N) (V m c main_arg0) ((dats 0 c).arrAt 2 cfg0.N) hN0 hN1 rfl, exitVal_at_v0, exitVal_at_ne m c _ main_arg0 (by decide)]
  rw [unscopedRest_exit]

include hq0 hq1 hA in
/-- After the host lines likewise, at the valuation they leave: they write neither array. -/
theorem held_after (c : Dev nD) :
    (StableHlo.held (c.tc : Thread nD τ) (Pipeline.ucRefs τ sig)
        (StableHlo.after (tailOpss (F := F)).flatten (exitVal m c ((dats 0 c).arrAt 2 cfg0.N))) : sProp 𝕄)
      = iprop((dats 0 c).arrays (fun w => (dats 0 c).arrAt w cfg0.N) ∗ Pipeline.unscopedRest spec0 c (tailV m dats c)) := by
  have hN0 : (dats 0 c).arrAt 0 cfg0.N = V m c main_arg0 := ((dats 0 c).arrAt_in 0 rfl _).trans (hA c 0)
  have hN1 : (dats 0 c).arrAt 1 cfg0.N = V m c main_arg0 := ((dats 0 c).arrAt_in 1 rfl _).trans (hA c 1)
  rw [← Pipeline.unscopedBufs_held c (StableHlo.after (tailOpss (F := F)).flatten (exitVal m c ((dats 0 c).arrAt 2 cfg0.N))), unscopedBufs_pair,
    arrays_pair (dats 0 c) (hq0 c) (hq1 c) (fun w => (dats 0 c).arrAt w cfg0.N) (V m c main_arg0) ((dats 0 c).arrAt 2 cfg0.N) hN0 hN1 rfl, tailOps_keep_arg0, tailOps_keep_v0, exitVal_at_v0,
    exitVal_at_ne m c _ main_arg0 (by decide)]
  rfl

include hq0 hq1 hA in
-- the rule for a stretch of host lines is stated for any thread and used here at the TensorCore's
set_option backward.isDefEq.respectTransparency.types false in
/-- THE LINES AFTER THE REGION: from the region's exit — the boundary, the arrays, the bypassing buffers at their entry
    contents — the five stretches of host lines run within the core's unscoped buffers and hand back the arrays as they
    were and the bypassing buffers at the valuation the lines leave. -/
theorem tail_run (c : Dev nD) (Q' : PUnit → sProp 𝕄) :
    iprop((iprop((dats 0 c).arrays (fun w => (dats 0 c).arrAt w cfg0.N) ∗ Pipeline.unscopedRest spec0 c (tailV m dats c)) -∗ Q' ⟨⟩)
        ∗ boundary (c.tc : Thread nD τ) ∗ (dats 0 c).arrays (fun w => (dats 0 c).arrAt w cfg0.N) ∗ Pipeline.unscopedRest spec0 c (V m c))
      ⊢ wp frame (wpE 𝔻 𝕍 (c.tc : Thread nD τ) none) Set.univ (Pipeline.chain ((tailOpss (F := F)).map StableHlo.seq)) Q' := by
  rw [← List.append_nil ((tailOpss (F := F)).map StableHlo.seq), ← held_exit m dats hq0 hq1 hA c]
  iintro ⟨Hk, Hb⟩
  iapply (Pipeline.wp_seqs_then (fun q => Cfg.toPCfg (Val := Elt F) (cfgs q)) (defs₀ (F := F)) Variants.none c (Pipeline.ucRefs τ sig) [] tailOpss
    tail_sub tail_fresh (exitVal m c ((dats 0 c).arrAt 2 cfg0.N))) $$ Hb
  iintro Hb
  rw [Pipeline.chain_nil, wp_pure, held_after m dats hq0 hq1 hA c]
  imodintro
  iapply Hk
  icases Hb with ⟨-, H⟩
  iexact H

end TailRun

/-! ## @main around the region -/

/-- @main is the region followed by the five stretches of host lines. -/
theorem main_chain' (c : Dev nD) : main (F := F) c = Pipeline.chain ((([] : List (List (HloOp τ sig (Elt F)))).map StableHlo.seq)
      ++ [Prog.lift (.customCall (Pipeline.entry 0) ())] ++ (tailOpss (F := F)).map StableHlo.seq) := by
  simp only [tailOpss, List.map_nil, List.map_cons, List.nil_append, List.cons_append, List.singleton_append]
  exact main_chain c

/-- @main reduces to the region continued by the host lines, at the launch contents. -/
theorem hmain_tail (m : (ℓ : Loc nD τ sig) → Buf (Elt F) ℓ) :
    Pipeline.HMainK (Ix := Unit) (Name := ℕ) (U := UR sig nD τ) (Lvl := ℕ) cfgs 0 (defs₀ (F := F)) Variants.none m (main (F := F)) (V m)
      (fun _ => Pipeline.chain ((tailOpss (F := F)).map StableHlo.seq)) :=
  Pipeline.hmain_around cfgs 0 (defs₀ (F := F)) Variants.none m (main (F := F)) [] (tailOpss (F := F)) (by simp only [List.Forall])
    (by simp only [List.Forall]) main_chain'

end Launch

/-! ## The run -/

/-- THE RUN of @main for a kernel whose two input windows read ONE array: the launch deals the feature array's full share
    to the two input windows, a half each (`hq0`, `hq1`); at the region's exit the halves, still at the entry contents,
    are joined, the host lines run within every unscoped buffer of the core, and the post is the frame post at the
    valuation they leave. -/
theorem run_shared (m : (ℓ : Loc nD τ sig) → Buf (Elt F) ℓ) (ρ : Dev nD → PrngReg)
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (Pipeline.FramePost cfgs dats 0 (tailV m dats)) := by
  classical
  have hcell : Function.Injective (Pipeline.cellOf (nD := nD) (τ := τ) (Pipeline.pin (fun q => Cfg.toPCfg (Val := Elt F) (cfgs q)) (fun q => (cfgs q).toPCfg_adm))) := cellOf_inj
  refine Pipeline.θ_run_region_pf_tail (fun q => Cfg.toPCfg (Val := Elt F) (cfgs q)) (fun q => (cfgs q).toPCfg_adm) dats () hcell 0
    winFacts₀0 (Pipeline.OwnSemFacts.none spec0) (Pipeline.PreFacts.none _) emb₁ defs₀ Variants.none m ρ main
    (fun _ => Pipeline.chain ((tailOpss (F := F)).map StableHlo.seq)) hbody
    block_pos0 arr_whole0 stage_whole0 howed
    (G := fun _ => iprop(emp))
    (u₀ := initOf (Pipeline.cells (Pipeline.pin (fun q => Cfg.toPCfg (Val := Elt F) (cfgs q)) (fun q => (cfgs q).toPCfg_adm)) hcell) (Pipeline.launchToks (Pipeline.pin (fun q => Cfg.toPCfg (Val := Elt F) (cfgs q)) (fun q => (cfgs q).toPCfg_adm)) hcell))
    (hu₀ := ?hu₀)
    (V := V m)
    (hmain := ?hmain)
    (hsplit := ?hsplit)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (tailV m dats c))
    (hX := ?hX) (hin := ?hin) (hout := ?hout) (htail := ?htail)
    (QY := fun c s => ∀ b ∈ Pipeline.restRefs sig spec0, s.mem ((c.tc : Thread nD τ).loc b) = tailV m dats c b)
    (hY := ?hY) (hQ := ?hQ)
  case hu₀ =>
    iintro Hu; imodintro
    isplitl [Hu]
    · iapply (show (ownU _ : sProp 𝕄) ⊢ BI.own (emb₁ (initOf (Pipeline.cells (Pipeline.pin (fun q => Cfg.toPCfg (Val := Elt F) (cfgs q)) (fun q => (cfgs q).toPCfg_adm)) hcell)
          (Pipeline.launchToks (Pipeline.pin (fun q => Cfg.toPCfg (Val := Elt F) (cfgs q)) (fun q => (cfgs q).toPCfg_adm)) hcell))) from .rfl)
      iexact Hu
    iapply (show (BI.emp : sProp 𝕄) ⊢ bigSep Finset.univ (fun _ : Dev nD => (BI.emp : sProp 𝕄)) from by rw [BI.bigSep_emp_const])
    iempintro
  case hmain =>
    -- the two statements agree with the program and the host lines read as opaque names
    have h := Launch.hmain_tail (F := F) m
    generalize main (F := F) = mn at h ⊢
    generalize (tailOpss (F := F)) = tt at h ⊢
    exact h
  case hsplit =>
    intro c
    rw [Launch.arrBufs_pair, Launch.arrays_pair (dats 0 c) (hq0 c) (hq1 c) (fun w => (dats 0 c).arrAt w 0) (V m c main_arg0) (V m c main_v0) (hA c 0) (hA c 1) (hA c 2)]
  case hX =>
    intro c
    iintro ⟨HU, -, -, -, Hp, -⟩; imodintro
    isplitl [Hp]; · iexists _; iexact Hp
    iapply (show (Pipeline.unscopedRestP Pipeline.Prefetch.none spec0 c (V m c) : sProp 𝕄) ⊢ Pipeline.unscopedRest spec0 c (V m c)
      from Entails.of_eq (Pipeline.unscopedRestP_none spec0 c (V m c)))
    iexact HU
  case hin =>
    intro c
    refine (show _ ⊢ Pipeline.ΦA spec0 c from ?_).trans (hin c)
    unfold Pipeline.ΦA; iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]; · iexact Hp
    isplitr; · iempintro
    iexact Hr
  case htail =>
    intro c Q'
    exact Launch.tail_run m dats hq0 hq1 hA c Q'
  case hY =>
    intro c s'
    iintro ⟨-, HU, HSI⟩
    unfold Pipeline.unscopedRest
    imodintro
    iapply (pointsTo_read_all (Pipeline.restRefs sig spec0) (fun b => (c.tc : Thread nD τ).loc b) (tailV m dats c) s')
    isplitl [HU] <;> iassumption
  case hQ =>
    intro s h c
    exact ⟨(h c).1, (h c).2.2⟩

end Cert.Kernel.Hand

end
-- ==== Proof.Bits.TailKeeps.lean ====
/-
  The host lines that follow the region write only their own result buffers: the twelve arguments and the
  row-sum array hold after them what they held before.
-/
import proofs.«151718_j86638080294934_1_alg».proof.Proof.Bits.Tail
import Idealize.ShloMosaic.Lib.StableHlo.Run

noncomputable section

namespace Cert.Kernel.Hand

open Idealize.ShloMosaic Idealize.ShloMosaic.TcCoe
open Cert.Kernel Cert.Kernel.Gen

variable {F : FTy → Type} [FloatOps F]

/-- No host line after the region writes the reference `r` when `r` differs from every line's result reference:
    each line writes its result buffer and nothing else. -/
theorem tail_not_writes (r : Ref sig .tc) :
    ∀ op ∈ (tailOpss (F := F)).flatten, Proc.devRef (τ := τ) .tc r ∈ op.writes →
      r ∈ ([main_cst, main_v1, main_cst_0, main_v2, main_v3, main_v4, main_v5, main_v6, main_v7, main_v8, main_cst_1, main_v9,
        main_v10, main_v11, main_v12, main_v13, main_v14, main_v15, main_v16, main_v17, main_v18,
        main_call0_cst, main_call0_v0, main_v19,
        main_v20, main_v21, main_v22, main_v23, main_cst_2, main_v24, main_v25, main_v26, main_v27, main_v28, main_v29,
        main_v30, main_v31, main_v32, main_v33,
        main_call1_cst, main_call1_v0, main_v34,
        main_v35, main_v36, main_v37, main_v38, main_v39, main_v40, main_cst_3, main_v41, main_v42, main_cst_4, main_v43,
        main_v44, main_v45, main_cst_5, main_v46, main_cst_6, main_v47, main_v48] : List (Ref sig .tc)) := by
  intro op hop hw
  simp only [tailOpss, hostOps1, hostOps1_1, hostOps1_2, hostOps1_3, hostOps1_4, List.flatten_cons, List.flatten_nil,
    List.append_nil, List.cons_append, List.nil_append, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes,
      Finset.mem_singleton] at hw
    rw [Proc.devRef_injective _ hw]
    decide

/-- The host lines after the region leave `main_arg0` as it was. -/
theorem tail_keeps_arg0 (W : Valuation τ sig (Elt F)) :
    StableHlo.after (tailOpss (F := F)).flatten W (Proc.devRef .tc main_arg0) = W (Proc.devRef .tc main_arg0) :=
  StableHlo.after_of_forall_not_mem _ W fun op hop hw => absurd (tail_not_writes main_arg0 op hop hw) (by decide)

/-- The host lines after the region leave `main_arg1` as it was. -/
theorem tail_keeps_arg1 (W : Valuation τ sig (Elt F)) :
    StableHlo.after (tailOpss (F := F)).flatten W (Proc.devRef .tc main_arg1) = W (Proc.devRef .tc main_arg1) :=
  StableHlo.after_of_forall_not_mem _ W fun op hop hw => absurd (tail_not_writes main_arg1 op hop hw) (by decide)

/-- The host lines after the region leave `main_arg2` as it was. -/
theorem tail_keeps_arg2 (W : Valuation τ sig (Elt F)) :
    StableHlo.after (tailOpss (F := F)).flatten W (Proc.devRef .tc main_arg2) = W (Proc.devRef .tc main_arg2) :=
  StableHlo.after_of_forall_not_mem _ W fun op hop hw => absurd (tail_not_writes main_arg2 op hop hw) (by decide)

/-- The host lines after the region leave `main_arg3` as it was. -/
theorem tail_keeps_arg3 (W : Valuation τ sig (Elt F)) :
    StableHlo.after (tailOpss (F := F)).flatten W (Proc.devRef .tc main_arg3) = W (Proc.devRef .tc main_arg3) :=
  StableHlo.after_of_forall_not_mem _ W fun op hop hw => absurd (tail_not_writes main_arg3 op hop hw) (by decide)

/-- The host lines after the region leave `main_arg4` as it was. -/
theorem tail_keeps_arg4 (W : Valuation τ sig (Elt F)) :
    StableHlo.after (tailOpss (F := F)).flatten W (Proc.devRef .tc main_arg4) = W (Proc.devRef .tc main_arg4) :=
  StableHlo.after_of_forall_not_mem _ W fun op hop hw => absurd (tail_not_writes main_arg4 op hop hw) (by decide)

/-- The host lines after the region leave `main_arg5` as it was. -/
theorem tail_keeps_arg5 (W : Valuation τ sig (Elt F)) :
    StableHlo.after (tailOpss (F := F)).flatten W (Proc.devRef .tc main_arg5) = W (Proc.devRef .tc main_arg5) :=
  StableHlo.after_of_forall_not_mem _ W fun op hop hw => absurd (tail_not_writes main_arg5 op hop hw) (by decide)

/-- The host lines after the region leave `main_arg6` as it was. -/
theorem tail_keeps_arg6 (W : Valuation τ sig (Elt F)) :
    StableHlo.after (tailOpss (F := F)).flatten W (Proc.devRef .tc main_arg6) = W (Proc.devRef .tc main_arg6) :=
  StableHlo.after_of_forall_not_mem _ W fun op hop hw => absurd (tail_not_writes main_arg6 op hop hw) (by decide)

/-- The host lines after the region leave `main_arg7` as it was. -/
theorem tail_keeps_arg7 (W : Valuation τ sig (Elt F)) :
    StableHlo.after (tailOpss (F := F)).flatten W (Proc.devRef .tc main_arg7) = W (Proc.devRef .tc main_arg7) :=
  StableHlo.after_of_forall_not_mem _ W fun op hop hw => absurd (tail_not_writes main_arg7 op hop hw) (by decide)

/-- The host lines after the region leave `main_arg8` as it was. -/
theorem tail_keeps_arg8 (W : Valuation τ sig (Elt F)) :
    StableHlo.after (tailOpss (F := F)).flatten W (Proc.devRef .tc main_arg8) = W (Proc.devRef .tc main_arg8) :=
  StableHlo.after_of_forall_not_mem _ W fun op hop hw => absurd (tail_not_writes main_arg8 op hop hw) (by decide)

/-- The host lines after the region leave `main_arg9` as it was. -/
theorem tail_keeps_arg9 (W : Valuation τ sig (Elt F)) :
    StableHlo.after (tailOpss (F := F)).flatten W (Proc.devRef .tc main_arg9) = W (Proc.devRef .tc main_arg9) :=
  StableHlo.after_of_forall_not_mem _ W fun op hop hw => absurd (tail_not_writes main_arg9 op hop hw) (by decide)

/-- The host lines after the region leave `main_arg10` as it was. -/
theorem tail_keeps_arg10 (W : Valuation τ sig (Elt F)) :
    StableHlo.after (tailOpss (F := F)).flatten W (Proc.devRef .tc main_arg10) = W (Proc.devRef .tc main_arg10) :=
  StableHlo.after_of_forall_not_mem _ W fun op hop hw => absurd (tail_not_writes main_arg10 op hop hw) (by decide)

/-- The host lines after the region leave `main_arg11` as it was. -/
theorem tail_keeps_arg11 (W : Valuation τ sig (Elt F)) :
    StableHlo.after (tailOpss (F := F)).flatten W (Proc.devRef .tc main_arg11) = W (Proc.devRef .tc main_arg11) :=
  StableHlo.after_of_forall_not_mem _ W fun op hop hw => absurd (tail_not_writes main_arg11 op hop hw) (by decide)

/-- The host lines after the region leave `main_v0` as it was. -/
theorem tail_keeps_v0 (W : Valuation τ sig (Elt F)) :
    StableHlo.after (tailOpss (F := F)).flatten W (Proc.devRef .tc main_v0) = W (Proc.devRef .tc main_v0) :=
  StableHlo.after_of_forall_not_mem _ W fun op hop hw => absurd (tail_not_writes main_v0 op hop hw) (by decide)

end Cert.Kernel.Hand

end
-- ==== Proof.Bits.FrameOf.lean ====
/-
  From the launch theorem's post to the posts the claim states. The launch theorem leaves every array of the region at
  what the proof data computes and every buffer that bypasses the region at what the host lines after it leave there.
  The feature matrix is an input array of the region, so it ends as it was; the other eleven arguments bypass the region
  and no host line writes them, so they end as they were; the result buffer ends at the host lines' value.
-/
import proofs.«151718_j86638080294934_1_alg».proof.Proof.Bits.Tail
import proofs.«151718_j86638080294934_1_alg».proof.Proof.Bits.TailKeeps
import Idealize.ShloMosaic.Lib.Pipeline.Frame
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- When the region ends the row-sum array holds what the write-backs left. -/
theorem exitVal_v0 (c : Dev nD) (out : Buf (Elt F) ((c.tc : Thread nD τ).loc main_v0)) :
    exitVal m c out (Proc.devRef .tc main_v0) = out := by
  unfold exitVal
  rw [dif_pos rfl]
  rfl

/-- When the region ends every other buffer holds its launch contents. -/
theorem exitVal_of_ne (c : Dev nD) (out : Buf (Elt F) ((c.tc : Thread nD τ).loc main_v0)) (b : Ref sig .tc) (hb : b ≠ main_v0) :
    exitVal m c out (Proc.devRef .tc b) = m (c, Proc.devRef .tc b) := by
  unfold exitVal
  rw [dif_neg fun e => hb (Proc.devRef_injective _ e).symm]

/-- A buffer that bypasses the region, is not the row-sum array and is written by no host line after the region ends
    at its launch contents. -/
theorem rest_arg (dats : (p : Fin 1) → (c : Dev nD) → Dat τ (Elt F) Unit ℕ (UR sig nD τ) ℕ (cfgs p) c)
    {r : PUnit × MemSt nD τ sig (Elt F)} {c : Dev nD}
    (h : (∀ w, r.2.mem (((cfgs 0).spec w).arr.view.loc (c.tc : Thread nD τ)) = (dats 0 c).arrAt w (cfgs 0).N)
      ∧ ∀ b ∈ Pipeline.restRefs sig (cfgs 0).spec, r.2.mem ((c.tc : Thread nD τ).loc b) = tailV m dats c b)
    (b : Ref sig .tc) (hs : b.isScoped = false) (ha : ∀ w, ((cfgs 0).spec w).arr.view.ref ≠ b) (hb : b ≠ main_v0)
    (hk : StableHlo.after (tailOpss (F := F)).flatten (exitVal m c ((dats 0 c).arrAt 2 cfg0.N)) (Proc.devRef .tc b)
      = exitVal m c ((dats 0 c).arrAt 2 cfg0.N) (Proc.devRef .tc b)) :
    r.2.mem ((c.tc : Thread nD τ).loc b) = m ((c.tc : Thread nD τ).loc b) :=
  (h.2 b (Pipeline.mem_restRefs_of b hs ha)).trans (hk.trans (exitVal_of_ne m c _ b hb))

/-- The feature matrix is an input array of the region: it ends as the proof data's array, which is its launch contents. -/
theorem arg0_kept (dats : (p : Fin 1) → (c : Dev nD) → Dat τ (Elt F) Unit ℕ (UR sig nD τ) ℕ (cfgs p) c)
    (hA : ∀ c w, (dats 0 c).A w = V m c (Pipeline.arrRef spec0 w))
    {r : PUnit × MemSt nD τ sig (Elt F)} {c : Dev nD}
    (h : (∀ w, r.2.mem (((cfgs 0).spec w).arr.view.loc (c.tc : Thread nD τ)) = (dats 0 c).arrAt w (cfgs 0).N)
      ∧ ∀ b ∈ Pipeline.restRefs sig (cfgs 0).spec, r.2.mem ((c.tc : Thread nD τ).loc b) = tailV m dats c b) :
    r.2.mem ((c.tc : Thread nD τ).loc main_arg0) = m ((c.tc : Thread nD τ).loc main_arg0) :=
  (h.1 0).trans (((dats 0 c).arrAt_in 0 rfl _).trans (hA c 0))

/-- The frame claim's post from the launch theorem's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (tailV m dats))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨arg0_kept m dats hA (h c),
    rest_arg m dats (h c) main_arg1 (by decide) (by decide) (by decide) (tail_keeps_arg1 _),
    rest_arg m dats (h c) main_arg2 (by decide) (by decide) (by decide) (tail_keeps_arg2 _),
    rest_arg m dats (h c) main_arg3 (by decide) (by decide) (by decide) (tail_keeps_arg3 _),
    rest_arg m dats (h c) main_arg4 (by decide) (by decide) (by decide) (tail_keeps_arg4 _),
    rest_arg m dats (h c) main_arg5 (by decide) (by decide) (by decide) (tail_keeps_arg5 _),
    rest_arg m dats (h c) main_arg6 (by decide) (by decide) (by decide) (tail_keeps_arg6 _),
    rest_arg m dats (h c) main_arg7 (by decide) (by decide) (by decide) (tail_keeps_arg7 _),
    rest_arg m dats (h c) main_arg8 (by decide) (by decide) (by decide) (tail_keeps_arg8 _),
    rest_arg m dats (h c) main_arg9 (by decide) (by decide) (by decide) (tail_keeps_arg9 _),
    rest_arg m dats (h c) main_arg10 (by decide) (by decide) (by decide) (tail_keeps_arg10 _),
    rest_arg m dats (h c) main_arg11 (by decide) (by decide) (by decide) (tail_keeps_arg11 _)⟩) h

/-- The kernel's half of the value claim from the launch theorem's post: the result buffer ends at the host lines'
    value, the arguments as they were. -/
theorem value_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (tailV m dats))) :
    θ_run defs (onTc (τ := τ) (main (F := F))) ⟨m, fun _ => 0, ρ⟩ (fun r => ∀ c : Dev nD,
      r.2.mem ((c.tc : Thread nD τ).loc main_v48) = tailV m dats c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).2 main_v48 (Pipeline.mem_restRefs_of main_v48 (by decide) (by decide)),
    arg0_kept m dats hA (h c),
    rest_arg m dats (h c) main_arg1 (by decide) (by decide) (by decide) (tail_keeps_arg1 _),
    rest_arg m dats (h c) main_arg2 (by decide) (by decide) (by decide) (tail_keeps_arg2 _),
    rest_arg m dats (h c) main_arg3 (by decide) (by decide) (by decide) (tail_keeps_arg3 _),
    rest_arg m dats (h c) main_arg4 (by decide) (by decide) (by decide) (tail_keeps_arg4 _),
    rest_arg m dats (h c) main_arg5 (by decide) (by decide) (by decide) (tail_keeps_arg5 _),
    rest_arg m dats (h c) main_arg6 (by decide) (by decide) (by decide) (tail_keeps_arg6 _),
    rest_arg m dats (h c) main_arg7 (by decide) (by decide) (by decide) (tail_keeps_arg7 _),
    rest_arg m dats (h c) main_arg8 (by decide) (by decide) (by decide) (tail_keeps_arg8 _),
    rest_arg m dats (h c) main_arg9 (by decide) (by decide) (by decide) (tail_keeps_arg9 _),
    rest_arg m dats (h c) main_arg10 (by decide) (by decide) (by decide) (tail_keeps_arg10 _),
    rest_arg m dats (h c) main_arg11 (by decide) (by decide) (by decide) (tail_keeps_arg11 _)⟩) h

end Cert.Kernel.Hand

end
-- ==== Proof.Bits.Runs.lean ====
/-
  What the three runs of the kernel body share. The grid is 9 × 18, walked row block by row block: point t is
  (t / 18, t % 18). The body zeroes the running row sums at column block 0 (t % 18 = 0), adds the block's row sums at
  every point, and copies the running sums into the output block at column block 17 (t % 18 = 17); at every other
  point it stores nothing into the output block, which is then neither read nor written back.
-/
import proofs.«151718_j86638080294934_1_alg».proof.Proof.Bits.Tail
import proofs.«151718_j86638080294934_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column block's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions on the grid point -/

/-- "This is column block 0": the running sums are zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 18 = 0 :=
  (by decide +kernel : ∀ t : Fin grid0.N, cond0_0 (grid0.coords t) ↔ t.val % 18 = 0)

/-- "This is column block 17": the running sums are copied out. -/
abbrev cond0_1 (i : grid0.Coords) : Prop := k0_cond2 i = 1#1
theorem hcond0_1 : ∀ t : Fin cfg0.N, cond0_1 (grid0.coords t) ↔ t.val % 18 = 17 :=
  (by decide +kernel : ∀ t : Fin grid0.N, cond0_1 (grid0.coords t) ↔ t.val % 18 = 17)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The staging and scratch memrefs the body is called with -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch holding the running row sums. -/
abbrev scM0_0 : Memref sig .tc .vmem S1024x1 .f32 := Memref.whole cc0_scratch0
abbrev VS0_0 : View sig .tc .vmem S1024x1 .f32 := scM0_0.view

/-- The region's class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.Bits.RunA.lean ====
/-
  The kernel body run once, at the first column block of a row block: the running sums are zeroed and the block's row sums added; nothing is stored into the output block, handed back as found. What the body's stores leave in a buffer is recorded as the list of
  stored pieces (last first), found by running the body.
-/
import proofs.«151718_j86638080294934_1_alg».proof.Proof.Bits.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__sim_rowsum_kernel i arg2 harg2 arg3 harg3 arg4 harg4 arg5 harg5) K } := by
  refine ⟨[], ?_, fun xi2 E K => ?run⟩
  case run =>
    simp only [cc0__sim_rowsum_kernel_eq_skeleton]; unfold cc0__sim_rowsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Bits.RunB.lean ====
/-
  The kernel body run once, at a middle column block: the block's row sums are added to the running sums left by the point before; nothing is stored into the output block. What the body's stores leave in a buffer is recorded as the list of
  stored pieces (last first), found by running the body.
-/
import proofs.«151718_j86638080294934_1_alg».proof.Proof.Bits.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__sim_rowsum_kernel i arg2 harg2 arg3 harg3 arg4 harg4 arg5 harg5) K } := by
  refine ⟨[], ?_, fun xi2 E K => ?run⟩
  case run =>
    simp only [cc0__sim_rowsum_kernel_eq_skeleton]; unfold cc0__sim_rowsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Bits.RunC.lean ====
/-
  The kernel body run once, at the last column block: the block's row sums are added and the running sums copied into the output block. What the body's stores leave in a buffer is recorded as the list of
  stored pieces (last first), found by running the body.
-/
import proofs.«151718_j86638080294934_1_alg».proof.Proof.Bits.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sim_rowsum_kernel i arg2 harg2 arg3 harg3 arg4 harg4 arg5 harg5) K } := by
  refine ⟨?_, ?_, fun E K => ?run⟩
  case run =>
    simp only [cc0__sim_rowsum_kernel_eq_skeleton]; unfold cc0__sim_rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Bits.Frame.lean ====
/-
  The proof data of the pipeline and the body obligation. After the body at point t the scratch holds the running
  row sums: at a row block's first column block what the zeroing and the first addition leave, afterwards what the
  addition leaves over the sums of the point before; the output block holds the copied sums at a row block's last
  column block and is untouched elsewhere. Each case's contents are the case's stored pieces read back.
-/
import proofs.«151718_j86638080294934_1_alg».proof.Proof.Bits.RunA
import proofs.«151718_j86638080294934_1_alg».proof.Proof.Bits.RunB
import proofs.«151718_j86638080294934_1_alg».proof.Proof.Bits.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output block: a placeholder nothing consults. -/
def out0_A_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) : Vec F S1024x1 .f32 :=
  VO0_2.read (Elt F) (VO0_2.writes (Elt F) VO0_2.junk (kernelRun0_A c i arg2 harg2 arg3 harg3 arg4 harg4 arg5 harg5 hc0 hc1 x0 x1).1)

/-- Case B stores nothing into the output block: a placeholder nothing consults. -/
def out0_B_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- Case C's stored pieces cover the output block. -/
theorem cover0_C_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What case C leaves in the output block's staging buffer. -/
def out0_C_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- Case A's stored pieces cover the scratch. -/
theorem scover0_A_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What case A leaves in the scratch: the running row sums. -/
def sout0_A_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) : Vec F S1024x1 .f32 :=
  VS0_0.read (Elt F) (VS0_0.writes (Elt F) VS0_0.junk (kernelRun0_A c i arg2 harg2 arg3 harg3 arg4 harg4 arg5 harg5 hc0 hc1 x0 x1).2.1)

/-- Case B's stored pieces cover the scratch. -/
theorem scover0_B_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What case B leaves in the scratch: the running row sums. -/
def sout0_B_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- Case C's stored pieces cover the scratch. -/
theorem scover0_C_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What case C leaves in the scratch: the running row sums. -/
def sout0_C_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## What the output block and the scratch hold after each point -/

/-- After the body at position `n`: (the output block's staging buffer, the scratch). -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 18 = 0 then
      if h1 : (n + 1) % 18 = 17 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 18 = 17 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 18 = 0) (h1 : ¬t.val % 18 = 17) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 18 = 0) (h1 : ¬t.val % 18 = 17) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 18 = 0) (h1 : t.val % 18 = 17) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch holds anything; afterwards it holds
    the running sums the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The two input windows read one array, each at half of its share; the output window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 162 := lt_of_lt_of_eq t.isLt (show cfg0.N = 162 from N_0)
  by_cases h0 : t.val % 18 = 0
  · by_cases h1 : t.val % 18 = 17
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 18 = 17
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the sums' names are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 162 := N_0; omega)

end Cert.Kernel.Hand

end
-- ==== Proof.Ideal.Tail.lean ====
/-
  What the program holds once the region has ended and the host lines after it have run.
  The region leaves the row-sum array at what the write-backs put there and every other buffer as it was;
  the five stretches of host lines that follow (the sum over the rows and its scaling, the small network, the
  final product) then act on that valuation one after the other.
-/
import proofs.«151718_j86638080294934_1_alg».proof.Proof.Gen.KernelIdeal.Launch
import proofs.«151718_j86638080294934_1_alg».proof.Proof.Gen.KernelIdeal.Points
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Core `c`'s buffer `b` when the region is entered: no host line precedes the region, so its launch contents. -/
abbrev V (m : (ℓ : Loc nD τ sig) → Buf (Elt F) ℓ) (c : Dev nD) (b : Ref sig .tc) : Buf (Elt F) ((c : Thread nD τ).loc b) :=
  m (c, Proc.devRef .tc b)

/-- The host lines after the region, stretch by stretch, in program order. -/
abbrev tailOpss : List (List (HloOp τ sig (Elt F))) := [hostOps1, hostOps1_1, hostOps1_2, hostOps1_3, hostOps1_4]

/-- The buffers of core `c` when the region ends: the row-sum array at `out`, every other buffer at its launch contents. -/
def exitVal (m : (ℓ : Loc nD τ sig) → Buf (Elt F) ℓ) (c : Dev nD) (out : Buf (Elt F) ((c.tc : Thread nD τ).loc main_v0)) :
    Valuation τ sig (Elt F) := fun b =>
  if h : Proc.devRef .tc main_v0 = b then cast (congrArg (fun b' : DevRef τ sig => b'.ty.Contents (Elt F)) h) out else m (c, b)

/-- The buffers of core `c` after the host lines that follow the region. -/
def tailV (m : (ℓ : Loc nD τ sig) → Buf (Elt F) ℓ)
    (dats : (p : Fin 1) → (c : Dev nD) → Dat τ (Elt F) Unit ℕ (UR sig nD τ) ℕ (cfgs p) c)
    (c : Dev nD) (b : Ref sig .tc) : Buf (Elt F) ((c.tc : Thread nD τ).loc b) :=
  StableHlo.after (tailOpss (F := F)).flatten (exitVal m c ((dats 0 c).arrAt 2 cfg0.N)) (Proc.devRef .tc b)

end Cert.KernelIdeal.Hand

end
-- ==== Proof.Ideal.Launch.lean ====
/-
  The run of @main around the kernel region, for a kernel whose two input windows read ONE array.

  The launch holds every unscoped buffer of the core whole. The region's three windows sit on two buffers only: the
  feature array (both input windows) and the row-sum array (the output window). The feature array's full share is dealt
  to the two input windows, its left half to the first and its right half to the second, both at the array's entry
  contents; the row-sum array goes whole to the output window. An input window never writes, so at the region's exit
  both halves are still at the entry contents and join into the full share again. The host lines after the region then
  run within every unscoped buffer of the core; they write neither array, so the arrays are handed back as the region
  left them and every other buffer at the valuation the lines leave.
-/
import proofs.«151718_j86638080294934_1_alg».proof.Proof.Ideal.Tail
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
local notation "𝔻" => Pipeline.defs (fun q => Cfg.toPCfg (Val := Elt F) (cfgs q)) (defs₀ (F := F))
local notation "𝕍" => Variants.lift Variants.none

namespace Launch

/-! ## The arrays: two buffers behind three windows -/

/-- The windows' arrays are two buffers: the feature array (read by both input windows) and the row-sum array. -/
theorem arrRefs_eq : Finset.univ.image (Pipeline.arrRef spec0) = ([main_arg0, main_v0] : List (Ref sig .tc)).toFinset := by decide

/-- The buffers behind the windows' arrays, one by one. -/
theorem arrBufs_pair (c : Dev nD) (W : (b : Ref sig .tc) → Buf (Elt F) ((c.tc : Thread nD τ).loc b)) :
    (Pipeline.arrBufs spec0 c W : sProp 𝕄)
      = iprop((((c.tc : Thread nD τ).loc main_arg0) ↦{fullShare} W main_arg0) ∗ (((c.tc : Thread nD τ).loc main_v0) ↦{fullShare} W main_v0)) := by
  unfold Pipeline.arrBufs
  exact bigSep_eq_bigSepL_of_eq [main_arg0, main_v0] arrRefs_eq (by decide) _

/-- The exit valuation holds the row-sum array at what the region left there, -/
theorem exitVal_at_v0 (m : (ℓ : Loc nD τ sig) → Buf (Elt F) ℓ) (c : Dev nD) (out : Buf (Elt F) ((c.tc : Thread nD τ).loc main_v0)) :
    exitVal m c out (Proc.devRef .tc main_v0) = out := by
  unfold exitVal
  rw [dif_pos rfl]
  rfl

/-- and every other buffer at its launch contents. -/
theorem exitVal_at_ne (m : (ℓ : Loc nD τ sig) → Buf (Elt F) ℓ) (c : Dev nD) (out : Buf (Elt F) ((c.tc : Thread nD τ).loc main_v0))
    (b : Ref sig .tc) (hb : b ≠ main_v0) : exitVal m c out (Proc.devRef .tc b) = m (c, Proc.devRef .tc b) := by
  unfold exitVal
  rw [dif_neg fun e => hb (Proc.devRef_injective _ e).symm]

/-- The full share of the feature array is its left and right halves, at the same contents. -/
theorem arg0_halves (c : Dev nD) (X : Buf (Elt F) ((c.tc : Thread nD τ).loc main_arg0)) :
    ((((c.tc : Thread nD τ).loc main_arg0) ↦{fullShare} X : sProp 𝕄))
      = iprop((((c.tc : Thread nD τ).loc main_arg0) ↦{fullShare.left} X) ∗ (((c.tc : Thread nD τ).loc main_arg0) ↦{fullShare.right} X)) :=
  BI.Entails.antisymm (pointsTo_share (PosShare.mem_left_op_right fullShare)).1 (pointsTo_share (PosShare.mem_left_op_right fullShare)).2

/-- The shares the three windows hold their arrays at: an input window its own, the output window the full one. -/
theorem share_0 {c : Dev nD} (dat : Dat τ (Elt F) Unit ℕ (UR sig nD τ) ℕ cfg0 c) (hq0 : dat.q 0 = fullShare.left) :
    dat.share 0 = fullShare.left := by
  unfold Dat.share; split
  · next h => exact absurd h (by decide)
  · exact hq0

theorem share_1 {c : Dev nD} (dat : Dat τ (Elt F) Unit ℕ (UR sig nD τ) ℕ cfg0 c) (hq1 : dat.q 1 = fullShare.right) :
    dat.share 1 = fullShare.right := by
  unfold Dat.share; split
  · next h => exact absurd h (by decide)
  · exact hq1

theorem share_2 {c : Dev nD} (dat : Dat τ (Elt F) Unit ℕ (UR sig nD τ) ℕ cfg0 c) : dat.share 2 = fullShare := by
  unfold Dat.share; split
  · rfl
  · next h => exact absurd rfl h

/-- The pipeline's arrays, the two input windows holding one half each of the feature array at the same contents, are
    the feature array and the row-sum array whole. -/
theorem arrays_pair {c : Dev nD} (dat : Dat τ (Elt F) Unit ℕ (UR sig nD τ) ℕ cfg0 c)
    (hq0 : dat.q 0 = fullShare.left) (hq1 : dat.q 1 = fullShare.right)
    (Fn : (w : Fin cfg0.W) → Buf (Elt F) ((cfg0.win w).arr.view.loc (c.tc : Thread nD τ)))
    (X : Buf (Elt F) ((c.tc : Thread nD τ).loc main_arg0)) (Y : Buf (Elt F) ((c.tc : Thread nD τ).loc main_v0))
    (h0 : Fn 0 = X) (h1 : Fn 1 = X) (h2 : Fn 2 = Y) :
    (dat.arrays Fn : sProp 𝕄)
      = iprop((((c.tc : Thread nD τ).loc main_arg0) ↦{fullShare} X) ∗ (((c.tc : Thread nD τ).loc main_v0) ↦{fullShare} Y)) := by
  unfold Dat.arrays
  rw [bigSep_W0, arg0_halves, (arr_whole0 0).set_eq_univ, (arr_whole0 2).set_eq_univ,
    share_0 dat hq0, share_1 dat hq1, share_2 dat, h0, h1, h2]
  exact (BI.Entails.antisymm BI.sep_assoc BI.sep_assoc').symm

/-! ## The host lines after the region -/

/-- No host line allocates a buffer. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor

/-- Every host line after the region touches unscoped buffers of the core only. -/
theorem tail_sub : ∀ ops ∈ (tailOpss (F := F)), ∀ op ∈ ops, op.bufs ⊆ Pipeline.ucRefs τ sig := by
  intro ops hops op hop
  simp only [tailOpss, List.mem_cons, List.mem_nil_iff, or_false] at hops
  rcases hops with rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)

/-- None allocates a buffer. -/
theorem tail_fresh : ∀ ops ∈ (tailOpss (F := F)), ∀ op ∈ ops, op.fresh = ∅ := by
  intro ops hops op hop
  simp only [tailOpss, List.mem_cons, List.mem_nil_iff, or_false] at hops
  rcases hops with rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop

/-- Each host line writes its own result buffer only, which is neither the feature array nor the row-sum array. -/
theorem hostOps1_keeps (r : Ref sig .tc) (hr : r = main_arg0 ∨ r = main_v0) :
    (hostOps1 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

theorem hostOps1_1_keeps (r : Ref sig .tc) (hr : r = main_arg0 ∨ r = main_v0) :
    (hostOps1_1 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

theorem hostOps1_2_keeps (r : Ref sig .tc) (hr : r = main_arg0 ∨ r = main_v0) :
    (hostOps1_2 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

theorem hostOps1_3_keeps (r : Ref sig .tc) (hr : r = main_arg0 ∨ r = main_v0) :
    (hostOps1_3 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

theorem hostOps1_4_keeps (r : Ref sig .tc) (hr : r = main_arg0 ∨ r = main_v0) :
    (hostOps1_4 : List (HloOp τ sig (Elt F))).Forall fun op => Proc.devRef (τ := τ) .tc r ∉ op.writes := by
  simp only [List.Forall, StableHlo.nullary_writes, StableHlo.unary_writes, StableHlo.binary_writes, StableHlo.reshape_writes,
    Finset.mem_singleton]
  rcases hr with rfl | rfl <;> (repeat' constructor) <;> exact StableHlo.devRef_ne_of_ne (by decide)

/-- No host line after the region writes the feature array or the row-sum array. -/
theorem tail_keeps (r : Ref sig .tc) (hr : r = main_arg0 ∨ r = main_v0) :
    ∀ op ∈ (tailOpss (F := F)).flatten, Proc.devRef (τ := τ) .tc r ∉ op.writes := by
  intro op hop
  obtain ⟨ops, hops, hop⟩ := List.mem_flatten.mp hop
  simp only [tailOpss, List.mem_cons, List.mem_nil_iff, or_false] at hops
  rcases hops with rfl | rfl | rfl | rfl | rfl
  · exact (List.forall_iff_forall_mem.mp (hostOps1_keeps r hr)) op hop
  · exact (List.forall_iff_forall_mem.mp (hostOps1_1_keeps r hr)) op hop
  · exact (List.forall_iff_forall_mem.mp (hostOps1_2_keeps r hr)) op hop
  · exact (List.forall_iff_forall_mem.mp (hostOps1_3_keeps r hr)) op hop
  · exact (List.forall_iff_forall_mem.mp (hostOps1_4_keeps r hr)) op hop

/-- So they leave the feature array as it was, -/
theorem tailOps_keep_arg0 (W : Valuation τ sig (Elt F)) :
    StableHlo.after (tailOpss (F := F)).flatten W (Proc.devRef .tc main_arg0) = W (Proc.devRef .tc main_arg0) :=
  StableHlo.after_of_forall_not_mem _ W (tail_keeps main_arg0 (.inl rfl))

/-- and the row-sum array. -/
theorem tailOps_keep_v0 (W : Valuation τ sig (Elt F)) :
    StableHlo.after (tailOpss (F := F)).flatten W (Proc.devRef .tc main_v0) = W (Proc.devRef .tc main_v0) :=
  StableHlo.after_of_forall_not_mem _ W (tail_keeps main_v0 (.inr rfl))

/-! ## The region's exit and the host lines after it -/

/-- The core's unscoped buffers are the feature array, the row-sum array and the rest. -/
theorem unscopedBufs_pair (c : Dev nD) (W : (b : Ref sig .tc) → Buf (Elt F) ((c.tc : Thread nD τ).loc b)) :
    (unscopedBufs c W : sProp 𝕄)
      = iprop(((((c.tc : Thread nD τ).loc main_arg0) ↦{fullShare} W main_arg0) ∗ (((c.tc : Thread nD τ).loc main_v0) ↦{fullShare} W main_v0))
          ∗ Pipeline.unscopedRest spec0 c W) := by
  rw [← arrBufs_pair]
  exact Pipeline.unscopedBufs_split₀ cfgs 0 winFacts₀0.arr_unscoped c W

/-- The bypassing buffers hold at the region's exit what they held at its entry: none is the row-sum array. -/
theorem unscopedRest_exit (m : (ℓ : Loc nD τ sig) → Buf (Elt F) ℓ) (c : Dev nD) (out : Buf (Elt F) ((c.tc : Thread nD τ).loc main_v0)) :
    (Pipeline.unscopedRest spec0 c (fun b => exitVal m c out (Proc.devRef .tc b)) : sProp 𝕄) = Pipeline.unscopedRest spec0 c (V m c) := by
  unfold Pipeline.unscopedRest
  exact bigSep_congr fun b hb => by
    show (((c.tc : Thread nD τ).loc b) ↦{fullShare} exitVal m c out (Proc.devRef .tc b) : sProp 𝕄) = _
    rw [exitVal_at_ne m c out b fun e => (Finset.mem_sdiff.mp hb).2 (by subst e; exact Finset.mem_image.mpr ⟨2, Finset.mem_univ _, rfl⟩)]

section TailRun

variable (m : (ℓ : Loc nD τ sig) → Buf (Elt F) ℓ)
  (dats : (p : Fin 1) → (c : Dev nD) → Dat τ (Elt F) Unit ℕ (UR sig nD τ) ℕ (cfgs p) c)
  (hq0 : ∀ c, (dats 0 c).q 0 = fullShare.left) (hq1 : ∀ c, (dats 0 c).q 1 = fullShare.right)
  (hA : ∀ c w, (dats 0 c).A w = V m c (Pipeline.arrRef spec0 w))

include hq0 hq1 hA in
/-- At the region's exit the arrays and the bypassing buffers are every unscoped buffer of the core whole, at the exit
    valuation: the two halves of the feature array, both at its entry contents, make it whole again. -/
theorem held_exit (c : Dev nD) :
    (StableHlo.held (c.tc : Thread nD τ) (Pipeline.ucRefs τ sig) (exitVal m c ((dats 0 c).arrAt 2 cfg0.N)) : sProp 𝕄)
      = iprop((dats 0 c).arrays (fun w => (dats 0 c).arrAt w cfg0.N) ∗ Pipeline.unscopedRest spec0 c (V m c)) := by
  have hN0 : (dats 0 c).arrAt 0 cfg0.N = V m c main_arg0 := ((dats 0 c).arrAt_in 0 rfl _).trans (hA c 0)
  have hN1 : (dats 0 c).arrAt 1 cfg0.N = V m c main_arg0 := ((dats 0 c).arrAt_in 1 rfl _).trans (hA c 1)
  rw [← Pipeline.unscopedBufs_held c (exitVal m c ((dats 0 c).arrAt 2 cfg0.N)), unscopedBufs_pair,
    arrays_pair (dats 0 c) (hq0 c) (hq1 c) (fun w => (dats 0 c).arrAt w cfg0.N) (V m c main_arg0) ((dats 0 c).arrAt 2 cfg0.N) hN0 hN1 rfl, exitVal_at_v0, exitVal_at_ne m c _ main_arg0 (by decide)]
  rw [unscopedRest_exit]

include hq0 hq1 hA in
/-- After the host lines likewise, at the valuation they leave: they write neither array. -/
theorem held_after (c : Dev nD) :
    (StableHlo.held (c.tc : Thread nD τ) (Pipeline.ucRefs τ sig)
        (StableHlo.after (tailOpss (F := F)).flatten (exitVal m c ((dats 0 c).arrAt 2 cfg0.N))) : sProp 𝕄)
      = iprop((dats 0 c).arrays (fun w => (dats 0 c).arrAt w cfg0.N) ∗ Pipeline.unscopedRest spec0 c (tailV m dats c)) := by
  have hN0 : (dats 0 c).arrAt 0 cfg0.N = V m c main_arg0 := ((dats 0 c).arrAt_in 0 rfl _).trans (hA c 0)
  have hN1 : (dats 0 c).arrAt 1 cfg0.N = V m c main_arg0 := ((dats 0 c).arrAt_in 1 rfl _).trans (hA c 1)
  rw [← Pipeline.unscopedBufs_held c (StableHlo.after (tailOpss (F := F)).flatten (exitVal m c ((dats 0 c).arrAt 2 cfg0.N))), unscopedBufs_pair,
    arrays_pair (dats 0 c) (hq0 c) (hq1 c) (fun w => (dats 0 c).arrAt w cfg0.N) (V m c main_arg0) ((dats 0 c).arrAt 2 cfg0.N) hN0 hN1 rfl, tailOps_keep_arg0, tailOps_keep_v0, exitVal_at_v0,
    exitVal_at_ne m c _ main_arg0 (by decide)]
  rfl

include hq0 hq1 hA in
-- the rule for a stretch of host lines is stated for any thread and used here at the TensorCore's
set_option backward.isDefEq.respectTransparency.types false in
/-- THE LINES AFTER THE REGION: from the region's exit — the boundary, the arrays, the bypassing buffers at their entry
    contents — the five stretches of host lines run within the core's unscoped buffers and hand back the arrays as they
    were and the bypassing buffers at the valuation the lines leave. -/
theorem tail_run (c : Dev nD) (Q' : PUnit → sProp 𝕄) :
    iprop((iprop((dats 0 c).arrays (fun w => (dats 0 c).arrAt w cfg0.N) ∗ Pipeline.unscopedRest spec0 c (tailV m dats c)) -∗ Q' ⟨⟩)
        ∗ boundary (c.tc : Thread nD τ) ∗ (dats 0 c).arrays (fun w => (dats 0 c).arrAt w cfg0.N) ∗ Pipeline.unscopedRest spec0 c (V m c))
      ⊢ wp frame (wpE 𝔻 𝕍 (c.tc : Thread nD τ) none) Set.univ (Pipeline.chain ((tailOpss (F := F)).map StableHlo.seq)) Q' := by
  rw [← List.append_nil ((tailOpss (F := F)).map StableHlo.seq), ← held_exit m dats hq0 hq1 hA c]
  iintro ⟨Hk, Hb⟩
  iapply (Pipeline.wp_seqs_then (fun q => Cfg.toPCfg (Val := Elt F) (cfgs q)) (defs₀ (F := F)) Variants.none c (Pipeline.ucRefs τ sig) [] tailOpss
    tail_sub tail_fresh (exitVal m c ((dats 0 c).arrAt 2 cfg0.N))) $$ Hb
  iintro Hb
  rw [Pipeline.chain_nil, wp_pure, held_after m dats hq0 hq1 hA c]
  imodintro
  iapply Hk
  icases Hb with ⟨-, H⟩
  iexact H

end TailRun

/-! ## @main around the region -/

/-- @main is the region followed by the five stretches of host lines. -/
theorem main_chain' (c : Dev nD) : main (F := F) c = Pipeline.chain ((([] : List (List (HloOp τ sig (Elt F)))).map StableHlo.seq)
      ++ [Prog.lift (.customCall (Pipeline.entry 0) ())] ++ (tailOpss (F := F)).map StableHlo.seq) := by
  simp only [tailOpss, List.map_nil, List.map_cons, List.nil_append, List.cons_append, List.singleton_append]
  exact main_chain c

/-- @main reduces to the region continued by the host lines, at the launch contents. -/
theorem hmain_tail (m : (ℓ : Loc nD τ sig) → Buf (Elt F) ℓ) :
    Pipeline.HMainK (Ix := Unit) (Name := ℕ) (U := UR sig nD τ) (Lvl := ℕ) cfgs 0 (defs₀ (F := F)) Variants.none m (main (F := F)) (V m)
      (fun _ => Pipeline.chain ((tailOpss (F := F)).map StableHlo.seq)) :=
  Pipeline.hmain_around cfgs 0 (defs₀ (F := F)) Variants.none m (main (F := F)) [] (tailOpss (F := F)) (by simp only [List.Forall])
    (by simp only [List.Forall]) main_chain'

end Launch

/-! ## The run -/

/-- THE RUN of @main for a kernel whose two input windows read ONE array: the launch deals the feature array's full share
    to the two input windows, a half each (`hq0`, `hq1`); at the region's exit the halves, still at the entry contents,
    are joined, the host lines run within every unscoped buffer of the core, and the post is the frame post at the
    valuation they leave. -/
theorem run_shared (m : (ℓ : Loc nD τ sig) → Buf (Elt F) ℓ) (ρ : Dev nD → PrngReg)
    (dats : (p : Fin 1) → (c : Dev nD) → Dat τ (Elt F) Unit ℕ (UR sig nD τ) ℕ (cfgs p) c)
    (hbody : ∀ c, Pipeline.BodyObligationLoose (dats 0 c) (defs₀ (F := F)) Variants.none () Set.univ)
    (hq0 : ∀ c, (dats 0 c).q 0 = fullShare.left) (hq1 : ∀ c, (dats 0 c).q 1 = fullShare.right)
    (howed : ∀ c t, (dats 0 c).owed t = 0)
    (hA : ∀ c w, (dats 0 c).A w = V m c (Pipeline.arrRef spec0 w))
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) (s₀ m ρ) (Pipeline.FramePost cfgs dats 0 (tailV m dats)) := by
  classical
  have hcell : Function.Injective (Pipeline.cellOf (nD := nD) (τ := τ) (Pipeline.pin (fun q => Cfg.toPCfg (Val := Elt F) (cfgs q)) (fun q => (cfgs q).toPCfg_adm))) := cellOf_inj
  refine Pipeline.θ_run_region_pf_tail (fun q => Cfg.toPCfg (Val := Elt F) (cfgs q)) (fun q => (cfgs q).toPCfg_adm) dats () hcell 0
    winFacts₀0 (Pipeline.OwnSemFacts.none spec0) (Pipeline.PreFacts.none _) emb₁ defs₀ Variants.none m ρ main
    (fun _ => Pipeline.chain ((tailOpss (F := F)).map StableHlo.seq)) hbody
    block_pos0 arr_whole0 stage_whole0 howed
    (G := fun _ => iprop(emp))
    (u₀ := initOf (Pipeline.cells (Pipeline.pin (fun q => Cfg.toPCfg (Val := Elt F) (cfgs q)) (fun q => (cfgs q).toPCfg_adm)) hcell) (Pipeline.launchToks (Pipeline.pin (fun q => Cfg.toPCfg (Val := Elt F) (cfgs q)) (fun q => (cfgs q).toPCfg_adm)) hcell))
    (hu₀ := ?hu₀)
    (V := V m)
    (hmain := ?hmain)
    (hsplit := ?hsplit)
    (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (tailV m dats c))
    (hX := ?hX) (hin := ?hin) (hout := ?hout) (htail := ?htail)
    (QY := fun c s => ∀ b ∈ Pipeline.restRefs sig spec0, s.mem ((c.tc : Thread nD τ).loc b) = tailV m dats c b)
    (hY := ?hY) (hQ := ?hQ)
  case hu₀ =>
    iintro Hu; imodintro
    isplitl [Hu]
    · iapply (show (ownU _ : sProp 𝕄) ⊢ BI.own (emb₁ (initOf (Pipeline.cells (Pipeline.pin (fun q => Cfg.toPCfg (Val := Elt F) (cfgs q)) (fun q => (cfgs q).toPCfg_adm)) hcell)
          (Pipeline.launchToks (Pipeline.pin (fun q => Cfg.toPCfg (Val := Elt F) (cfgs q)) (fun q => (cfgs q).toPCfg_adm)) hcell))) from .rfl)
      iexact Hu
    iapply (show (BI.emp : sProp 𝕄) ⊢ bigSep Finset.univ (fun _ : Dev nD => (BI.emp : sProp 𝕄)) from by rw [BI.bigSep_emp_const])
    iempintro
  case hmain =>
    -- the two statements agree with the program and the host lines read as opaque names
    have h := Launch.hmain_tail (F := F) m
    generalize main (F := F) = mn at h ⊢
    generalize (tailOpss (F := F)) = tt at h ⊢
    exact h
  case hsplit =>
    intro c
    rw [Launch.arrBufs_pair, Launch.arrays_pair (dats 0 c) (hq0 c) (hq1 c) (fun w => (dats 0 c).arrAt w 0) (V m c main_arg0) (V m c main_v0) (hA c 0) (hA c 1) (hA c 2)]
  case hX =>
    intro c
    iintro ⟨HU, -, -, -, Hp, -⟩; imodintro
    isplitl [Hp]; · iexists _; iexact Hp
    iapply (show (Pipeline.unscopedRestP Pipeline.Prefetch.none spec0 c (V m c) : sProp 𝕄) ⊢ Pipeline.unscopedRest spec0 c (V m c)
      from Entails.of_eq (Pipeline.unscopedRestP_none spec0 c (V m c)))
    iexact HU
  case hin =>
    intro c
    refine (show _ ⊢ Pipeline.ΦA spec0 c from ?_).trans (hin c)
    unfold Pipeline.ΦA; iintro ⟨Hp, -, Hr⟩
    isplitl [Hr] <;> iassumption
  case hout =>
    intro c
    refine (hout c).trans ?_
    rw [Pipeline.ownSems0_none]; unfold Pipeline.ΦA
    iintro ⟨Hr, Hp⟩
    isplitl [Hp]; · iexact Hp
    isplitr; · iempintro
    iexact Hr
  case htail =>
    intro c Q'
    exact Launch.tail_run m dats hq0 hq1 hA c Q'
  case hY =>
    intro c s'
    iintro ⟨-, HU, HSI⟩
    unfold Pipeline.unscopedRest
    imodintro
    iapply (pointsTo_read_all (Pipeline.restRefs sig spec0) (fun b => (c.tc : Thread nD τ).loc b) (tailV m dats c) s')
    isplitl [HU] <;> iassumption
  case hQ =>
    intro s h c
    exact ⟨(h c).1, (h c).2.2⟩

end Cert.KernelIdeal.Hand

end
-- ==== Proof.Ideal.Runs.lean ====
/-
  What the three runs of the kernel body share. The grid is 9 × 18, walked row block by row block: point t is
  (t / 18, t % 18). The body zeroes the running row sums at column block 0 (t % 18 = 0), adds the block's row sums at
  every point, and copies the running sums into the output block at column block 17 (t % 18 = 17); at every other
  point it stores nothing into the output block, which is then neither read nor written back.
-/
import proofs.«151718_j86638080294934_1_alg».proof.Proof.Ideal.Tail
import proofs.«151718_j86638080294934_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row block's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column block's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions on the grid point -/

/-- "This is column block 0": the running sums are zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 18 = 0 :=
  (by decide +kernel : ∀ t : Fin grid0.N, cond0_0 (grid0.coords t) ↔ t.val % 18 = 0)

/-- "This is column block 17": the running sums are copied out. -/
abbrev cond0_1 (i : grid0.Coords) : Prop := k0_cond2 i = 1#1
theorem hcond0_1 : ∀ t : Fin cfg0.N, cond0_1 (grid0.coords t) ↔ t.val % 18 = 17 :=
  (by decide +kernel : ∀ t : Fin grid0.N, cond0_1 (grid0.coords t) ↔ t.val % 18 = 17)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2_A : ∀ t : Fin cfg0.N, cond0_0 (grid0.coords t) → ¬cond0_1 (grid0.coords t) → cfg0.idle 2 (grid0.coords t) = true := by decide +kernel
theorem noFlush0_2_A : ∀ t : Fin cfg0.N, cond0_0 (grid0.coords t) → ¬cond0_1 (grid0.coords t) → (cfg0.win 2).flush t = false := by decide +kernel
theorem idleAt0_2_B : ∀ t : Fin cfg0.N, ¬cond0_0 (grid0.coords t) → ¬cond0_1 (grid0.coords t) → cfg0.idle 2 (grid0.coords t) = true := by decide +kernel
theorem noFlush0_2_B : ∀ t : Fin cfg0.N, ¬cond0_0 (grid0.coords t) → ¬cond0_1 (grid0.coords t) → (cfg0.win 2).flush t = false := by decide +kernel
theorem liveAt0_2_C : ∀ t : Fin cfg0.N, ¬cond0_0 (grid0.coords t) → cond0_1 (grid0.coords t) → cfg0.idle 2 (grid0.coords t) = false := by decide +kernel

/-! ## The staging and scratch memrefs the body is called with -/

/-- One staging buffer of the output window, through which its contents are stated. -/
abbrev VO0_2 : View sig .tc .vmem S1024x1 .f32 := (Memref.whole cc0_stg2_0 : Memref sig .tc .vmem S1024x1 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
/-- The scratch holding the running row sums. -/
abbrev scM0_0 : Memref sig .tc .vmem S1024x1 .f32 := Memref.whole cc0_scratch0
abbrev VS0_0 : View sig .tc .vmem S1024x1 .f32 := scM0_0.view

/-- The region's class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.Ideal.RunA.lean ====
/-
  The kernel body run once, at the first column block of a row block: the running sums are zeroed and the block's row sums added; nothing is stored into the output block, handed back as found. What the body's stores leave in a buffer is recorded as the list of
  stored pieces (last first), found by running the body.
-/
import proofs.«151718_j86638080294934_1_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__sim_rowsum_kernel i arg2 harg2 arg3 harg3 arg4 harg4 arg5 harg5) K } := by
  refine ⟨[], ?_, fun xi2 E K => ?run⟩
  case run =>
    simp only [cc0__sim_rowsum_kernel_eq_skeleton]; unfold cc0__sim_rowsum_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Ideal.RunB.lean ====
/-
  The kernel body run once, at a middle column block: the block's row sums are added to the running sums left by the point before; nothing is stored into the output block. What the body's stores leave in a buffer is recorded as the list of
  stored pieces (last first), found by running the body.
-/
import proofs.«151718_j86638080294934_1_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) :
    Σ' (L2 : List (View.Piece (Elt F) S1024x1 .f32)), { LS0 : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__sim_rowsum_kernel i arg2 harg2 arg3 harg3 arg4 harg4 arg5 harg5) K } := by
  refine ⟨[], ?_, fun xi2 E K => ?run⟩
  case run =>
    simp only [cc0__sim_rowsum_kernel_eq_skeleton]; unfold cc0__sim_rowsum_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.Ideal.RunC.lean ====
/-
  The kernel body run once, at the last column block: the block's row sums are added and the running sums copied into the output block. What the body's stores leave in a buffer is recorded as the list of
  stored pieces (last first), found by running the body.
-/
import proofs.«151718_j86638080294934_1_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) :
    Σ' (L2 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__sim_rowsum_kernel i arg2 harg2 arg3 harg3 arg4 harg4 arg5 harg5) K } := by
  refine ⟨?_, ?_, fun E K => ?run⟩
  case run =>
    simp only [cc0__sim_rowsum_kernel_eq_skeleton]; unfold cc0__sim_rowsum_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.Ideal.Frame.lean ====
/-
  The proof data of the pipeline and the body obligation. After the body at point t the scratch holds the running
  row sums: at a row block's first column block what the zeroing and the first addition leave, afterwards what the
  addition leaves over the sums of the point before; the output block holds the copied sums at a row block's last
  column block and is untouched elsewhere. Each case's contents are the case's stored pieces read back.
-/
import proofs.«151718_j86638080294934_1_alg».proof.Proof.Ideal.RunA
import proofs.«151718_j86638080294934_1_alg».proof.Proof.Ideal.RunB
import proofs.«151718_j86638080294934_1_alg».proof.Proof.Ideal.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A stores nothing into the output block: a placeholder nothing consults. -/
def out0_A_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) : Vec F S1024x1 .f32 :=
  VO0_2.read (Elt F) (VO0_2.writes (Elt F) VO0_2.junk (kernelRun0_A c i arg2 harg2 arg3 harg3 arg4 harg4 arg5 harg5 hc0 hc1 x0 x1).1)

/-- Case B stores nothing into the output block: a placeholder nothing consults. -/
def out0_B_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) : Vec F S1024x1 .f32 :=
  VO0_2.read (Elt F) (VO0_2.writes (Elt F) VO0_2.junk (kernelRun0_B c i arg2 harg2 arg3 harg3 arg4 harg4 arg5 harg5 hc0 hc1 x0 x1 xs0).1)

/-- Case C's stored pieces cover the output block. -/
theorem cover0_C_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) (y : S1024x1.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x1.size (by sl_kernel_rfl) y

/-- What case C leaves in the output block's staging buffer. -/
def out0_C_2 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) : Vec F S1024x1 .f32 :=
  VO0_2.read (Elt F) (VO0_2.writes (Elt F) VO0_2.junk (kernelRun0_C c i arg2 harg2 arg3 harg3 arg4 harg4 arg5 harg5 hc0 hc1 x0 x1 xs0).1)

/-- Case A's stored pieces cover the scratch. -/
theorem scover0_A_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) (y : S1024x1.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x1.size (by sl_kernel_rfl) y

/-- What case A leaves in the scratch: the running row sums. -/
def sout0_A_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) : Vec F S1024x1 .f32 :=
  VS0_0.read (Elt F) (VS0_0.writes (Elt F) VS0_0.junk (kernelRun0_A c i arg2 harg2 arg3 harg3 arg4 harg4 arg5 harg5 hc0 hc1 x0 x1).2.1)

/-- Case B's stored pieces cover the scratch. -/
theorem scover0_B_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) (y : S1024x1.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x1.size (by sl_kernel_rfl) y

/-- What case B leaves in the scratch: the running row sums. -/
def sout0_B_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) : Vec F S1024x1 .f32 :=
  VS0_0.read (Elt F) (VS0_0.writes (Elt F) VS0_0.junk (kernelRun0_B c i arg2 harg2 arg3 harg3 arg4 harg4 arg5 harg5 hc0 hc1 x0 x1 xs0).2.1)

/-- Case C's stored pieces cover the scratch. -/
theorem scover0_C_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) (y : S1024x1.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x1.size (by sl_kernel_rfl) y

/-- What case C leaves in the scratch: the running row sums. -/
def sout0_C_0 (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) : Vec F S1024x1 .f32 :=
  VS0_0.read (Elt F) (VS0_0.writes (Elt F) VS0_0.junk (kernelRun0_C c i arg2 harg2 arg3 harg3 arg4 harg4 arg5 harg5 hc0 hc1 x0 x1 xs0).2.1)

/-! ## What the output block and the scratch hold after each point -/

/-- After the body at position `n`: (the output block's staging buffer, the scratch). -/
def outsAt0 (c : Dev nD) : (n : ℕ) → n < cfg0.N → Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 18 = 0 then
      if h1 : (n + 1) % 18 = 17 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 18 = 17 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2)

theorem outsAt0_A (c : Dev nD) (t : Fin cfg0.N) (h0 : t.val % 18 = 0) (h1 : ¬t.val % 18 = 17) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 18 = 0) (h1 : ¬t.val % 18 = 17) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 18 = 0) (h1 : t.val % 18 = 17) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the scratch holds anything; afterwards it holds
    the running sums the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The two input windows read one array, each at half of its share; the output window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 162 := lt_of_lt_of_eq t.isLt (show cfg0.N = 162 from N_0)
  by_cases h0 : t.val % 18 = 0
  · by_cases h1 : t.val % 18 = 17
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_A t ((hcond0_0 t).mpr h0) (fun h => h1 ((hcond0_1 t).mp h))) (noFlush0_2_A t ((hcond0_0 t).mpr h0) (fun h => h1 ((hcond0_1 t).mp h)))]
      rw [outsAt0_A m c t h0 h1]
      unfold sout0_A_0; (try dsimp only)
      by_cases hz : t.val = 0
      · rw [PhiS_castSucc m c t, PhiS_zero m c _ _ hz, PhiA0_eq]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨HS0, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk m c 0 t) (iblk m c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _)
          iexact Hg
        isplitl [Ho]; · iexact Ho
        isplitl [H0]; · iexact H0
        isplitl [H1]; · iexact H1
        iexists _; iexact H2
  · by_cases h1 : t.val % 18 = 17
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2_C t (fun h => h0 ((hcond0_0 t).mp h)) ((hcond0_1 t).mpr h1)], after0_2]
      rw [outsAt0_C m c t h0 h1]
      unfold out0_C_2 sout0_C_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B m c t h0 h1]
      unfold sout0_B_0; (try dsimp only)
      have hz : t.val ≠ 0 := by omega
      rw [PhiS_castSucc m c t, PhiS_pos m c _ _ hz]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the class invariant back: the sums' names are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 162 := N_0; omega)

end Cert.KernelIdeal.Hand

end
-- ==== Proof.Ideal.ChainDef.lean ====
/-
  The running row sums after each grid point, as a chain over the points: at a row block's first column block the
  block's row sums of the affinities added to zero, afterwards added to what the point before left.
-/
import proofs.«151718_j86638080294934_1_alg».proof.Proof.Ideal.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The running sums after position `n` (point (n / 18, n % 18)). -/
def chain (c : Dev nD) : (n : ℕ) → n < cfg0.N → Vec F S1024x1 .f32
  | 0, h => k0_pay1 (k0_pay3 (iblk m c 0 ⟨0, h⟩) (iblk m c 1 ⟨0, h⟩)) (k0_pay2 (F := F))
  | n + 1, h =>
    if (n + 1) % 18 = 0 then k0_pay1 (k0_pay3 (iblk m c 0 ⟨n + 1, h⟩) (iblk m c 1 ⟨n + 1, h⟩)) (k0_pay2 (F := F))
    else k0_pay1 (k0_pay3 (iblk m c 0 ⟨n + 1, h⟩) (iblk m c 1 ⟨n + 1, h⟩)) (chain c n (Nat.lt_of_succ_lt h))

theorem chain_zero (c : Dev nD) (h : 0 < cfg0.N) :
    chain m c 0 h = k0_pay1 (k0_pay3 (iblk m c 0 ⟨0, h⟩) (iblk m c 1 ⟨0, h⟩)) (k0_pay2 (F := F)) := rfl

theorem chain_first (c : Dev nD) (n : ℕ) (h : n + 1 < cfg0.N) (h0 : (n + 1) % 18 = 0) :
    chain m c (n + 1) h = k0_pay1 (k0_pay3 (iblk m c 0 ⟨n + 1, h⟩) (iblk m c 1 ⟨n + 1, h⟩)) (k0_pay2 (F := F)) := by
  rw [chain]; exact if_pos h0

theorem chain_next (c : Dev nD) (n : ℕ) (h : n + 1 < cfg0.N) (h0 : ¬ (n + 1) % 18 = 0) :
    chain m c (n + 1) h = k0_pay1 (k0_pay3 (iblk m c 0 ⟨n + 1, h⟩) (iblk m c 1 ⟨n + 1, h⟩)) (chain m c n (Nat.lt_of_succ_lt h)) := by
  rw [chain]; exact if_neg h0

/-- The chain does not depend on how its position is written. -/
theorem chain_congr (c : Dev nD) {n n' : ℕ} (e : n = n') (h : n < cfg0.N) (h' : n' < cfg0.N) : chain m c n h = chain m c n' h' := by
  subst e; rfl

end Cert.KernelIdeal.Hand

end
-- ==== Proof.Ideal.Chain.lean ====
/-
  The stored pieces read back as values. At a row block's first column block the scratch ends holding the block's
  row sums added to zero, afterwards added to what the point before left; at a row block's last column block the
  output block holds the same. So what the scratch holds after each point is the chain over the points, by
  induction on the point.
-/
import proofs.«151718_j86638080294934_1_alg».proof.Proof.Ideal.Frame
import proofs.«151718_j86638080294934_1_alg».proof.Proof.Ideal.ChainDef
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl

/-- Case A leaves the first block's row sums added to zero: the zeroing's store is read back by the addition. -/
theorem sout_A (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : cond0_0 i) (hc1 : ¬cond0_1 i)
    (x0 : Vec F S1024x1024 .f32) (x1 : Vec F S512x1024 .f32) :
    sout0_A_0 c i arg2 harg2 arg3 harg3 arg4 harg4 arg5 harg5 hc0 hc1 x0 x1 = k0_pay1 (k0_pay3 x0 x1) (k0_pay2 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1024x1) hz, View.readCov_unit_zero (S := S1024x1) _ hz]
  simp only [View.readAt_eq_ld, harg2.read_unread, harg3.read_unread, View.ld_unit_zero (S := S1024x1024) hz, View.ld_unit_zero (S := S512x1024) hz]

/-- Case B leaves the block's row sums added to the running sums. -/
theorem sout_B (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : ¬cond0_1 i)
    (x0 : Vec F S1024x1024 .f32) (x1 : Vec F S512x1024 .f32) (xs0 : Vec F S1024x1 .f32) :
    sout0_B_0 c i arg2 harg2 arg3 harg3 arg4 harg4 arg5 harg5 hc0 hc1 x0 x1 xs0 = k0_pay1 (k0_pay3 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero (S := S1024x1) hz]
  simp only [View.readAt_eq_ld, harg2.read_unread, harg3.read_unread, harg5.read_unread, View.ld_unit_zero (S := S1024x1024) hz, View.ld_unit_zero (S := S512x1024) hz, View.ld_unit_zero (S := S1024x1) hz]

/-- Case C leaves the same in the scratch … -/
theorem sout_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) :
    sout0_C_0 c i arg2 harg2 arg3 harg3 arg4 harg4 arg5 harg5 hc0 hc1 x0 x1 xs0 = k0_pay1 (k0_pay3 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero (S := S1024x1) hz]
  simp only [View.readAt_eq_ld, harg2.read_unread, harg3.read_unread, harg5.read_unread, View.ld_unit_zero (S := S1024x1024) hz, View.ld_unit_zero (S := S512x1024) hz, View.ld_unit_zero (S := S1024x1) hz]

/-- … and copies it into the output block. -/
theorem out_C (c : Dev nD) (i : grid0.Coords) (arg2 : Memref sig .tc .vmem S1024x1024 .f32) (harg2 : arg2.IsWhole) (arg3 : Memref sig .tc .vmem S512x1024 .f32) (harg3 : arg3.IsWhole) (arg4 : Memref sig .tc .vmem S1024x1 .f32) (harg4 : arg4.IsWhole) (arg5 : Memref sig .tc .vmem S1024x1 .f32) (harg5 : arg5.IsWhole) (hc0 : ¬cond0_0 i) (hc1 : cond0_1 i)
    (x0 : Vec F S1024x1024 .f32) (x1 : Vec F S512x1024 .f32) (xs0 : Vec F S1024x1 .f32) :
    out0_C_2 c i arg2 harg2 arg3 harg3 arg4 harg4 arg5 harg5 hc0 hc1 x0 x1 xs0 = k0_pay1 (k0_pay3 x0 x1) xs0 := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S1024x1) hz, View.readCov_unit_zero (S := S1024x1) _ hz]
  simp only [View.readAt_eq_ld, harg2.read_unread, harg3.read_unread, harg5.read_unread, View.ld_unit_zero (S := S1024x1024) hz, View.ld_unit_zero (S := S512x1024) hz, View.ld_unit_zero (S := S1024x1) hz]

/-- What the scratch holds after position `n` is the chain. -/
theorem outsAt_snd (c : Dev nD) : ∀ (n : ℕ) (h : n < cfg0.N), (outsAt0 m c n h).2 = chain m c n h
  | 0, h => by
    rw [outsAt0_A m c ⟨0, h⟩ (Nat.zero_mod _) (by dsimp only; omega)]
    dsimp only
    rw [sout_A]; rfl
  | n + 1, h => by
    by_cases h0 : (n + 1) % 18 = 0
    · have h1 : ¬ (n + 1) % 18 = 17 := by omega
      rw [outsAt0_A m c ⟨n + 1, h⟩ h0 h1]
      dsimp only
      rw [sout_A, chain_first m c n h h0]
    · by_cases h1 : (n + 1) % 18 = 17
      · rw [outsAt0_C m c ⟨n + 1, h⟩ h0 h1]
        dsimp only
        rw [sout_C, chain_next m c n h h0]
        exact congrArg _ (outsAt_snd c n _)
      · rw [outsAt0_B m c ⟨n + 1, h⟩ h0 h1]
        dsimp only
        rw [sout_B, chain_next m c n h h0]
        exact congrArg _ (outsAt_snd c n _)

/-- At a row block's last column block the output block holds the chain too. -/
theorem outsAt_fst_C (c : Dev nD) (t : Fin cfg0.N) (h17 : t.val % 18 = 17) : (outsAt0 m c t.val t.isLt).1 = chain m c t.val t.isLt := by
  obtain ⟨n, hn⟩ := t
  cases n with
  | zero => exact absurd h17 (by show ¬ (0 % 18 = 17); decide)
  | succ n =>
    have h0 : ¬ (n + 1) % 18 = 0 := by dsimp only at h17; omega
    rw [outsAt0_C m c ⟨n + 1, hn⟩ h0 h17]
    dsimp only
    rw [out_C, chain_next m c n hn h0]
    exact congrArg _ (outsAt_snd m c n _)

end Cert.KernelIdeal.Hand

end
-- ==== Proof.Ideal.Out.lean ====
/-
  The row-sum array after the region. Row block a's output block is written back once, after the row block's last
  column block (point 18·a + 17), from the scratch's running sums; the nine blocks tile the array. So row 1024·a + r of
  the array ends holding the running sum of row r after point 18·a + 17.
-/
import proofs.«151718_j86638080294934_1_alg».proof.Proof.Ideal.Chain
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The output window's block index at point t is (t / 18, 0), decided over the grid. -/
theorem idx2_facts : ∀ t : Fin cfg0.N, win0_2.index t (0 : Fin 2) = t.val / 18 ∧ win0_2.index t (1 : Fin 2) = 0 :=
  (by decide +kernel : ∀ t : Fin grid0.N, win0_2.index t (0 : Fin 2) = t.val / 18 ∧ win0_2.index t (1 : Fin 2) = 0)

/-- The row-sum array after the region. -/
def rowsOut (c : Dev nD) : Buf (Elt F) ((c : Thread nD τ).loc main_v0) := fun i =>
  chain m c (18 * ((i 0).val / 1024) + 17)
    (by have h : (i 0).val < 9216 := (i 0).isLt
        rw [show cfg0.N = 162 from N_0]; omega)
    (ix2 (⟨(i 0).val % 1024, Nat.mod_lt _ (by norm_num)⟩ : Fin 1024) (0 : Fin 1))

/-- Row 1024·a + r of the array is row r of the running sums after point 18·a + 17. -/
theorem rowsOut_apply (c : Dev nD) (a r : ℕ) (ha : a < 9) (hr : r < 1024) (i : S9216x1.Idx) (hi : (i 0).val = 1024 * a + r) :
    rowsOut m c i = chain m c (18 * a + 17) (by rw [show cfg0.N = 162 from N_0]; omega) (ix2 (⟨r, hr⟩ : Fin 1024) (0 : Fin 1)) := by
  have h1 : (i 0).val / 1024 = a := by omega
  have h2 : (i 0).val % 1024 = r := by omega
  unfold rowsOut
  rw [chain_congr m c (show 18 * ((i 0).val / 1024) + 17 = 18 * a + 17 by omega) _ (by rw [show cfg0.N = 162 from N_0]; omega)]
  refine congrArg _ (funext fun d => ?_)
  match d with
  | ⟨0, _⟩ => exact Fin.ext h2
  | ⟨1, _⟩ => rfl

/-- What a write-back writes is its block of that array. -/
theorem flushed2_eq (c : Dev nD) (t : Fin cfg0.N) (hf : (cfg0.win 2).flush t = true) :
    (dats m 0 c).flushed 2 t = ((cfg0.win 2).blk t).view.read (Elt F) (rowsOut m c) := by
  have h17 : t.val % 18 = 17 := (flush0_2 t).mp hf
  have hN : t.val < 162 := lt_of_lt_of_eq t.isLt (show cfg0.N = 162 from N_0)
  show (cfg0.win 2).cut (grid0.coords t) ((dats m 0 c).after 2 t) = _
  rw [after0_2, outsAt_fst_C m c t h17]
  obtain ⟨e0, e1⟩ := idx2_facts t
  funext j
  rw [View.read_apply]
  show chain m c t.val t.isLt j = rowsOut m c (((cfg0.win 2).blk t).view.emb j)
  have hj0 : (j 0).val < 1024 := (j 0).isLt
  have hj1 : (j 1).val < 1 := (j 1).isLt
  rw [rowsOut_apply m c (t.val / 18) (j 0).val (by omega) hj0 _ (by
    show win0_2.index t (0 : Fin 2) * 1024 + 1 * (j 0).val = 1024 * (t.val / 18) + (j 0).val
    rw [e0]; omega)]
  rw [chain_congr m c (show 18 * (t.val / 18) + 17 = t.val by omega) _ t.isLt]
  refine congrArg _ (funext fun d => ?_)
  match d with
  | ⟨0, _⟩ => rfl
  | ⟨1, _⟩ => exact Fin.ext (by show (j 1).val = 0; omega)

/-- An index of the array is in point t's block iff each coordinate is in the block's range on its axis. -/
theorem mem_blk2 (t : Fin cfg0.N) (i : S9216x1.Idx) :
    i ∈ ((cfg0.win 2).blk t).view.set ↔ ∀ a : Fin 2, win0_2.index t a * S1024x1.size a ≤ (i a).val ∧ (i a).val < win0_2.index t a * S1024x1.size a + S1024x1.size a := by
  show i ∈ ((View.whole main_v0).slice (win0_2.rect t)).set ↔ _
  rw [View.set_slice_whole, Rect.mem_set_unit]
  exact Iff.rfl

/-- Every row of the array is in the block written back after its row block's last column block. -/
theorem cover2 (i : S9216x1.Idx) : ∃ t : Fin cfg0.N, (cfg0.win 2).flush t = true ∧ i ∈ ((cfg0.win 2).blk t).view.set := by
  have hi0 : (i 0).val < 9216 := (i 0).isLt
  have hi1 : (i 1).val < 1 := (i 1).isLt
  have hlt : 18 * ((i 0).val / 1024) + 17 < cfg0.N := by rw [show cfg0.N = 162 from N_0]; omega
  refine ⟨⟨18 * ((i 0).val / 1024) + 17, hlt⟩, (flush0_2 _).mpr (by show (18 * ((i 0).val / 1024) + 17) % 18 = 17; omega), ?_⟩
  rw [mem_blk2]
  obtain ⟨e0, e1⟩ := idx2_facts ⟨18 * ((i 0).val / 1024) + 17, hlt⟩
  intro a
  match a with
  | ⟨0, _⟩ =>
    show win0_2.index ⟨18 * ((i 0).val / 1024) + 17, hlt⟩ (0 : Fin 2) * 1024 ≤ (i 0).val ∧ (i 0).val < win0_2.index ⟨18 * ((i 0).val / 1024) + 17, hlt⟩ (0 : Fin 2) * 1024 + 1024
    rw [e0]; dsimp only; omega
  | ⟨1, _⟩ =>
    show win0_2.index ⟨18 * ((i 0).val / 1024) + 17, hlt⟩ (1 : Fin 2) * 1 ≤ (i 1).val ∧ (i 1).val < win0_2.index ⟨18 * ((i 0).val / 1024) + 17, hlt⟩ (1 : Fin 2) * 1 + 1
    rw [e1]; omega

/-- The array after the run. -/
theorem final2 (c : Dev nD) : (dats m 0 c).arrAt 2 cfg0.N = rowsOut m c :=
  (dats m 0 c).arrAt_eq_of_cover 2 (rowsOut m c) (flushed2_eq m c) (cover2)

end Cert.KernelIdeal.Hand

end
-- ==== Proof.Ideal.Layout.lean ====
/-
  The kernel body's non-pointwise operations read at an index given by coordinates: the column forms of the layout
  operations (a vector cast to a column, a column broadcast along its rows), a float sum along the rows of a matrix,
  and the `[1024, 1024] × [1024, 512]` matrix product as the sum over the contracted axis.
-/
import proofs.«151718_j86638080294934_1_alg».proof.Proof.Gen.KernelIdeal.Skeleton
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## Column forms of the layout operations, read at an index -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A sum along the rows of a matrix, read at a row -/

/-- A float sum over axis 1 of an `[n, m]` vector, read at row `r`, is the sum over the row's entries. -/
theorem rowsum_apply {n m : ℕ} (src : FVec Ideal ⟨2, ![n, m]⟩ .f32) (h : (⟨2, ![n, m]⟩ : Shape).Reduces [1] ⟨1, ![n]⟩)
    (hφ : FKind.Formats .f32) (hacc : (0x00000000#32 : BitVec 32) = 0x00000000#32) (r : Fin n) :
    multiReduction (F := Ideal) .add [1] ⟨1, ![n]⟩ src 0x00000000#32 h hφ hacc (ix1 r) = ∑ k : Fin m, src (ix2 r k) := by
  refine (Ideal.multiReduction_add_single src 0x00000000#32 h hφ hacc (ix1 r)).trans ?_
  exact Finset.sum_congr rfl fun k _ => congrArg src (funext fun c => Fin.ext (by
    match c with
    | ⟨0, _⟩ => rfl
    | ⟨1, _⟩ => rfl))

/-! ## The matrix product, read at an index -/

theorem gram_lhs_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem gram_lhs_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem gram_rhs_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem gram_rhs_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- The `[1024, 1024] × [1024, 512]` product into the zero accumulator, read at `(r, q)`: the sum over the contracted
    axis of the products. -/
theorem gram_apply (l : FVec Ideal S1024x1024 .bf16) (rh : FVec Ideal S1024x512 .bf16) (r : Fin 1024) (q : Fin 512) :
    matmul (F := Ideal) dot_S1024x1024_S1024x512_S1024x512_1_0_0_1_n_n none l rh (constant S1024x512 .f32 0x00000000#32) (ix2 r q)
      = ∑ k : Fin 1024, l (ix2 r k) * rh (ix2 k q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 r q) ((contrEquiv1 dot_S1024x1024_S1024x512_S1024x512_1_0_0_1_n_n 1024 rfl rfl).symm k) = ix2 r k := funext fun a => Fin.ext (by
    match a with
    | ⟨0, _⟩ => exact gram_lhs_0 _ _
    | ⟨1, _⟩ => exact (gram_lhs_1 _ _).trans hk)
  have er : dot_S1024x1024_S1024x512_S1024x512_1_0_0_1_n_n.rhsIdx (ix2 r q) ((contrEquiv1 dot_S1024x1024_S1024x512_S1024x512_1_0_0_1_n_n 1024 rfl rfl).symm k) = ix2 k q := funext fun a => Fin.ext (by
    match a with
    | ⟨0, _⟩ => exact (gram_rhs_0 _ _).trans hk
    | ⟨1, _⟩ => exact gram_rhs_1 _ _)
  rw [el, er]

end Cert.KernelIdeal.Hand

end
-- ==== Proof.Spec.lean ====
/-
  The mathematics both programs compute, over the extended reals.

  For feature rows `a b : Fin 1024 → EReal` the affinity is `exp (−d² / den)` with
  `d² = max (‖a‖² + ‖b‖² − 2⟨a,b⟩) 0` and `den = max (1024 · (1 + cos) ) ε`, `cos = ⟨a,b⟩ / max (‖a‖‖b‖) ε`.
  One program sums the affinities of a row of the 9216 × 9216 matrix block by block (18 blocks of 512 columns,
  each block's sum added to a running total that starts at 0) and divides the grand total by 9216²; the other
  sets the diagonal to 1, takes each row's mean and then the mean of the means.
-/
import Idealize.ShloMosaic.PureOps.Ideal
import Idealize.ShloMosaic.PureOps.Ideal.Laws
import Idealize.ShloMosaic.Lib.ValueIdx

noncomputable section

namespace Cert.SimSpec

open Idealize.ShloMosaic

/-- A feature row. -/
abbrev Row := Fin 1024 → EReal

/-- The float literals of the affinity, as the extended reals their words denote. -/
def eps : EReal := Ideal.ofBits .f32 0x358637BD#32
def two : EReal := Ideal.ofBits .f32 0x40000000#32
def one : EReal := Ideal.ofBits .f32 0x3F800000#32
def dim : EReal := Ideal.ofBits .f32 0x44800000#32
def nRows : EReal := Ideal.ofBits .f32 0x46100000#32
def nPairs : EReal := Ideal.ofBits .f32 0x4CA20000#32

/-- Squared norm and inner product of rows. -/
def sqn (a : Row) : EReal := ∑ k : Fin 1024, a k * a k
def dot (a b : Row) : EReal := ∑ k : Fin 1024, a k * b k

/-- Cosine with the guarded denominator. -/
def cosv (a b : Row) : EReal := Ideal.div (dot a b) (max (Ideal.sqrt (sqn a) * Ideal.sqrt (sqn b)) eps)
/-- Squared distance, clamped at 0. -/
def dist2 (a b : Row) : EReal := max (sqn a + sqn b - two * dot a b) 0
/-- The guarded denominator of the exponent. -/
def denom (a b : Row) : EReal := max (dim * (one + cosv a b)) eps

/-- The affinity with the exponent's numerator written `0 − d²`. -/
def simSub (a b : Row) : EReal := Ideal.exp (Ideal.div (0 - dist2 a b) (denom a b))
/-- The affinity with the exponent's numerator written `−d²`. -/
def simNeg (a b : Row) : EReal := Ideal.exp (Ideal.div (- dist2 a b) (denom a b))

/-- Column `512·b + q` of block `b` (reduced mod 9216 so that it is an index for every `b`). -/
def col (b : ℕ) (q : Fin 512) : Fin 9216 := ⟨(512 * b + q.val) % 9216, Nat.mod_lt _ (by norm_num)⟩

/-- The sum of row `i`'s affinities over column block `b`. -/
def blockSum (f : Fin 9216 → Row) (i : Fin 9216) (b : ℕ) : EReal := ∑ q : Fin 512, simSub (f i) (f (col b q))

/-- The running total of row `i` after column blocks `0 … n`. -/
def accum (f : Fin 9216 → Row) (i : Fin 9216) : ℕ → EReal
  | 0 => 0 + blockSum f i 0
  | n + 1 => accum f i n + blockSum f i (n + 1)

/-- Row `i`'s sum as the blockwise program leaves it. -/
def rowSum (f : Fin 9216 → Row) (i : Fin 9216) : EReal := accum f i 17

/-- The blockwise program's scaled grand total. -/
def meanBlocks (f : Fin 9216 → Row) : EReal := Ideal.div (0 + ∑ i : Fin 9216, rowSum f i) nPairs

/-- The matrix with its diagonal set to 1. -/
def simDiag (f : Fin 9216 → Row) (i j : Fin 9216) : EReal := if i = j then one else simNeg (f i) (f j)

/-- The mean of the row means. -/
def meanRows (f : Fin 9216 → Row) : EReal :=
  Ideal.div (0 + ∑ i : Fin 9216, Ideal.div (0 + ∑ j : Fin 9216, simDiag f i j) nRows) nRows

/-- Every entry of the feature matrix is a real number. -/
def Finite (f : Fin 9216 → Row) : Prop := ∀ i k, ∃ r : ℝ, f i k = (r : EReal)

end Cert.SimSpec

end
-- ==== Proof.Ideal.Payload.lean ====
/-
  The kernel body's arithmetic, read at an index.

  At row `r` of the 1024-row block and column `q` of the 512-row block the exponent is
  `(0 − d²) / den` of the two feature rows, with the squared norms read off the row sums of the squares, the inner
  product off the matrix product, and every constant the extended real its word denotes; the step adds to the running
  column, at row `r`, the sum over the 512 columns of the affinities; the reset writes the zero column.
-/
import proofs.«151718_j86638080294934_1_alg».proof.Proof.Ideal.Layout
import proofs.«151718_j86638080294934_1_alg».proof.Proof.Spec

noncomputable section

namespace Cert.KernelIdeal.Hand

open Cert.KernelIdeal Cert.KernelIdeal.Gen Cert.SimSpec Idealize.ShloMosaic Idealize.ShloMosaic.ValueIdx

/-- A square root at an index is the square root of the element. -/
theorem sqrt_apply {s : Shape} {φ : FTy} (a : FVec Ideal s φ) (i : s.Idx) : sqrt a i = Ideal.sqrt (a i) := rfl
/-- An exponential at an index is the exponential of the element. -/
theorem exp_apply {s : Shape} {φ : FTy} (a : FVec Ideal s φ) (i : s.Idx) : exp a i = Ideal.exp (a i) := rfl
/-- The zero word denotes `0`. -/
theorem zero_word : Scalar.ofBits (F := Ideal) .f32 0x00000000#32 = (0 : EReal) := Ideal.ofBits_zero_f32
theorem zero_word' : FloatOps.ofBits (F := Ideal) .f32 0x00000000#32 = (0 : EReal) := Ideal.ofBits_zero_f32

/-- The squared norms of the row block, kept as a column: at row `r`, the squared norm of that row. -/
theorem sqI_apply (x0 : FVec Ideal S1024x1024 .f32) (r : Fin 1024) (u : Fin 1) :
    shapeCast S1024x1 (multiReduction (F := Ideal) .add [1] S1024 (mulf x0 x0) 0x00000000#32 reduces_S1024x1024_S1024 (.inl rfl) rfl)
        shapeCasts_S1024_S1024x1 (ix2 r u)
      = sqn (fun k => x0 (ix2 r k)) :=
  (shapeCast_a_a1_apply _ _ r u).trans ((rowsum_apply _ _ _ _ r).trans rfl)

/-- The squared norms of the column block, laid along a row: at column `q`, the squared norm of that block's row `q`. -/
theorem sqJ_apply (x1 : FVec Ideal S512x1024 .f32) (u : Fin 1) (q : Fin 512) :
    transpose S1x512 [1, 0]
        (shapeCast S512x1 (multiReduction (F := Ideal) .add [1] S512 (mulf x1 x1) 0x00000000#32 reduces_S512x1024_S512 (.inl rfl) rfl)
          shapeCasts_S512_S512x1)
        transposes_S512x1_p1_0_S1x512 (ix2 u q)
      = sqn (fun k => x1 (ix2 q k)) :=
  (transpose_ix2_apply _ _ u q).trans ((shapeCast_a_a1_apply _ _ q u).trans ((rowsum_apply _ _ _ _ q).trans rfl))

/-- The matrix product of the row block with the transposed column block: at `(r, q)`, the inner product of the rows. -/
theorem gramT_apply (x0 : FVec Ideal S1024x1024 .f32) (x1 : FVec Ideal S512x1024 .f32) (r : Fin 1024) (q : Fin 512) :
    matmul (F := Ideal) dot_S1024x1024_S1024x512_S1024x512_1_0_0_1_n_n none (truncf .bf16 x0 bitsLt_bf16_f32)
        (transpose S1024x512 [1, 0] (truncf .bf16 x1 bitsLt_bf16_f32) transposes_S512x1024_p1_0_S1024x512)
        (constant S1024x512 .f32 0x00000000#32) (ix2 r q)
      = dot (fun k => x0 (ix2 r k)) (fun k => x1 (ix2 q k)) :=
  (gram_apply _ _ r q).trans (Finset.sum_congr rfl fun k _ => by rw [transpose_ix2_apply]; rfl)

/-- The reset writes the zero column. -/
theorem pay2_apply (y : S1024x1.Idx) : k0_pay2 (F := Ideal) y = 0 := by
  unfold k0_pay2
  simp only [shapeCast_self, broadcast_apply, zero_word]

/-- The exponent at `(r, q)`. -/
theorem pay3_apply (x0 : Vec Ideal S1024x1024 .f32) (x1 : Vec Ideal S512x1024 .f32) (r : Fin 1024) (q : Fin 512) :
    k0_pay3 (F := Ideal) x0 x1 (ix2 r q)
      = Ideal.div (0 - dist2 (fun k => x0 (ix2 r k)) (fun k => x1 (ix2 q k))) (denom (fun k => x0 (ix2 r k)) (fun k => x1 (ix2 q k))) := by
  unfold k0_pay3
  simp only [divf_apply, subf_apply, maximumf_apply, mulf_apply, addf_apply, broadcast_apply, sqrt_apply,
    broadcastTo_a1_ab_apply, broadcastTo_1b_ab_apply, sqI_apply, sqJ_apply, gramT_apply]
  rw [sqI_apply x0 r 0, sqJ_apply x1 0 q, gramT_apply x0 x1 r q, zero_word']
  rfl

/-- The step's new running column at row `r`: the old entry plus the sum over the 512 columns of the exponentials. -/
theorem pay1_apply (v40 : FVec Ideal S1024x512 .f32) (v44 : Vec Ideal S1024x1 .f32) (r : Fin 1024) :
    k0_pay1 (F := Ideal) v40 v44 (ix2 r 0) = v44 (ix2 r 0) + ∑ q : Fin 512, Ideal.exp (v40 (ix2 r q)) := by
  unfold k0_pay1
  simp only [shapeCast_self, addf_apply]
  rw [shapeCast_a_a1_apply _ _ r 0, rowsum_apply _ _ _ _ r]
  rfl

/-- One step of the body: the running column at row `r` gains the sum over the block's 512 columns of the affinities. -/
theorem step_apply (x0 : Vec Ideal S1024x1024 .f32) (x1 : Vec Ideal S512x1024 .f32) (acc : Vec Ideal S1024x1 .f32) (r : Fin 1024) :
    k0_pay1 (F := Ideal) (k0_pay3 x0 x1) acc (ix2 r 0)
      = acc (ix2 r 0) + ∑ q : Fin 512, simSub (fun k => x0 (ix2 r k)) (fun k => x1 (ix2 q k)) := by
  rw [pay1_apply]
  exact congrArg (acc (ix2 r 0) + ·) (Finset.sum_congr rfl fun q _ => by rw [pay3_apply]; rfl)

end Cert.KernelIdeal.Hand

end
-- ==== Proof.Ideal.ChainValue.lean ====
/-
  The running row sums, read as the specification's running totals.

  The row block the body loads at grid point `t` is rows `1024·(t / 18) …` of the feature array and the column block
  is rows `512·(t % 18) …` of the same array, so one step adds to row `r` of the running sums the affinities of feature row
  `1024·a + r` with the 512 feature rows of column block `j`; by induction along a row block's 18 points, the running
  sums after point `(a, j)` hold, at row `r`, the running total of row `1024·a + r` after column blocks `0 … j`.
-/
import proofs.«151718_j86638080294934_1_alg».proof.Proof.Ideal.ChainDef
import proofs.«151718_j86638080294934_1_alg».proof.Proof.Ideal.Payload
import proofs.«151718_j86638080294934_1_alg».proof.Proof.Spec

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen Cert.SimSpec Idealize.ShloMosaic.ValueIdx

section Blocks
variable {F : FTy → Type} [FloatOps F]
variable (m : (ℓ : Loc nD τ sig) → Buf (Elt F) ℓ)

/-- The windows' block indices over the grid: the row block is `t / 18`, the column block `t % 18`. -/
theorem idx_facts : ∀ t : Fin cfg0.N, win0_0.index t 0 = t.val / 18 ∧ win0_0.index t 1 = 0 ∧ win0_1.index t 0 = t.val % 18 ∧ win0_1.index t 1 = 0 :=
  (by decide +kernel : ∀ t : Fin grid0.N, win0_0.index t 0 = t.val / 18 ∧ win0_0.index t 1 = 0 ∧ win0_1.index t 0 = t.val % 18 ∧ win0_1.index t 1 = 0)

theorem row0_lt (t : Fin cfg0.N) (r : Fin 1024) : 1024 * (t.val / 18) + r.val < 9216 := by
  have hN : cfg0.N = 162 := N_0
  have := t.isLt
  have := r.isLt
  omega

theorem row1_lt (t : Fin cfg0.N) (q : Fin 512) : 512 * (t.val % 18) + q.val < 9216 := by
  have := q.isLt
  omega

/-- The row block at point `t` is rows `1024·(t / 18) …` of the feature array. -/
theorem iblk0_apply (c : Dev nD) (t : Fin cfg0.N) (r : Fin 1024) (k : Fin 1024) :
    iblk m c 0 t (ix2 r k) = V m c main_arg0 (ix2 (⟨1024 * (t.val / 18) + r.val, row0_lt t r⟩ : Fin 9216) k) := by
  have hi := idx_facts t
  unfold iblk
  rw [View.read_apply]
  show V m c main_arg0 _ = V m c main_arg0 _
  congr 1
  funext a
  apply Fin.ext
  match a with
  | ⟨0, _⟩ => show win0_0.index t 0 * 1024 + 1 * r.val = 1024 * (t.val / 18) + r.val; rw [hi.1]; omega
  | ⟨1, _⟩ => show win0_0.index t 1 * 1024 + 1 * k.val = k.val; rw [hi.2.1]; omega

/-- The column block at point `t` is rows `512·(t % 18) …` of the feature array. -/
theorem iblk1_apply (c : Dev nD) (t : Fin cfg0.N) (q : Fin 512) (k : Fin 1024) :
    iblk m c 1 t (ix2 q k) = V m c main_arg0 (ix2 (⟨512 * (t.val % 18) + q.val, row1_lt t q⟩ : Fin 9216) k) := by
  have hi := idx_facts t
  unfold iblk
  rw [View.read_apply]
  show V m c main_arg0 _ = V m c main_arg0 _
  congr 1
  funext a
  apply Fin.ext
  match a with
  | ⟨0, _⟩ => show win0_1.index t 0 * 512 + 1 * q.val = 512 * (t.val % 18) + q.val; rw [hi.2.2.1]; omega
  | ⟨1, _⟩ => show win0_1.index t 1 * 1024 + 1 * k.val = k.val; rw [hi.2.2.2]; omega

end Blocks

section Chain
variable (m : (ℓ : Loc nD τ sig) → Buf (Elt Ideal) ℓ)

/-- The feature rows core `c` holds. -/
abbrev feat (c : Dev nD) : Fin 9216 → Row := fun i k => m ((c.tc : Thread nD τ).loc main_arg0) (ix2 i k)

theorem rowA_lt (a : Fin 9) (r : Fin 1024) : 1024 * a.val + r.val < 9216 := by
  have := a.isLt
  have := r.isLt
  omega

/-- One step at the point of row block `a` and column block `j`: row `r` of the running sums gains that row's
    affinities with the 512 rows of the column block. -/
theorem step_value (c : Dev nD) (t : Fin cfg0.N) (a : Fin 9) (j : Fin 18) (ht : t.val = 18 * a.val + j.val)
    (acc : Vec Ideal S1024x1 .f32) (r : Fin 1024) :
    k0_pay1 (F := Ideal) (k0_pay3 (iblk m c 0 t) (iblk m c 1 t)) acc (ix2 r 0)
      = acc (ix2 r 0) + blockSum (feat m c) ⟨1024 * a.val + r.val, rowA_lt a r⟩ j.val := by
  refine (step_apply (iblk m c 0 t) (iblk m c 1 t) acc r).trans ?_
  refine congrArg (acc (ix2 r 0) + ·) (Finset.sum_congr rfl fun q _ => ?_)
  have e0 : (fun k => iblk m c 0 t (ix2 r k)) = feat m c ⟨1024 * a.val + r.val, rowA_lt a r⟩ := funext fun k => by
    rw [iblk0_apply]
    exact congrArg (fun i : Fin 9216 => m ((c.tc : Thread nD τ).loc main_arg0) (ix2 i k)) (Fin.ext (by
      show 1024 * (t.val / 18) + r.val = 1024 * a.val + r.val
      have := j.isLt
      omega))
  have e1 : (fun k => iblk m c 1 t (ix2 q k)) = feat m c (col j.val q) := funext fun k => by
    rw [iblk1_apply]
    exact congrArg (fun i : Fin 9216 => m ((c.tc : Thread nD τ).loc main_arg0) (ix2 i k)) (Fin.ext (by
      show 512 * (t.val % 18) + q.val = (512 * j.val + q.val) % 9216
      have := j.isLt
      have := q.isLt
      omega))
  exact congrArg₂ simSub e0 e1

theorem chain_apply_aux (c : Dev nD) (a : Fin 9) (r : Fin 1024) :
    ∀ (j : ℕ) (hj : j < 18) (h : 18 * a.val + j < cfg0.N),
      chain m c (18 * a.val + j) h (ix2 r 0) = accum (feat m c) ⟨1024 * a.val + r.val, rowA_lt a r⟩ j
  | 0, hj, h => by
    show _ = 0 + blockSum (feat m c) _ 0
    rcases Nat.eq_zero_or_pos a.val with ha | ha
    · have e : 18 * a.val + 0 = 0 := by omega
      have h' : 0 < cfg0.N := by omega
      rw [chain_congr m c e h h', chain_zero]
      refine (step_value m c ⟨0, h'⟩ a ⟨0, by omega⟩ (by show 0 = 18 * a.val + 0; omega) _ r).trans ?_
      rw [pay2_apply]
    · obtain ⟨n, hn⟩ : ∃ n, 18 * a.val + 0 = n + 1 := ⟨18 * a.val - 1, by omega⟩
      have h' : n + 1 < cfg0.N := hn ▸ h
      rw [chain_congr m c hn h h', chain_first m c n h' (by omega)]
      refine (step_value m c ⟨n + 1, h'⟩ a ⟨0, by omega⟩ (by show n + 1 = 18 * a.val + 0; omega) _ r).trans ?_
      rw [pay2_apply]
  | j + 1, hj, h => by
    show _ = accum (feat m c) _ j + blockSum (feat m c) _ (j + 1)
    have h' : 18 * a.val + j + 1 < cfg0.N := h
    rw [chain_congr m c (Nat.add_assoc _ _ _).symm h h', chain_next m c (18 * a.val + j) h' (by omega)]
    refine (step_value m c ⟨18 * a.val + j + 1, h'⟩ a ⟨j + 1, hj⟩ (by show 18 * a.val + j + 1 = 18 * a.val + (j + 1); omega) _ r).trans ?_
    rw [chain_apply_aux c a r j (by omega) (Nat.lt_of_succ_lt h')]

/-- After the point of row block `a` and column block `j`, row `r` of the running sums is the running total of row
    `1024·a + r` of the affinity matrix after column blocks `0 … j`. -/
theorem chain_apply (c : Dev nD) (a : Fin 9) (j : Fin 18) (r : Fin 1024) (h : 18 * a.val + j.val < cfg0.N) :
    chain m c (18 * a.val + j.val) h (ix2 r 0)
      = accum (fun i k => m ((c.tc : Thread nD τ).loc main_arg0) (ix2 i k)) ⟨1024 * a.val + r.val, rowA_lt a r⟩ j.val :=
  chain_apply_aux m c a r j.val j.isLt h

end Chain

end Cert.KernelIdeal.Hand

end
-- ==== Proof.Ideal.TailKeeps.lean ====
/-
  The host lines that follow the region write only their own result buffers: the twelve arguments and the
  row-sum array hold after them what they held before.
-/
import proofs.«151718_j86638080294934_1_alg».proof.Proof.Ideal.Tail
import Idealize.ShloMosaic.Lib.StableHlo.Run

noncomputable section

namespace Cert.KernelIdeal.Hand

open Idealize.ShloMosaic Idealize.ShloMosaic.TcCoe
open Cert.KernelIdeal Cert.KernelIdeal.Gen

variable {F : FTy → Type} [FloatOps F]

/-- No host line after the region writes the reference `r` when `r` differs from every line's result reference:
    each line writes its result buffer and nothing else. -/
theorem tail_not_writes (r : Ref sig .tc) :
    ∀ op ∈ (tailOpss (F := F)).flatten, Proc.devRef (τ := τ) .tc r ∈ op.writes →
      r ∈ ([main_cst, main_v1, main_cst_0, main_v2, main_v3, main_v4, main_v5, main_v6, main_v7, main_v8, main_cst_1, main_v9,
        main_v10, main_v11, main_v12, main_v13, main_v14, main_v15, main_v16, main_v17, main_v18,
        main_call0_cst, main_call0_v0, main_v19,
        main_v20, main_v21, main_v22, main_v23, main_cst_2, main_v24, main_v25, main_v26, main_v27, main_v28, main_v29,
        main_v30, main_v31, main_v32, main_v33,
        main_call1_cst, main_call1_v0, main_v34,
        main_v35, main_v36, main_v37, main_v38, main_v39, main_v40, main_cst_3, main_v41, main_v42, main_cst_4, main_v43,
        main_v44, main_v45, main_cst_5, main_v46, main_cst_6, main_v47, main_v48] : List (Ref sig .tc)) := by
  intro op hop hw
  simp only [tailOpss, hostOps1, hostOps1_1, hostOps1_2, hostOps1_3, hostOps1_4, List.flatten_cons, List.flatten_nil,
    List.append_nil, List.cons_append, List.nil_append, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes,
      Finset.mem_singleton] at hw
    rw [Proc.devRef_injective _ hw]
    decide

/-- The host lines after the region leave `main_arg0` as it was. -/
theorem tail_keeps_arg0 (W : Valuation τ sig (Elt F)) :
    StableHlo.after (tailOpss (F := F)).flatten W (Proc.devRef .tc main_arg0) = W (Proc.devRef .tc main_arg0) :=
  StableHlo.after_of_forall_not_mem _ W fun op hop hw => absurd (tail_not_writes main_arg0 op hop hw) (by decide)

/-- The host lines after the region leave `main_arg1` as it was. -/
theorem tail_keeps_arg1 (W : Valuation τ sig (Elt F)) :
    StableHlo.after (tailOpss (F := F)).flatten W (Proc.devRef .tc main_arg1) = W (Proc.devRef .tc main_arg1) :=
  StableHlo.after_of_forall_not_mem _ W fun op hop hw => absurd (tail_not_writes main_arg1 op hop hw) (by decide)

/-- The host lines after the region leave `main_arg2` as it was. -/
theorem tail_keeps_arg2 (W : Valuation τ sig (Elt F)) :
    StableHlo.after (tailOpss (F := F)).flatten W (Proc.devRef .tc main_arg2) = W (Proc.devRef .tc main_arg2) :=
  StableHlo.after_of_forall_not_mem _ W fun op hop hw => absurd (tail_not_writes main_arg2 op hop hw) (by decide)

/-- The host lines after the region leave `main_arg3` as it was. -/
theorem tail_keeps_arg3 (W : Valuation τ sig (Elt F)) :
    StableHlo.after (tailOpss (F := F)).flatten W (Proc.devRef .tc main_arg3) = W (Proc.devRef .tc main_arg3) :=
  StableHlo.after_of_forall_not_mem _ W fun op hop hw => absurd (tail_not_writes main_arg3 op hop hw) (by decide)

/-- The host lines after the region leave `main_arg4` as it was. -/
theorem tail_keeps_arg4 (W : Valuation τ sig (Elt F)) :
    StableHlo.after (tailOpss (F := F)).flatten W (Proc.devRef .tc main_arg4) = W (Proc.devRef .tc main_arg4) :=
  StableHlo.after_of_forall_not_mem _ W fun op hop hw => absurd (tail_not_writes main_arg4 op hop hw) (by decide)

/-- The host lines after the region leave `main_arg5` as it was. -/
theorem tail_keeps_arg5 (W : Valuation τ sig (Elt F)) :
    StableHlo.after (tailOpss (F := F)).flatten W (Proc.devRef .tc main_arg5) = W (Proc.devRef .tc main_arg5) :=
  StableHlo.after_of_forall_not_mem _ W fun op hop hw => absurd (tail_not_writes main_arg5 op hop hw) (by decide)

/-- The host lines after the region leave `main_arg6` as it was. -/
theorem tail_keeps_arg6 (W : Valuation τ sig (Elt F)) :
    StableHlo.after (tailOpss (F := F)).flatten W (Proc.devRef .tc main_arg6) = W (Proc.devRef .tc main_arg6) :=
  StableHlo.after_of_forall_not_mem _ W fun op hop hw => absurd (tail_not_writes main_arg6 op hop hw) (by decide)

/-- The host lines after the region leave `main_arg7` as it was. -/
theorem tail_keeps_arg7 (W : Valuation τ sig (Elt F)) :
    StableHlo.after (tailOpss (F := F)).flatten W (Proc.devRef .tc main_arg7) = W (Proc.devRef .tc main_arg7) :=
  StableHlo.after_of_forall_not_mem _ W fun op hop hw => absurd (tail_not_writes main_arg7 op hop hw) (by decide)

/-- The host lines after the region leave `main_arg8` as it was. -/
theorem tail_keeps_arg8 (W : Valuation τ sig (Elt F)) :
    StableHlo.after (tailOpss (F := F)).flatten W (Proc.devRef .tc main_arg8) = W (Proc.devRef .tc main_arg8) :=
  StableHlo.after_of_forall_not_mem _ W fun op hop hw => absurd (tail_not_writes main_arg8 op hop hw) (by decide)

/-- The host lines after the region leave `main_arg9` as it was. -/
theorem tail_keeps_arg9 (W : Valuation τ sig (Elt F)) :
    StableHlo.after (tailOpss (F := F)).flatten W (Proc.devRef .tc main_arg9) = W (Proc.devRef .tc main_arg9) :=
  StableHlo.after_of_forall_not_mem _ W fun op hop hw => absurd (tail_not_writes main_arg9 op hop hw) (by decide)

/-- The host lines after the region leave `main_arg10` as it was. -/
theorem tail_keeps_arg10 (W : Valuation τ sig (Elt F)) :
    StableHlo.after (tailOpss (F := F)).flatten W (Proc.devRef .tc main_arg10) = W (Proc.devRef .tc main_arg10) :=
  StableHlo.after_of_forall_not_mem _ W fun op hop hw => absurd (tail_not_writes main_arg10 op hop hw) (by decide)

/-- The host lines after the region leave `main_arg11` as it was. -/
theorem tail_keeps_arg11 (W : Valuation τ sig (Elt F)) :
    StableHlo.after (tailOpss (F := F)).flatten W (Proc.devRef .tc main_arg11) = W (Proc.devRef .tc main_arg11) :=
  StableHlo.after_of_forall_not_mem _ W fun op hop hw => absurd (tail_not_writes main_arg11 op hop hw) (by decide)

/-- The host lines after the region leave `main_v0` as it was. -/
theorem tail_keeps_v0 (W : Valuation τ sig (Elt F)) :
    StableHlo.after (tailOpss (F := F)).flatten W (Proc.devRef .tc main_v0) = W (Proc.devRef .tc main_v0) :=
  StableHlo.after_of_forall_not_mem _ W fun op hop hw => absurd (tail_not_writes main_v0 op hop hw) (by decide)

end Cert.KernelIdeal.Hand

end
-- ==== Proof.Ideal.FrameOf.lean ====
/-
  From the launch theorem's post to the posts the claim states. The launch theorem leaves every array of the region at
  what the proof data computes and every buffer that bypasses the region at what the host lines after it leave there.
  The feature matrix is an input array of the region, so it ends as it was; the other eleven arguments bypass the region
  and no host line writes them, so they end as they were; the result buffer ends at the host lines' value.
-/
import proofs.«151718_j86638080294934_1_alg».proof.Proof.Ideal.Tail
import proofs.«151718_j86638080294934_1_alg».proof.Proof.Ideal.TailKeeps
import Idealize.ShloMosaic.Lib.Pipeline.Frame
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- When the region ends the row-sum array holds what the write-backs left. -/
theorem exitVal_v0 (c : Dev nD) (out : Buf (Elt F) ((c.tc : Thread nD τ).loc main_v0)) :
    exitVal m c out (Proc.devRef .tc main_v0) = out := by
  unfold exitVal
  rw [dif_pos rfl]
  rfl

/-- When the region ends every other buffer holds its launch contents. -/
theorem exitVal_of_ne (c : Dev nD) (out : Buf (Elt F) ((c.tc : Thread nD τ).loc main_v0)) (b : Ref sig .tc) (hb : b ≠ main_v0) :
    exitVal m c out (Proc.devRef .tc b) = m (c, Proc.devRef .tc b) := by
  unfold exitVal
  rw [dif_neg fun e => hb (Proc.devRef_injective _ e).symm]

/-- A buffer that bypasses the region, is not the row-sum array and is written by no host line after the region ends
    at its launch contents. -/
theorem rest_arg (dats : (p : Fin 1) → (c : Dev nD) → Dat τ (Elt F) Unit ℕ (UR sig nD τ) ℕ (cfgs p) c)
    {r : PUnit × MemSt nD τ sig (Elt F)} {c : Dev nD}
    (h : (∀ w, r.2.mem (((cfgs 0).spec w).arr.view.loc (c.tc : Thread nD τ)) = (dats 0 c).arrAt w (cfgs 0).N)
      ∧ ∀ b ∈ Pipeline.restRefs sig (cfgs 0).spec, r.2.mem ((c.tc : Thread nD τ).loc b) = tailV m dats c b)
    (b : Ref sig .tc) (hs : b.isScoped = false) (ha : ∀ w, ((cfgs 0).spec w).arr.view.ref ≠ b) (hb : b ≠ main_v0)
    (hk : StableHlo.after (tailOpss (F := F)).flatten (exitVal m c ((dats 0 c).arrAt 2 cfg0.N)) (Proc.devRef .tc b)
      = exitVal m c ((dats 0 c).arrAt 2 cfg0.N) (Proc.devRef .tc b)) :
    r.2.mem ((c.tc : Thread nD τ).loc b) = m ((c.tc : Thread nD τ).loc b) :=
  (h.2 b (Pipeline.mem_restRefs_of b hs ha)).trans (hk.trans (exitVal_of_ne m c _ b hb))

/-- The feature matrix is an input array of the region: it ends as the proof data's array, which is its launch contents. -/
theorem arg0_kept (dats : (p : Fin 1) → (c : Dev nD) → Dat τ (Elt F) Unit ℕ (UR sig nD τ) ℕ (cfgs p) c)
    (hA : ∀ c w, (dats 0 c).A w = V m c (Pipeline.arrRef spec0 w))
    {r : PUnit × MemSt nD τ sig (Elt F)} {c : Dev nD}
    (h : (∀ w, r.2.mem (((cfgs 0).spec w).arr.view.loc (c.tc : Thread nD τ)) = (dats 0 c).arrAt w (cfgs 0).N)
      ∧ ∀ b ∈ Pipeline.restRefs sig (cfgs 0).spec, r.2.mem ((c.tc : Thread nD τ).loc b) = tailV m dats c b) :
    r.2.mem ((c.tc : Thread nD τ).loc main_arg0) = m ((c.tc : Thread nD τ).loc main_arg0) :=
  (h.1 0).trans (((dats 0 c).arrAt_in 0 rfl _).trans (hA c 0))

/-- The frame claim's post from the launch theorem's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (tailV m dats))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨arg0_kept m dats hA (h c),
    rest_arg m dats (h c) main_arg1 (by decide) (by decide) (by decide) (tail_keeps_arg1 _),
    rest_arg m dats (h c) main_arg2 (by decide) (by decide) (by decide) (tail_keeps_arg2 _),
    rest_arg m dats (h c) main_arg3 (by decide) (by decide) (by decide) (tail_keeps_arg3 _),
    rest_arg m dats (h c) main_arg4 (by decide) (by decide) (by decide) (tail_keeps_arg4 _),
    rest_arg m dats (h c) main_arg5 (by decide) (by decide) (by decide) (tail_keeps_arg5 _),
    rest_arg m dats (h c) main_arg6 (by decide) (by decide) (by decide) (tail_keeps_arg6 _),
    rest_arg m dats (h c) main_arg7 (by decide) (by decide) (by decide) (tail_keeps_arg7 _),
    rest_arg m dats (h c) main_arg8 (by decide) (by decide) (by decide) (tail_keeps_arg8 _),
    rest_arg m dats (h c) main_arg9 (by decide) (by decide) (by decide) (tail_keeps_arg9 _),
    rest_arg m dats (h c) main_arg10 (by decide) (by decide) (by decide) (tail_keeps_arg10 _),
    rest_arg m dats (h c) main_arg11 (by decide) (by decide) (by decide) (tail_keeps_arg11 _)⟩) h

/-- The kernel's half of the value claim from the launch theorem's post: the result buffer ends at the host lines'
    value, the arguments as they were. -/
theorem value_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (tailV m dats))) :
    θ_run defs (onTc (τ := τ) (main (F := F))) ⟨m, fun _ => 0, ρ⟩ (fun r => ∀ c : Dev nD,
      r.2.mem ((c.tc : Thread nD τ).loc main_v48) = tailV m dats c main_v48
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).2 main_v48 (Pipeline.mem_restRefs_of main_v48 (by decide) (by decide)),
    arg0_kept m dats hA (h c),
    rest_arg m dats (h c) main_arg1 (by decide) (by decide) (by decide) (tail_keeps_arg1 _),
    rest_arg m dats (h c) main_arg2 (by decide) (by decide) (by decide) (tail_keeps_arg2 _),
    rest_arg m dats (h c) main_arg3 (by decide) (by decide) (by decide) (tail_keeps_arg3 _),
    rest_arg m dats (h c) main_arg4 (by decide) (by decide) (by decide) (tail_keeps_arg4 _),
    rest_arg m dats (h c) main_arg5 (by decide) (by decide) (by decide) (tail_keeps_arg5 _),
    rest_arg m dats (h c) main_arg6 (by decide) (by decide) (by decide) (tail_keeps_arg6 _),
    rest_arg m dats (h c) main_arg7 (by decide) (by decide) (by decide) (tail_keeps_arg7 _),
    rest_arg m dats (h c) main_arg8 (by decide) (by decide) (by decide) (tail_keeps_arg8 _),
    rest_arg m dats (h c) main_arg9 (by decide) (by decide) (by decide) (tail_keeps_arg9 _),
    rest_arg m dats (h c) main_arg10 (by decide) (by decide) (by decide) (tail_keeps_arg10 _),
    rest_arg m dats (h c) main_arg11 (by decide) (by decide) (by decide) (tail_keeps_arg11 _)⟩) h

end Cert.KernelIdeal.Hand

end
-- ==== Proof.Ideal.Finite.lean ====
/-
  From the precondition to the feature matrix's entries: the precondition says that every argument array passes
  `|x| < +∞` at every index, all these tests joined by `and`; the first test is the feature matrix's, and an
  extended real whose absolute value is below `+∞` is a real number.
-/
import proofs.«151718_j86638080294934_1_alg».proof.Defs
import proofs.«151718_j86638080294934_1_alg».proof.Proof.Gen.Pre_finite_inputs
import proofs.«151718_j86638080294934_1_alg».proof.Proof.Spec
import Idealize.ShloMosaic.Lib.ReduceAll

noncomputable section

namespace Cert.KernelIdeal.Hand

open Idealize.ShloMosaic Idealize.ShloMosaic.TcCoe
open Cert.KernelIdeal

/-- The word `0x7F800000` denotes `+∞`. -/
theorem ofBits_inf : Ideal.ofBits .f32 0x7F800000#32 = (⊤ : EReal) := by
  simp [Ideal.ofBits, Ideal.ieee]

/-- An extended real that passes the test `|x| < +∞` is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp only [Ideal.cmp, hn, decide_false] at h
    exact absurd h (by decide)
  induction x using EReal.rec with
  | bot => simp at hlt
  | coe r => exact ⟨r, rfl⟩
  | top => simp at hlt

instance : Subsingleton Cert.Pre_finite_inputs.S_.Idx := ⟨fun a b => funext fun d => d.elim0⟩

/-- Where a conjunction of two tests holds, the first holds. -/
theorem andi_left {a b : IVec Cert.Pre_finite_inputs.S_ 1} {i : Cert.Pre_finite_inputs.S_.Idx} (h : andi a b i = 1#1) :
    a i = 1#1 :=
  (IntOp.andi_eq_one.1 h).1

/-- Under the precondition every entry of the feature matrix is a real number. -/
theorem finite_of_pre (m : (ℓ : Loc nD τ sig) → Buf (Elt Ideal) ℓ) (h : Cert.Pre_KernelIdeal m) (c : Dev nD) :
    Cert.SimSpec.Finite (fun r k => m ((c.tc : Thread nD τ).loc main_arg0) (Idealize.ShloMosaic.ValueIdx.ix2 r k)) := by
  intro r k
  have h0 := congrFun (h c) Idealize.ShloMosaic.ValueIdx.ix0
  dsimp only [Cert.Pre_finite_inputs.fn, Cert.Pre_finite_inputs.fn_part1, Cert.Pre_finite_inputs.fn_part2,
    Cert.Pre_finite_inputs.fn_part3] at h0
  have h1 := andi_left (andi_left (andi_left (andi_left (andi_left (andi_left (andi_left (andi_left (andi_left
    (andi_left (andi_left h0))))))))))
  exact real_of_abs_lt_inf _ (Host.reduce_andi_all _ _ _ _ _ h1 (Idealize.ShloMosaic.ValueIdx.ix2 r k))

end Cert.KernelIdeal.Hand

end
-- ==== Proof.Algebra.lean ====
/-
  The algebra joining the two arrangements of the mean affinity.

  * `0 − x = −x` on the extended reals, so the two spellings of the affinity agree.
  * For a row of real numbers `d² = max (‖a‖² + ‖a‖² − 2‖a‖²) 0 = 0`; the guarded denominator is at least `ε > 0`,
    so the exponent is `0 / den = 0` and the affinity of a row with itself is `exp 0 = 1`.
  * The running total over 18 blocks of 512 columns is the sum over all 9216 columns: `(b, q) ↦ 512·b + q` is a
    bijection and addition of extended reals is commutative and associative.
  * Division by the real `n ≠ 0` is multiplication by `1/n`, and multiplication by a nonnegative real distributes
    over sums of extended reals, so the mean of the row means is the grand total over `9216² = 84934656`.
-/
import proofs.«151718_j86638080294934_1_alg».proof.Proof.Spec

noncomputable section

namespace Cert.SimSpec

open Idealize.ShloMosaic

/-! ## The literals -/

theorem two_eq : two = ((2 : ℝ) : EReal) := by
  simp [two, Ideal.ofBits, Ideal.ieee, -EReal.coe_mul]; norm_num
theorem one_eq : one = 1 := by
  simp [one, Ideal.ofBits, Ideal.ieee, -EReal.coe_mul]; norm_num
theorem nRows_eq : nRows = ((9216 : ℝ) : EReal) := by
  simp [nRows, Ideal.ofBits, Ideal.ieee, -EReal.coe_mul]; norm_num
theorem nPairs_eq : nPairs = ((84934656 : ℝ) : EReal) := by
  simp [nPairs, Ideal.ofBits, Ideal.ieee, -EReal.coe_mul]; norm_num
theorem eps_pos : 0 < eps := by
  simp [eps, Ideal.ofBits, Ideal.ieee, -EReal.coe_mul]

/-! ## The two spellings of the affinity, and the diagonal -/

/-- `0 − x = −x` on the extended reals. -/
theorem simSub_eq_simNeg (a b : Row) : simSub a b = simNeg a b := by
  unfold simSub simNeg
  rw [sub_eq_add_neg, zero_add]

/-- A finite sum of reals, read in the extended reals, is the sum of the summands read there. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The guarded denominator is at least `ε > 0`. -/
theorem denom_ne_zero (a b : Row) : denom a b ≠ 0 :=
  (lt_of_lt_of_le eps_pos (le_max_right _ _)).ne'

/-- A row of real numbers has affinity `1` with itself. -/
theorem simNeg_self (a : Row) (ha : ∀ k, ∃ r : ℝ, a k = (r : EReal)) : simNeg a a = one := by
  choose r hr using ha
  have hs : sqn a = ((∑ k, r k * r k : ℝ) : EReal) := by
    unfold sqn
    rw [coe_sum]
    exact Finset.sum_congr rfl fun k _ => by rw [hr k, EReal.coe_mul]
  have hd : dist2 a a = 0 := by
    unfold dist2
    rw [show dot a a = sqn a from rfl, hs, two_eq, ← EReal.coe_add, ← EReal.coe_mul, ← EReal.coe_sub]
    rw [show (∑ k, r k * r k) + (∑ k, r k * r k) - 2 * (∑ k, r k * r k) = (0 : ℝ) by ring]
    simp
  unfold simNeg
  rw [hd, neg_zero, Ideal.div, if_neg (denom_ne_zero a a), zero_mul, one_eq, ← EReal.coe_zero, Ideal.exp_coe, Real.exp_zero,
    EReal.coe_one]

/-- With the diagonal set to `1` the matrix of a finite input is the affinity matrix itself. -/
theorem simDiag_eq (f : Fin 9216 → Row) (hf : Finite f) (i j : Fin 9216) : simDiag f i j = simSub (f i) (f j) := by
  unfold simDiag
  split
  · next h => subst h; rw [simSub_eq_simNeg, simNeg_self _ (hf i)]
  · exact (simSub_eq_simNeg _ _).symm

/-! ## Eighteen blocks of 512 columns are the 9216 columns -/

/-- The running total after blocks `0 … n` is the sum of those blocks' sums. -/
theorem accum_eq (f : Fin 9216 → Row) (i : Fin 9216) (n : ℕ) :
    accum f i n = ∑ b ∈ Finset.range (n + 1), blockSum f i b := by
  induction n with
  | zero => simp [accum]
  | succ n ih =>
    show accum f i n + blockSum f i (n + 1) = _
    rw [ih, Finset.sum_range_succ _ (n + 1)]

/-- Block `b` and offset `q` name column `512·b + q`: a bijection between the 18 × 512 pairs and the 9216 columns. -/
def blockEquiv : Fin 18 × Fin 512 ≃ Fin 9216 where
  toFun p := ⟨512 * p.1.val + p.2.val, by have := p.1.isLt; have := p.2.isLt; omega⟩
  invFun j := (⟨j.val / 512, by have := j.isLt; omega⟩, ⟨j.val % 512, Nat.mod_lt _ (by norm_num)⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv j := Fin.ext (by show 512 * (j.val / 512) + j.val % 512 = j.val; omega)

theorem col_eq (b : Fin 18) (q : Fin 512) : col b.val q = blockEquiv (b, q) :=
  Fin.ext (by
    show (512 * b.val + q.val) % 9216 = 512 * b.val + q.val
    have := b.isLt
    have := q.isLt
    omega)

/-- Row `i`'s blockwise total is the sum of its affinities over all columns. -/
theorem rowSum_eq (f : Fin 9216 → Row) (i : Fin 9216) : rowSum f i = ∑ j : Fin 9216, simSub (f i) (f j) := by
  unfold rowSum
  rw [accum_eq, Finset.sum_range (fun b => blockSum f i b)]
  calc ∑ b : Fin 18, blockSum f i b.val
      = ∑ b : Fin 18, ∑ q : Fin 512, simSub (f i) (f (col b.val q)) := rfl
    _ = ∑ p : Fin 18 × Fin 512, simSub (f i) (f (col p.1.val p.2)) :=
        (Fintype.sum_prod_type' (fun (b : Fin 18) (q : Fin 512) => simSub (f i) (f (col b.val q)))).symm
    _ = ∑ j : Fin 9216, simSub (f i) (f j) :=
        Fintype.sum_equiv blockEquiv _ _ (fun ⟨b, q⟩ => by
          show simSub (f i) (f (col b.val q)) = simSub (f i) (f (blockEquiv (b, q)))
          rw [col_eq])

/-! ## The mean of the row means is the grand total over 9216² -/

/-- Multiplication by a nonnegative real distributes over a finite sum of extended reals. -/
theorem sum_mul_coe {ι : Type*} (s : Finset ι) (g : ι → EReal) {c : ℝ} (hc : 0 ≤ c) :
    (∑ i ∈ s, g i) * (c : EReal) = ∑ i ∈ s, g i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem meanBlocks_eq_meanRows (f : Fin 9216 → Row) (hf : Finite f) : meanBlocks f = meanRows f := by
  have h1 : (9216 : ℝ) ≠ 0 := by norm_num
  have h2 : (84934656 : ℝ) ≠ 0 := by norm_num
  have hc : ((1 / 84934656 : ℝ) : EReal) = ((1 / 9216 : ℝ) : EReal) * ((1 / 9216 : ℝ) : EReal) := by
    rw [← EReal.coe_mul]; norm_num
  have key := sum_mul_coe Finset.univ (fun i : Fin 9216 => ∑ j : Fin 9216, simSub (f i) (f j)) (c := 1 / 9216) (by norm_num)
  unfold meanBlocks meanRows
  simp only [rowSum_eq, simDiag_eq f hf, zero_add, nRows_eq, nPairs_eq, Ideal.div_coe h1, Ideal.div_coe h2]
  rw [hc, ← mul_assoc, key]

end Cert.SimSpec

end
-- ==== Proof.Ref.Rows.lean ====
/-
  The two contractions of the all-pairs program read at an index: the squared norm of a feature row
  (the row sum of the squared entries, started at 0) and the inner product of two rows (the product of the
  matrix with its own transpose).
-/
import proofs.«151718_j86638080294934_1_alg».proof.Proof.Spec
import proofs.«151718_j86638080294934_1_alg».proof.Proof.Gen.ReferenceIdeal.Read

noncomputable section

namespace Cert.ReferenceIdeal.RefValue

open Cert.ReferenceIdeal Cert.ReferenceIdeal.Read Idealize.ShloMosaic Idealize.ShloMosaic.ValueIdx

/-- Row `r`, column `k` of the feature matrix, reached through the row-sum's index map. -/
theorem idx_sq (r : Fin 9216) (k : Fin 1024) : idx_main_v1 (ix1 r) k = ix2 r k :=
  funext fun a => by match a with | ⟨0, _⟩ => rfl | ⟨1, _⟩ => rfl

/-- The squared norm of row `r`: `0 + Σ_k x[r,k]·x[r,k]`. -/
theorem sq_eq (x0 : (⟨S9216x1024, .f32⟩ : BufTy).Contents (Elt Ideal)) (r : Fin 9216) :
    val_main_v1 (F := Ideal) x0 (ix1 r) = Cert.SimSpec.sqn (fun k => x0 (ix2 r k)) := by
  rw [val_main_v1_apply, val_main_cst_apply, Ideal.ofBits_def, Ideal.ofBits_zero_f32, zero_add]
  unfold Cert.SimSpec.sqn
  refine Finset.sum_congr rfl fun k _ => ?_
  rw [val_main_v0_apply, Ideal.mulf_def, idx_sq]

/-- The left factor of the product at `(i, j)`, term `k`, is `x[i,k]`. -/
theorem idx_gram_l (i j : Fin 9216) (k : Fin 1024) : lidx_main_v3 (ix2 i j) k = ix2 i k :=
  funext fun a => by match a with | ⟨0, _⟩ => rfl | ⟨1, _⟩ => rfl

/-- The right factor, read through the transpose, is `x[j,k]`. -/
theorem idx_gram_r (i j : Fin 9216) (k : Fin 1024) : idx_main_v2 (ridx_main_v3 (ix2 i j) k) = ix2 j k :=
  funext fun a => by match a with | ⟨0, _⟩ => rfl | ⟨1, _⟩ => rfl

/-- The inner product of rows `i` and `j`. -/
theorem gram_eq (x0 : (⟨S9216x1024, .f32⟩ : BufTy).Contents (Elt Ideal)) (i j : Fin 9216) :
    val_main_v3 (F := Ideal) x0 (ix2 i j) = Cert.SimSpec.dot (fun k => x0 (ix2 i k)) (fun k => x0 (ix2 j k)) := by
  rw [val_main_v3_apply]
  unfold Cert.SimSpec.dot
  refine Finset.sum_congr rfl fun k _ => ?_
  rw [val_main_v2_apply, idx_gram_l, idx_gram_r]

end Cert.ReferenceIdeal.RefValue

end
-- ==== Proof.Ref.DiagBit.lean ====
/-
  The diagonal mask on words: two row numbers below 9216, written as 32-bit words (the first with the zero word
  added), compare equal exactly when the numbers are equal, because both are far below 2^32.
-/
import Idealize.ShloMosaic.Lib.ValueIdx

namespace Cert.ReferenceIdeal.RefValue

open Idealize.ShloMosaic Idealize.ShloMosaic.ValueIdx

/-- Distinct numbers below 9216 have distinct 32-bit words. -/
theorem word_ne {i j : Fin 9216} (h : i ≠ j) : BitVec.ofNat 32 i.val ≠ BitVec.ofNat 32 j.val := by
  intro e
  have e' := congrArg BitVec.toNat e
  simp only [BitVec.toNat_ofNat] at e'
  have hi := i.isLt
  have hj := j.isLt
  rw [Nat.mod_eq_of_lt (by omega), Nat.mod_eq_of_lt (by omega)] at e'
  exact h (Fin.ext e')

/-- The equality bit of `i + 0` and `j` as words is the bit of `i = j`. -/
theorem diag_bit (i j : Fin 9216) :
    IntOp.cmpi .eq (IntOp.addi (BitVec.ofNat 32 i.val) 0#32) (BitVec.ofNat 32 j.val) = if i = j then 1#1 else 0#1 := by
  show BitVec.ofBool (BitVec.ofNat 32 i.val + 0#32 == BitVec.ofNat 32 j.val) = _
  rw [BitVec.add_zero]
  by_cases h : i = j
  · subst h
    rw [if_pos rfl, beq_self_eq_true]
    rfl
  · rw [if_neg h, beq_eq_false_iff_ne.mpr (word_ne h)]
    rfl

/-- A select on the bit of a decidable proposition is the `if` on it. -/
theorem select_ite {α : Type} (p : Prop) [Decidable p] (a b : α) :
    Scalar.select (if p then 1#1 else 0#1) a b = if p then a else b := by
  by_cases h : p
  · rw [if_pos h, if_pos h, select_one]
  · rw [if_neg h, if_neg h, select_zero]

end Cert.ReferenceIdeal.RefValue
-- ==== Proof.Ref.Sim.lean ====
/-
  The similarity matrix of the all-pairs program read at an index `(i, j)`: the exponential of minus the clamped
  squared distance over the guarded denominator, with the diagonal (decided by comparing the two coordinates)
  replaced by 1.
-/
import proofs.«151718_j86638080294934_1_alg».proof.Proof.Spec
import proofs.«151718_j86638080294934_1_alg».proof.Proof.Ref.Rows
import proofs.«151718_j86638080294934_1_alg».proof.Proof.Ref.DiagBit

noncomputable section

namespace Cert.ReferenceIdeal.RefValue

open Cert.ReferenceIdeal Cert.ReferenceIdeal.Read Idealize.ShloMosaic Idealize.ShloMosaic.ValueIdx

/-! ### The broadcasts of the row norms: entry `(i, j)` reads row `i` (a column broadcast) or row `j` (a row broadcast) -/

theorem idx_sq_col (i j : Fin 9216) : idx_main_v13 (idx_main_v15 (ix2 i j)) = ix1 i :=
  funext fun a => by match a with | ⟨0, _⟩ => rfl
theorem idx_sq_row (i j : Fin 9216) : idx_main_v14 (idx_main_v16 (ix2 i j)) = ix1 j :=
  funext fun a => by match a with | ⟨0, _⟩ => rfl
theorem idx_norm_col (i j : Fin 9216) : idx_main_v5 (idx_main_v7 (ix2 i j)) = ix1 i :=
  funext fun a => by match a with | ⟨0, _⟩ => rfl
theorem idx_norm_row (i j : Fin 9216) : idx_main_v6 (idx_main_v8 (ix2 i j)) = ix1 j :=
  funext fun a => by match a with | ⟨0, _⟩ => rfl

/-- The cosine with its guarded denominator. -/
theorem cos_eq (x0 : (⟨S9216x1024, .f32⟩ : BufTy).Contents (Elt Ideal)) (i j : Fin 9216) :
    val_main_v12 (F := Ideal) x0 (ix2 i j) = Cert.SimSpec.cosv (fun k => x0 (ix2 i k)) (fun k => x0 (ix2 j k)) := by
  rw [val_main_v12_apply, val_main_v11_apply, val_main_v9_apply, val_main_v7_apply, val_main_v5_apply, val_main_v4_apply,
    val_main_v8_apply, val_main_v6_apply, val_main_v4_apply, val_main_v10_apply, val_main_cst_0_apply,
    idx_norm_col, idx_norm_row, sq_eq, sq_eq, gram_eq]
  rfl

/-- The squared distance, clamped at 0. -/
theorem dist2_eq (x0 : (⟨S9216x1024, .f32⟩ : BufTy).Contents (Elt Ideal)) (i j : Fin 9216) :
    val_main_v22 (F := Ideal) x0 (ix2 i j) = Cert.SimSpec.dist2 (fun k => x0 (ix2 i k)) (fun k => x0 (ix2 j k)) := by
  rw [val_main_v22_apply, val_main_v20_apply, val_main_v17_apply, val_main_v15_apply, val_main_v13_apply,
    val_main_v16_apply, val_main_v14_apply, val_main_v19_apply, val_main_v18_apply, val_main_cst_1_apply,
    val_main_v21_apply, val_main_cst_2_apply, idx_sq_col, idx_sq_row, sq_eq, sq_eq, gram_eq,
    Ideal.ofBits_def, Ideal.ofBits_def, Ideal.ofBits_zero_f32]
  rfl

/-- The guarded denominator of the exponent. -/
theorem denom_eq (x0 : (⟨S9216x1024, .f32⟩ : BufTy).Contents (Elt Ideal)) (i j : Fin 9216) :
    val_main_v28 (F := Ideal) x0 (ix2 i j) = Cert.SimSpec.denom (fun k => x0 (ix2 i k)) (fun k => x0 (ix2 j k)) := by
  rw [val_main_v28_apply, val_main_v26_apply, val_main_v25_apply, val_main_cst_4_apply, val_main_v24_apply,
    val_main_v23_apply, val_main_cst_3_apply, val_main_v27_apply, val_main_cst_5_apply, cos_eq]
  rfl

/-- Off the diagonal: the affinity of rows `i` and `j`. -/
theorem exp_eq (x0 : (⟨S9216x1024, .f32⟩ : BufTy).Contents (Elt Ideal)) (i j : Fin 9216) :
    val_main_v31 (F := Ideal) x0 (ix2 i j) = Cert.SimSpec.simNeg (fun k => x0 (ix2 i k)) (fun k => x0 (ix2 j k)) := by
  rw [val_main_v31_apply, val_main_v30_apply, val_main_v29_apply, dist2_eq, denom_eq]
  rfl

/-- The diagonal mask: the bit of `i = j`. -/
theorem mask_eq (i j : Fin 9216) : val_main_v36 (F := Ideal) (ix2 i j) = if i = j then 1#1 else 0#1 := by
  rw [val_main_v36_apply, val_main_v35_apply, val_main_v32_apply, val_main_v33_apply, val_main_v34_apply, val_main_c_apply]
  exact diag_bit i j

/-- The value written on the diagonal. -/
theorem one_eq (i j : Fin 9216) : val_main_call0_v0 (F := Ideal) (ix2 i j) = Cert.SimSpec.one := by
  rw [val_main_call0_v0_apply, val_main_cst_6_apply]
  rfl

/-- The similarity matrix with its diagonal forced to 1. -/
theorem simDiag_eq (x0 : (⟨S9216x1024, .f32⟩ : BufTy).Contents (Elt Ideal)) (i j : Fin 9216) :
    val_main_v37 (F := Ideal) x0 (ix2 i j) = Cert.SimSpec.simDiag (fun r k => x0 (ix2 r k)) i j := by
  rw [val_main_v37_apply, mask_eq, one_eq, exp_eq, select_ite]
  rfl

end Cert.ReferenceIdeal.RefValue

end
-- ==== Proof.Ref.Mean.lean ====
/-
  The mean of the row means of the all-pairs program: each row of the similarity matrix is summed (from 0) and
  divided by 9216, and the 9216 row means are summed (from 0) and divided by 9216.
-/
import proofs.«151718_j86638080294934_1_alg».proof.Proof.Spec
import proofs.«151718_j86638080294934_1_alg».proof.Proof.Ref.Sim

noncomputable section

namespace Cert.ReferenceIdeal.RefValue

open Cert.ReferenceIdeal Cert.ReferenceIdeal.Read Idealize.ShloMosaic Idealize.ShloMosaic.ValueIdx

/-- A rank-1 index set is its coordinate's range … -/
def idxEquiv1 {n : Nat} : (⟨1, ![n]⟩ : Shape).Idx ≃ Fin n where
  toFun i := i 0
  invFun r := ix1 r
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- Entry `j` of row `r`, reached through the row sum's index map. -/
theorem idx_rowsum (r j : Fin 9216) : idx_main_v81 (ix1 r) j = ix2 r j :=
  funext fun a => by match a with | ⟨0, _⟩ => rfl | ⟨1, _⟩ => rfl

/-- The mean of row `r` of the similarity matrix. -/
theorem rowMean_eq (x0 : (⟨S9216x1024, .f32⟩ : BufTy).Contents (Elt Ideal)) (r : Fin 9216) :
    val_main_v83 (F := Ideal) x0 (ix1 r)
      = Ideal.div (0 + ∑ j : Fin 9216, Cert.SimSpec.simDiag (fun r k => x0 (ix2 r k)) r j) Cert.SimSpec.nRows := by
  rw [val_main_v83_apply, val_main_v81_apply, val_main_cst_11_apply, val_main_v82_apply, val_main_cst_12_apply,
    Ideal.ofBits_def, Ideal.ofBits_def, Ideal.ofBits_zero_f32, Ideal.hostDivf_def]
  refine congrArg (fun s => Ideal.div (0 + s) _) (Finset.sum_congr rfl fun j _ => ?_)
  rw [idx_rowsum, simDiag_eq]

/-- The mean of the row means. -/
theorem meanRows_eq (x0 : (⟨S9216x1024, .f32⟩ : BufTy).Contents (Elt Ideal)) (i : S_.Idx) :
    val_main_v87 (F := Ideal) x0 i = Cert.SimSpec.meanRows (fun r k => x0 (ix2 r k)) := by
  rw [val_main_v87_apply, val_main_v86_apply, val_main_cst_15_apply, val_main_cst_16_apply,
    Ideal.ofBits_def, Ideal.ofBits_def, Ideal.ofBits_zero_f32, Ideal.hostDivf_def, sum_idx1]
  unfold Cert.SimSpec.meanRows
  refine congrArg (fun s => Ideal.div (0 + s) _) (Finset.sum_congr rfl fun r _ => ?_)
  exact rowMean_eq x0 r

end Cert.ReferenceIdeal.RefValue

end
-- ==== Proof.Ref.Imports.lean ====
/-
  The reference program's run read back (each result as the composed term of its operations) and that term read at an
  index one operation at a time: the two generated modules the reference side of the proof is written over.
-/
import proofs.«151718_j86638080294934_1_alg».proof.Proof.Gen.ReferenceIdeal.Run
import proofs.«151718_j86638080294934_1_alg».proof.Proof.Gen.ReferenceIdeal.Read
-- ==== Proof.Ideal.TailArrays.lean ====
/-
  The result buffer once the host lines after the region have run, as whole arrays: the mean of the small network's
  sigmoid outputs — the same lines, applied to the same arguments, as the plain program's — times the grand total of
  the row sums divided by 9216². The network enters only as one function of the twelve arguments.
-/
import proofs.«151718_j86638080294934_1_alg».proof.Proof.Ideal.Tail
import proofs.«151718_j86638080294934_1_alg».proof.Proof.Ref.Imports
import proofs.«151718_j86638080294934_1_alg».proof.Proof.Spec
import Idealize.ShloMosaic.Lib.StableHlo.Run

noncomputable section

namespace Cert.KernelIdeal.Hand

open Idealize.ShloMosaic Idealize.ShloMosaic.TcCoe
open Cert.KernelIdeal Cert.KernelIdeal.Gen

section Generic

variable {F : FTy → Type} [FloatOps F]

/-- The grand total of the row sums, from 0, divided by 9216² (as the float literal `0x4CA20000`). -/
def scaledTotal (v : (⟨S9216x1, .f32⟩ : BufTy).Contents (Elt F)) : (⟨S_, .f32⟩ : BufTy).Contents (Elt F) :=
  Host.divf (Host.reduceAdd v (constant S_ .f32 0x00000000#32) reducesTo_S9216x1_S_d0_1 h_S_) (constant S_ .f32 0x4CA20000#32)

set_option maxRecDepth 8192 in
set_option maxHeartbeats 8000000 in
/-- The result buffer after the host lines: the network's mean output times the scaled total, as whole arrays. -/
theorem tail_v48_eq (W : Valuation τ sig (Elt F)) :
    StableHlo.after (tailOpss (F := F)).flatten W (Proc.devRef .tc main_v48)
      = mulf (Cert.ReferenceIdeal.Read.val_main_v85 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)))
          (scaledTotal (W (Proc.devRef .tc main_v0))) := by
  simp only [tailOpss, hostOps1, hostOps1_1, hostOps1_2, hostOps1_3, hostOps1_4, List.flatten_cons, List.flatten_nil,
    List.append_nil, List.cons_append, List.nil_append]
  after_results_simp
  rfl

end Generic

end Cert.KernelIdeal.Hand

end
-- ==== Proof.Ideal.TailValue.lean ====
/-
  The result the blockwise program returns, read at its one index: the mean of the small network's sigmoid outputs
  (the plain program's own term for it, on the same arguments) times the grand total of the row sums, counted from 0
  and divided by 9216².
-/
import proofs.«151718_j86638080294934_1_alg».proof.Proof.Ideal.TailArrays
import Idealize.ShloMosaic.PureOps.Ideal.Laws
import Idealize.ShloMosaic.Lib.ValueIdx

noncomputable section

namespace Cert.KernelIdeal.Hand

open Idealize.ShloMosaic Idealize.ShloMosaic.TcCoe
open Cert.KernelIdeal Cert.KernelIdeal.Gen

/-- The scaled total at its one index: a sum over the 9216 rows (the array's second axis has one coordinate). -/
theorem scaledTotal_apply (v : (⟨S9216x1, .f32⟩ : BufTy).Contents (Elt Ideal)) (i : S_.Idx) :
    scaledTotal (F := Ideal) v i
      = Ideal.div (0 + ∑ r : Fin 9216, v (Idealize.ShloMosaic.ValueIdx.ix2 r 0)) Cert.SimSpec.nPairs := by
  unfold scaledTotal
  show Ideal.div (Host.reduceAdd (F := Ideal) v (constant (F := Ideal) S_ .f32 0x00000000#32) reducesTo_S9216x1_S_d0_1 h_S_ i)
      (Ideal.ofBits .f32 0x4CA20000#32) = _
  simp only [Host.reduceAdd, Ideal.hostReduceAdd_def]
  rw [Ideal.hostReduceAdd_total reducesTo_S9216x1_S_d0_1 (fun b => b.elim0) v _ i]
  have hc : constant (F := Ideal) S_ .f32 (0x00000000#32) (Shape.Idx.first h_S_) = 0 := Ideal.ofBits_zero_f32
  have hs : ∑ j : S9216x1.Idx, v j = ∑ r : Fin 9216, v (Idealize.ShloMosaic.ValueIdx.ix2 r 0) := by
    rw [Idealize.ShloMosaic.ValueIdx.sum_idx2]
    exact Finset.sum_congr rfl fun r _ => Fin.sum_univ_one _
  rw [hc, hs]
  rfl

/-- The result buffer after the host lines, at its one index. -/
theorem tail_value (W : Valuation τ sig (Elt Ideal)) (i : S_.Idx) :
    StableHlo.after (tailOpss (F := Ideal)).flatten W (Proc.devRef .tc main_v48) i
      = Cert.ReferenceIdeal.Read.val_main_v85 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) i
        * Ideal.div (0 + (∑ r : Fin 9216, W (Proc.devRef .tc main_v0) (Idealize.ShloMosaic.ValueIdx.ix2 r 0) : EReal)) Cert.SimSpec.nPairs := by
  rw [tail_v48_eq]
  generalize Cert.ReferenceIdeal.Read.val_main_v85 (F := Ideal) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) = A
  exact congrArg (A i * ·) (scaledTotal_apply (W (Proc.devRef .tc main_v0)) i)

end Cert.KernelIdeal.Hand

end
-- ==== Proof.Bridge.lean ====
/-
  The two programs return the same number. The blockwise program's result is the mean of the small network's
  sigmoid outputs times the grand total of its row sums over 9216²; the all-pairs program's is the same network
  mean times the mean of the row means of the similarity matrix with unit diagonal. Given finite features and the
  row sums as the running totals over the 18 column blocks, the two scalings of the similarity agree, and the
  network factor is literally the same term on both sides.
-/
import proofs.«151718_j86638080294934_1_alg».proof.Proof.Algebra
import proofs.«151718_j86638080294934_1_alg».proof.Proof.Ref.Mean
import proofs.«151718_j86638080294934_1_alg».proof.Proof.Ideal.TailValue

noncomputable section

namespace Cert.Bridge

open Idealize.ShloMosaic Idealize.ShloMosaic.TcCoe Idealize.ShloMosaic.ValueIdx

/-- The result buffer after the blockwise program's host lines is the all-pairs program's result on the same arguments. -/
theorem result_eq (W : Valuation Cert.KernelIdeal.τ Cert.KernelIdeal.sig (Elt Ideal))
    (hfin : Cert.SimSpec.Finite (fun r k => W (Proc.devRef .tc Cert.KernelIdeal.main_arg0) (ix2 r k)))
    (hout : ∀ r : Fin 9216, W (Proc.devRef .tc Cert.KernelIdeal.main_v0) (ix2 r 0)
      = Cert.SimSpec.rowSum (fun r k => W (Proc.devRef .tc Cert.KernelIdeal.main_arg0) (ix2 r k)) r) :
    StableHlo.after (Cert.KernelIdeal.Hand.tailOpss (F := Ideal)).flatten W (Proc.devRef .tc Cert.KernelIdeal.main_v48)
      = Cert.ReferenceIdeal.Read.val_main_v88 (F := Ideal) (W (Proc.devRef .tc Cert.KernelIdeal.main_arg0)) (W (Proc.devRef .tc Cert.KernelIdeal.main_arg1)) (W (Proc.devRef .tc Cert.KernelIdeal.main_arg2)) (W (Proc.devRef .tc Cert.KernelIdeal.main_arg3)) (W (Proc.devRef .tc Cert.KernelIdeal.main_arg4)) (W (Proc.devRef .tc Cert.KernelIdeal.main_arg5)) (W (Proc.devRef .tc Cert.KernelIdeal.main_arg6)) (W (Proc.devRef .tc Cert.KernelIdeal.main_arg7)) (W (Proc.devRef .tc Cert.KernelIdeal.main_arg8)) (W (Proc.devRef .tc Cert.KernelIdeal.main_arg9)) (W (Proc.devRef .tc Cert.KernelIdeal.main_arg10)) (W (Proc.devRef .tc Cert.KernelIdeal.main_arg11)) := by
  funext i
  rw [Cert.KernelIdeal.Hand.tail_value, Cert.ReferenceIdeal.Read.val_main_v88_apply, Ideal.mulf_def,
    Cert.ReferenceIdeal.RefValue.meanRows_eq, ← Cert.SimSpec.meanBlocks_eq_meanRows _ hfin]
  unfold Cert.SimSpec.meanBlocks
  simp only [hout]

end Cert.Bridge

end
-- ==== Proof.Ideal.Result.lean ====
/-
  The kernel program's result at the ideal instance. The row-sum array ends holding, at row i, the blockwise sum of
  row i's affinities; the host lines after the region turn it into the scaled grand total times the network's mean.
  Under finite inputs that is the reference's result: the mean of the row means of the matrix with unit diagonal,
  times the same network mean.
-/
import proofs.«151718_j86638080294934_1_alg».proof.Proof.Ideal.Out
import proofs.«151718_j86638080294934_1_alg».proof.Proof.Ideal.ChainValue
import proofs.«151718_j86638080294934_1_alg».proof.Proof.Ideal.FrameOf
import proofs.«151718_j86638080294934_1_alg».proof.Proof.Ideal.Finite
import proofs.«151718_j86638080294934_1_alg».proof.Proof.Bridge

noncomputable section

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.SimSpec

variable (m : (ℓ : Loc nD τ sig) → Buf (Elt Ideal) ℓ)

/-- Row i of the array after the region is the blockwise row sum of the feature matrix's affinities. -/
theorem rowsOut_eq_rowSum (c : Dev nD) (i : Fin 9216) :
    rowsOut m c (ix2 i 0) = rowSum (fun r k => m ((c.tc : Thread nD τ).loc main_arg0) (ix2 r k)) i := by
  have hi := i.isLt
  rw [rowsOut_apply m c (i.val / 1024) (i.val % 1024) (by omega) (Nat.mod_lt _ (by norm_num)) (ix2 i 0)
    (by show i.val = 1024 * (i.val / 1024) + i.val % 1024; omega)]
  have h := chain_apply m c ⟨i.val / 1024, by omega⟩ ⟨17, by norm_num⟩ ⟨i.val % 1024, Nat.mod_lt _ (by norm_num)⟩
    (by rw [show cfg0.N = 162 from N_0]; dsimp only; omega)
  dsimp only at h
  rw [h]
  unfold rowSum
  exact congrArg (fun x => accum _ x 17) (Fin.ext (by dsimp only; omega))

/-- The program's result buffer after the run, under finite inputs, is the reference's result term of the same arguments. -/
theorem result_eq (hpre : Cert.Pre_KernelIdeal m) (c : Dev nD) :
    tailV m (dats m) c main_v48
      = Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold tailV
  rw [final2]
  have hb := Cert.Bridge.result_eq (exitVal m c (rowsOut m c))
  rw [exitVal_v0] at hb
  simp only [exitVal_of_ne m c (rowsOut m c) main_arg0 (by decide), exitVal_of_ne m c (rowsOut m c) main_arg1 (by decide),
    exitVal_of_ne m c (rowsOut m c) main_arg2 (by decide), exitVal_of_ne m c (rowsOut m c) main_arg3 (by decide),
    exitVal_of_ne m c (rowsOut m c) main_arg4 (by decide), exitVal_of_ne m c (rowsOut m c) main_arg5 (by decide),
    exitVal_of_ne m c (rowsOut m c) main_arg6 (by decide), exitVal_of_ne m c (rowsOut m c) main_arg7 (by decide),
    exitVal_of_ne m c (rowsOut m c) main_arg8 (by decide), exitVal_of_ne m c (rowsOut m c) main_arg9 (by decide),
    exitVal_of_ne m c (rowsOut m c) main_arg10 (by decide), exitVal_of_ne m c (rowsOut m c) main_arg11 (by decide)] at hb
  exact hb (finite_of_pre m hpre c) (fun r => rowsOut_eq_rowSum m c r)

end Cert.KernelIdeal.Hand

end
-- ==== Proof.lean ====
/-
  The certificate's five claims.

  The kernel walks a 9 × 18 grid over ONE feature matrix read through two windows (a 1024-row block and a 512-row
  block): at each point it adds, to a running total per row kept in scratch, the sum over the 512 columns of the
  affinity exp (−d² / den) of the row pair; the total is zeroed at a row block's first column block and copied out at
  its last. The host then divides the grand total by 9216² and multiplies by the mean of a small network's sigmoid
  outputs. The reference forms the whole 9216 × 9216 affinity matrix, sets its diagonal to 1, and takes the mean of the
  row means, times the same network mean.

  Frames: the body is run once per case of its two conditions on the grid point; the proof data name what the
  scratch and the output block hold after every point; the two input windows hold their common array at half shares.
  Value: at the ideal instance the running totals are the blockwise row sums; on the diagonal d² = 0 for real
  entries, so the affinity there is 1; every affinity is nonnegative, so dividing the row sums by 9216 twice is
  dividing their total by 9216².
-/
import proofs.«151718_j86638080294934_1_alg».proof.Defs
import proofs.«151718_j86638080294934_1_alg».proof.Proof.Gen.Kernel
import proofs.«151718_j86638080294934_1_alg».proof.Proof.Gen.KernelIdeal
import proofs.«151718_j86638080294934_1_alg».proof.Proof.Gen.ReferenceIdeal
import proofs.«151718_j86638080294934_1_alg».proof.Proof.Gen.Pre_finite_inputs
import proofs.«151718_j86638080294934_1_alg».proof.Proof.Bits.Launch
import proofs.«151718_j86638080294934_1_alg».proof.Proof.Bits.FrameOf
import proofs.«151718_j86638080294934_1_alg».proof.Proof.Bits.Frame
import proofs.«151718_j86638080294934_1_alg».proof.Proof.Ideal.Launch
import proofs.«151718_j86638080294934_1_alg».proof.Proof.Ideal.Result
import proofs.«151718_j86638080294934_1_alg».proof.Proof.Ref.Imports
import Idealize.ShloMosaic.Adequacy
import Idealize.ShloMosaic.Init

noncomputable section

namespace Cert.Proof

open Idealize.ShloMosaic Idealize.SL.Sem

/-- The word-level kernel program runs to the end, faults nowhere, and leaves its arguments unchanged. -/
theorem frame_k : Cert.frame_Kernel := fun m ρ _ =>
  Cert.Kernel.Hand.frame_of m ρ (Cert.Kernel.Hand.dats m) (Cert.Kernel.Hand.A_eq m)
    (Cert.Kernel.Hand.run_shared m ρ (Cert.Kernel.Hand.dats m) (fun c => (Cert.Kernel.Hand.body_obligation m c).loose)
      (fun _ => rfl) (fun _ => rfl) (fun _ _ => rfl) (Cert.Kernel.Hand.A_eq m) (Cert.Kernel.Hand.hin m) (Cert.Kernel.Hand.hout m))

/-- The same of the idealized kernel program. -/
theorem frame_ki : Cert.frame_KernelIdeal := fun m ρ _ =>
  Cert.KernelIdeal.Hand.frame_of m ρ (Cert.KernelIdeal.Hand.dats m) (Cert.KernelIdeal.Hand.A_eq m)
    (Cert.KernelIdeal.Hand.run_shared m ρ (Cert.KernelIdeal.Hand.dats m) (fun c => (Cert.KernelIdeal.Hand.body_obligation m c).loose)
      (fun _ => rfl) (fun _ => rfl) (fun _ _ => rfl) (Cert.KernelIdeal.Hand.A_eq m) (Cert.KernelIdeal.Hand.hin m) (Cert.KernelIdeal.Hand.hout m))

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, under finite inputs, both idealized programs end with the same result. -/
theorem algebraic : Cert.algebraic_KernelIdeal_ReferenceIdeal := by
  intro m ρ m' ρ' hpre hagree
  refine ⟨fun c => Cert.KernelIdeal.Hand.tailV m (Cert.KernelIdeal.Hand.dats m) c Cert.KernelIdeal.main_v48, ?_, ?_⟩
  · exact Cert.KernelIdeal.Hand.value_of m ρ (Cert.KernelIdeal.Hand.dats m) (Cert.KernelIdeal.Hand.A_eq m)
      (Cert.KernelIdeal.Hand.run_shared m ρ (Cert.KernelIdeal.Hand.dats m) (fun c => (Cert.KernelIdeal.Hand.body_obligation m c).loose)
        (fun _ => rfl) (fun _ => rfl) (fun _ _ => rfl) (Cert.KernelIdeal.Hand.A_eq m) (Cert.KernelIdeal.Hand.hin m) (Cert.KernelIdeal.Hand.hout m))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v88_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]
    exact (Cert.KernelIdeal.Hand.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
